-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S800000x8 : Shape := ⟨2, ![800000, 8]⟩
abbrev S16x64 : Shape := ⟨2, ![16, 64]⟩
abbrev S64 : Shape := ⟨1, ![64]⟩
abbrev S64x64 : Shape := ⟨2, ![64, 64]⟩
abbrev S136x64 : Shape := ⟨2, ![136, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S136x64 : S_.BroadcastsInDim S136x64 (![] : Fin 0 → Fin S136x64.rank)
  reducesTo_S136x64_S_d0_1 : S136x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32 .f32) (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg16
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S136x64 .f32) (main_arg13 : FVec F S64 .f32) (main_arg14 : FVec F S64x32 .f32) (main_arg15 : FVec F S32 .f32) (main_arg16 : FVec F S32x1 .f32) (main_arg17 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S136x64 .f32 := Host.absf main_arg12
  let main_cst_20 : FVec F S_ .f32 := constant S_ .f32 0x7F800000#32
  let main_v55 : FVec F S136x64 .f32 := broadcastInDim S136x64 ![] bcast_S_S136x64 main_cst_20
  let main_v56 : IVec S136x64 1 := cmpf .olt main_v54 main_v55
  let main_c_21 : IVec S_ 1 := constantI S_ 1 1#1
  let main_v57 : IVec S_ 1 := (fun x v => Host.reduce IntOp.andi x v reducesTo_S136x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_v63 main_v67

def fn_part2 {F : FTy → Type} [FloatOps F] (main_arg8 : FVec F S64 .f32) (main_arg9 : FVec F S64x64 .f32) (main_arg10 : FVec F S64x64 .f32) (main_arg11 : FVec F S64 .f32) (main_arg12 : FVec F S136x64 .f32) (main_arg13 : FVec F S64 .f32) (main_arg14 : FVec F S64x32 .f32) (main_arg15 : FVec F S32 .f32) (main_arg16 : FVec F S32x1 .f32) (main_arg17 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S136x64 .f32) (main_arg13 : FVec F S64 .f32) (main_arg14 : FVec F S64x32 .f32) (main_arg15 : FVec F S32 .f32) (main_arg16 : FVec F S32x1 .f32) (main_arg17 : FVec F S1 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x16 .f32) (main_arg1 : IVec S2x800000 32) (main_arg2 : FVec F S800000x8 .f32) (main_arg3 : FVec F S16x64 .f32) (main_arg4 : FVec F S16x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S136x64 .f32) (main_arg13 : FVec F S64 .f32) (main_arg14 : FVec F S64x32 .f32) (main_arg15 : FVec F S32 .f32) (main_arg16 : FVec F S32x1 .f32) (main_arg17 : FVec F S1 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x16 : Shape := ⟨2, ![50000, 16]⟩
abbrev S2x800000 : Shape := ⟨2, ![2, 800000]⟩
abbrev S800000x8 : Shape := ⟨2, ![800000, 8]⟩
abbrev S16x64 : Shape := ⟨2, ![16, 64]⟩
abbrev S64 : Shape := ⟨1, ![64]⟩
abbrev S64x64 : Shape := ⟨2, ![64, 64]⟩
abbrev S136x64 : Shape := ⟨2, ![136, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x16 : Shape := ⟨2, ![800000, 16]⟩
abbrev S50000x64 : Shape := ⟨2, ![50000, 64]⟩
abbrev S10000x16 : Shape := ⟨2, ![10000, 16]⟩
abbrev S10000x64 : Shape := ⟨2, ![10000, 64]⟩
abbrev S1x64 : Shape := ⟨2, ![1, 64]⟩
abbrev S800000x64 : Shape := ⟨2, ![800000, 64]⟩
abbrev S800000x136 : Shape := ⟨2, ![800000, 136]⟩
abbrev S4000x136 : Shape := ⟨2, ![4000, 136]⟩
abbrev S4000x1 : Shape := ⟨2, ![4000, 1]⟩
abbrev S4000x64 : Shape := ⟨2, ![4000, 64]⟩
abbrev S4000x32 : Shape := ⟨2, ![4000, 32]⟩
abbrev S1x32 : Shape := ⟨2, ![1, 32]⟩
abbrev S1x1 : Shape := ⟨2, ![1, 1]⟩

abbrev nBuf : Space → Nat
  | .hbm => 116
  | .vmem => 37
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S800000x8, .f32⟩
  | .hbm, ⟨3, _⟩ => ⟨S16x64, .f32⟩
  | .hbm, ⟨4, _⟩ => ⟨S16x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S136x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x1, .f32⟩
  | .hbm, ⟨17, _⟩ => ⟨S1, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000x1, .f32⟩
  | .hbm, ⟨24, _⟩ => ⟨S_, .f32⟩
  | .hbm, ⟨25, _⟩ => ⟨S50000x1, .f32⟩
  | .hbm, ⟨26, _⟩ => ⟨S800000x1, .i32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x16, .f32⟩
  | .hbm, ⟨40, _⟩ => ⟨S_, .f32⟩
  | .hbm, ⟨41, _⟩ => ⟨S50000x16, .f32⟩
  | .hbm, ⟨42, _⟩ => ⟨S800000x1, .i32⟩
  | .hbm, ⟨43, _⟩ => ⟨S50000x16, .f32⟩
  | .hbm, ⟨44, _⟩ => ⟨S50000x16, .f32⟩
  | .hbm, ⟨45, _⟩ => ⟨S50000x16, .f32⟩
  | .hbm, ⟨46, _⟩ => ⟨S50000x16, .bf16⟩
  | .hbm, ⟨47, _⟩ => ⟨S50000x16, .bf16⟩
  | .hbm, ⟨48, _⟩ => ⟨S16x64, .bf16⟩
  | .hbm, ⟨49, _⟩ => ⟨S16x64, .bf16⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S50000x64, .bf16⟩
  | .hbm, ⟨67, _⟩ => ⟨S50000x64, .bf16⟩
  | .hbm, ⟨68, _⟩ => ⟨S64x64, .bf16⟩
  | .hbm, ⟨69, _⟩ => ⟨S64x64, .bf16⟩
  | .hbm, ⟨70, _⟩ => ⟨S50000x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S_, .f32⟩
  | .hbm, ⟨81, _⟩ => ⟨S50000x64, .f32⟩
  | .hbm, ⟨82, _⟩ => ⟨S800000x1, .i32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S50000x64, .bf16⟩
  | .hbm, ⟨87, _⟩ => ⟨S50000x64, .bf16⟩
  | .hbm, ⟨88, _⟩ => ⟨S64x64, .bf16⟩
  | .hbm, ⟨89, _⟩ => ⟨S64x64, .bf16⟩
  | .hbm, ⟨90, _⟩ => ⟨S50000x64, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x64, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x64, .f32⟩
  | .hbm, ⟨109, _⟩ => ⟨S800000x136, .f32⟩
  | .hbm, ⟨110, _⟩ => ⟨S800000x136, .bf16⟩
  | .hbm, ⟨111, _⟩ => ⟨S136x64, .bf16⟩
  | .hbm, ⟨112, _⟩ => ⟨S64x32, .bf16⟩
  | .hbm, ⟨113, _⟩ => ⟨S32x1, .bf16⟩
  | .hbm, ⟨114, _⟩ => ⟨S800000x1, .f32⟩
  | .hbm, ⟨115, _⟩ => ⟨S800000, .f32⟩
  | .local _ .vmem, ⟨0, _⟩ => ⟨S10000x16, .bf16⟩
  | .local _ .vmem, ⟨1, _⟩ => ⟨S10000x16, .bf16⟩
  | .local _ .vmem, ⟨2, _⟩ => ⟨S10000x16, .bf16⟩
  | .local _ .vmem, ⟨3, _⟩ => ⟨S10000x16, .bf16⟩
  | .local _ .vmem, ⟨4, _⟩ => ⟨S16x64, .bf16⟩
  | .local _ .vmem, ⟨5, _⟩ => ⟨S16x64, .bf16⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .bf16⟩
  | .local _ .vmem, ⟨12, _⟩ => ⟨S10000x64, .bf16⟩
  | .local _ .vmem, ⟨13, _⟩ => ⟨S64x64, .bf16⟩
  | .local _ .vmem, ⟨14, _⟩ => ⟨S64x64, .bf16⟩
  | .local _ .vmem, ⟨15, _⟩ => ⟨S64, .f32⟩
  | .local _ .vmem, ⟨16, _⟩ => ⟨S10000x64, .f32⟩
  | .local _ .vmem, ⟨17, _⟩ => ⟨S10000x64, .f32⟩
  | .local _ .vmem, ⟨18, _⟩ => ⟨S10000x64, .bf16⟩
  | .local _ .vmem, ⟨19, _⟩ => ⟨S10000x64, .bf16⟩
  | .local _ .vmem, ⟨20, _⟩ => ⟨S10000x64, .bf16⟩
  | .local _ .vmem, ⟨21, _⟩ => ⟨S10000x64, .bf16⟩
  | .local _ .vmem, ⟨22, _⟩ => ⟨S64x64, .bf16⟩
  | .local _ .vmem, ⟨23, _⟩ => ⟨S64x64, .bf16⟩
  | .local _ .vmem, ⟨24, _⟩ => ⟨S64, .f32⟩
  | .local _ .vmem, ⟨25, _⟩ => ⟨S10000x64, .f32⟩
  | .local _ .vmem, ⟨26, _⟩ => ⟨S10000x64, .f32⟩
  | .local _ .vmem, ⟨27, _⟩ => ⟨S4000x136, .bf16⟩
  | .local _ .vmem, ⟨28, _⟩ => ⟨S4000x136, .bf16⟩
  | .local _ .vmem, ⟨29, _⟩ => ⟨S136x64, .bf16⟩
  | .local _ .vmem, ⟨30, _⟩ => ⟨S64, .f32⟩
  | .local _ .vmem, ⟨31, _⟩ => ⟨S64x32, .bf16⟩
  | .local _ .vmem, ⟨32, _⟩ => ⟨S32, .f32⟩
  | .local _ .vmem, ⟨33, _⟩ => ⟨S32x1, .bf16⟩
  | .local _ .vmem, ⟨34, _⟩ => ⟨S1, .f32⟩
  | .local _ .vmem, ⟨35, _⟩ => ⟨S4000x1, .f32⟩
  | .local _ .vmem, ⟨36, _⟩ => ⟨S4000x1, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_c : Ref sig .tc := ⟨.hbm, 31, rfl⟩
abbrev main_v10 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_10 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x136 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S136x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x1 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bitsLt_bf16_f32 : FTy.bits .bf16 < FTy.bits .f32
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S800000x64_S800000x64_S800000x8_S800000x136_d1 : Shape.Concatenates [S800000x64, S800000x64, S800000x8] S800000x136 1
  inb_S4000x136_S4000x136_0_0 : ∀ a, (![0, 0] : Fin 2 → Nat) a + S4000x136.size a ≤ S4000x136.size a
  h_S4000x136 : 0 < S4000x136.numel
  shapeCasts_S4000x136_S4000x136 : S4000x136.ShapeCasts S4000x136
  inb_S136x64_S136x64_0_0 : ∀ a, (![0, 0] : Fin 2 → Nat) a + S136x64.size a ≤ S136x64.size a
  h_S136x64 : 0 < S136x64.numel
  shapeCasts_S136x64_S136x64 : S136x64.ShapeCasts S136x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S800000x1_S800000 : S800000x1.ShapeCasts S800000
  scatter_S50000x1_S800000x1_S800000x1_1_0_0_1_wf : ScatterDims.WF S50000x1 S800000x1 S800000x1 [1] [0] [0] 1
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S10000x16_S16x64_S10000x64_1_0_0_1_n_n_wf : DotDims.WF S10000x16 S16x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  dot_S4000x136_S136x64_S4000x64_1_0_0_1_n_n_wf : DotDims.WF S4000x136 S136x64 S4000x64 [1] [0] [0] [1] [] []
  dot_S4000x64_S64x32_S4000x32_1_0_0_1_n_n_wf : DotDims.WF S4000x64 S64x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S50000x16.size a
  hwx0_0 : ∀ i : grid0.Coords, EltTy.bits .bf16 = 32 ∨ (Rect.block (s := S50000x16) S10000x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S50000x16.size a
  hwx0_1 : ∀ i : grid0.Coords, EltTy.bits .bf16 = 32 ∨ (Rect.block (s := S50000x16) S10000x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .bf16 = 32 ∨ (Rect.block (s := S16x64) S16x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .bf16 = 32 ∨ (Rect.block (s := S16x64) S16x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .bf16 = 32 ∨ (Rect.block (s := S50000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .bf16 = 32 ∨ (Rect.block (s := S50000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .bf16 = 32 ∨ (Rect.block (s := S50000x64) S10000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .bf16 = 32 ∨ (Rect.block (s := S50000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x136.size a ≤ S800000x136.size a
  hwx3_0 : ∀ i : grid3.Coords, EltTy.bits .bf16 = 32 ∨ (Rect.block (s := S800000x136) S4000x136.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S136x64.size a ≤ S136x64.size a
  hwx3_1 : ∀ i : grid3.Coords, EltTy.bits .bf16 = 32 ∨ (Rect.block (s := S136x64) S136x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .bf16 = 32 ∨ (Rect.block (s := S64x32) S64x32.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32.size a ≤ S32.size a
  hwx3_4 : ∀ i : grid3.Coords, EltTy.bits .f32 = 32 ∨ (Rect.block (s := S32) S32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x1.size a ≤ S32x1.size a
  hwx3_5 : ∀ i : grid3.Coords, EltTy.bits .bf16 = 32 ∨ (Rect.block (s := S32x1) S32x1.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x1.size a ≤ S800000x1.size a
  hwx3_7 : ∀ i : grid3.Coords, EltTy.bits .f32 = 32 ∨ (Rect.block (s := S800000x1) S4000x1.size (cc3_transform_7 i) (hinb3_7 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S4000x136_S136x64_S4000x64_1_0_0_1_n_n : DotDims S4000x136 S136x64 S4000x64 where
  lhsContracting := [1]
  rhsContracting := [0]
  lhsNonContracting := [0]
  rhsNonContracting := [1]
  lhsBatch := []
  rhsBatch := []
  wf := dot_S4000x136_S136x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_v22) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S4000x136.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S136x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S32x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg17) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v80) S4000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S800000x8 : Shape := ⟨2, ![800000, 8]⟩
abbrev S16x64 : Shape := ⟨2, ![16, 64]⟩
abbrev S64 : Shape := ⟨1, ![64]⟩
abbrev S64x64 : Shape := ⟨2, ![64, 64]⟩
abbrev S136x64 : Shape := ⟨2, ![136, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x16 : Shape := ⟨2, ![800000, 16]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S800000x136 : Shape := ⟨2, ![800000, 136]⟩
abbrev S800000x32 : Shape := ⟨2, ![800000, 32]⟩
abbrev S1x32 : Shape := ⟨2, ![1, 32]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S50000x16, .f32⟩
  | 1 => ⟨S2x800000, .i32⟩
  | 2 => ⟨S800000x8, .f32⟩
  | 3 => ⟨S16x64, .f32⟩
  | 4 => ⟨S16x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S136x64, .f32⟩
  | 13 => ⟨S64, .f32⟩
  | 14 => ⟨S64x32, .f32⟩
  | 15 => ⟨S32, .f32⟩
  | 16 => ⟨S32x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x16, .f32⟩
  | 31 => ⟨S_, .f32⟩
  | 32 => ⟨S50000x16, .f32⟩
  | 33 => ⟨S800000x1, .i32⟩
  | 34 => ⟨S50000x16, .f32⟩
  | 35 => ⟨S_, .f32⟩
  | 36 => ⟨S800000x1, .f32⟩
  | 37 => ⟨S_, .f32⟩
  | 38 => ⟨S50000x1, .f32⟩
  | 39 => ⟨S800000x1, .i32⟩
  | 40 => ⟨S50000x1, .f32⟩
  | 41 => ⟨S_, .f32⟩
  | 42 => ⟨S50000x1, .f32⟩
  | 43 => ⟨S50000x1, .f32⟩
  | 44 => ⟨S50000x16, .f32⟩
  | 45 => ⟨S50000x16, .f32⟩
  | 46 => ⟨S50000x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S_, .f32⟩
  | 69 => ⟨S800000x1, .f32⟩
  | 70 => ⟨S_, .f32⟩
  | 71 => ⟨S50000x1, .f32⟩
  | 72 => ⟨S800000x1, .i32⟩
  | 73 => ⟨S50000x1, .f32⟩
  | 74 => ⟨S_, .f32⟩
  | 75 => ⟨S50000x1, .f32⟩
  | 76 => ⟨S50000x1, .f32⟩
  | 77 => ⟨S50000x64, .f32⟩
  | 78 => ⟨S50000x64, .f32⟩
  | 79 => ⟨S50000x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S_, .f32⟩
  | 102 => ⟨S800000x1, .f32⟩
  | 103 => ⟨S_, .f32⟩
  | 104 => ⟨S50000x1, .f32⟩
  | 105 => ⟨S800000x1, .i32⟩
  | 106 => ⟨S50000x1, .f32⟩
  | 107 => ⟨S_, .f32⟩
  | 108 => ⟨S50000x1, .f32⟩
  | 109 => ⟨S50000x1, .f32⟩
  | 110 => ⟨S50000x64, .f32⟩
  | 111 => ⟨S50000x64, .f32⟩
  | 112 => ⟨S50000x64, .f32⟩
  | 113 => ⟨S50000x64, .f32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x16, .f32⟩

abbrev hbmTy0_1 (i : Nat) : BufTy := match i % 128 with
  | 0 => ⟨S800000x1, .i32⟩
  | 1 => ⟨S800000x64, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x64, .f32⟩
  | 11 => ⟨S800000x136, .f32⟩
  | 12 => ⟨S800000x64, .f32⟩
  | 13 => ⟨S1x64, .f32⟩
  | 14 => ⟨S800000x64, .f32⟩
  | 15 => ⟨S800000x64, .f32⟩
  | 16 => ⟨S_, .f32⟩
  | 17 => ⟨S800000x64, .f32⟩
  | 18 => ⟨S800000x64, .f32⟩
  | 19 => ⟨S800000x32, .f32⟩
  | 20 => ⟨S1x32, .f32⟩
  | 21 => ⟨S800000x32, .f32⟩
  | 22 => ⟨S800000x32, .f32⟩
  | 23 => ⟨S_, .f32⟩
  | 24 => ⟨S800000x32, .f32⟩
  | 25 => ⟨S800000x32, .f32⟩
  | 26 => ⟨S800000x1, .f32⟩
  | 27 => ⟨S1x1, .f32⟩
  | 28 => ⟨S800000x1, .f32⟩
  | 29 => ⟨S800000x1, .f32⟩
  | 30 => ⟨S800000, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call0_cst : Ref sig .tc := ⟨.hbm, 52, rfl⟩
abbrev main_call0_v0 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call1_cst : Ref sig .tc := ⟨.hbm, 85, rfl⟩
abbrev main_call1_v0 : Ref sig .tc := ⟨.hbm, 86, rfl⟩
abbrev main_v53 : Ref sig .tc := ⟨.hbm, 87, rfl⟩
abbrev main_c_10 : Ref sig .tc := ⟨.hbm, 88, rfl⟩
abbrev main_v54 : Ref sig .tc := ⟨.hbm, 89, rfl⟩
abbrev main_v55 : Ref sig .tc := ⟨.hbm, 90, rfl⟩
abbrev main_c_11 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_15 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call2_cst : Ref sig .tc := ⟨.hbm, 118, rfl⟩
abbrev main_call2_v0 : Ref sig .tc := ⟨.hbm, 119, rfl⟩
abbrev main_v78 : Ref sig .tc := ⟨.hbm, 120, rfl⟩
abbrev main_c_16 : Ref sig .tc := ⟨.hbm, 121, rfl⟩
abbrev main_v79 : Ref sig .tc := ⟨.hbm, 122, rfl⟩
abbrev main_v80 : Ref sig .tc := ⟨.hbm, 123, rfl⟩
abbrev main_c_17 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_18 : Ref sig .tc := ⟨.hbm, 130, rfl⟩
abbrev main_v86 : Ref sig .tc := ⟨.hbm, 131, rfl⟩
abbrev main_v87 : Ref sig .tc := ⟨.hbm, 132, rfl⟩
abbrev main_c_19 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_call3_cst : Ref sig .tc := ⟨.hbm, 144, rfl⟩
abbrev main_call3_v0 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_call4_cst : Ref sig .tc := ⟨.hbm, 151, rfl⟩
abbrev main_call4_v0 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x16 : S_.BroadcastsInDim S50000x16 (![] : Fin 0 → Fin S50000x16.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S800000x64_S800000x64_S800000x8_S800000x136_d1 : Shape.Concatenates [S800000x64, S800000x64, S800000x8] S800000x136 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  scatter_S50000x1_S800000x1_S800000x1_1_0_0_1_wf : ScatterDims.WF S50000x1 S800000x1 S800000x1 [1] [0] [0] 1
  dot_S50000x16_S16x64_S50000x64_1_0_0_1_n_n_wf : DotDims.WF S50000x16 S16x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x136_S136x64_S800000x64_1_0_0_1_n_n_wf : DotDims.WF S800000x136 S136x64 S800000x64 [1] [0] [0] [1] [] []
  dot_S800000x64_S64x32_S800000x32_1_0_0_1_n_n_wf : DotDims.WF S800000x64 S64x32 S800000x32 [1] [0] [0] [1] [] []
  dot_S800000x32_S32x1_S800000x1_1_0_0_1_n_n_wf : DotDims.WF S800000x32 S32x1 S800000x1 [1] [0] [0] [1] [] []

variable [Facts₀]

def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x136_S136x64_S800000x64_1_0_0_1_n_n : DotDims S800000x136 S136x64 S800000x64 where
  lhsContracting := [1]
  rhsContracting := [0]
  lhsNonContracting := [0]
  rhsNonContracting := [1]
  lhsBatch := []
  rhsBatch := []
  wf := dot_S800000x136_S136x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x1_S800000x1_1_0_0_1_n_n : DotDims S800000x32 S32x1 S800000x1 where
  lhsContracting := [1]
  rhsContracting := [0]
  lhsNonContracting := [0]
  rhsNonContracting := [1]
  lhsBatch := []
  rhsBatch := []
  wf := dot_S800000x32_S32x1_S800000x1_1_0_0_1_n_n_wf

class Facts : Prop extends Facts₀ where

variable [Facts]
-- ==== Proof.KBRegion0.lean ====
/-
  Region 0 of the program's run, the first node layer's combine step: blocks of 10000 rows of the neighbour mean and of the node features (16 features), both weight matrices and the bias whole;
  the result block is the one store of the body's arithmetic on the blocks it was handed.

  Everything here is stated at a parameter `V`, the contents of the core's buffers when the region is entered: the
  block of each window at a grid point read off its array, what the body leaves in the output window's staging buffer
  (the canonical form of its single whole-buffer store), the body's triple, the proof data of the pipeline (each input
  window's buffer holds its block after the body, the output window's the stored value) and the body obligation at
  every grid point. The body reads the output buffer once before overwriting it whole; that read's value is not used.
-/
import proofs.«181890_j55551107006974_1_alg».proof.Proof.Gen.Kernel.Launch
import proofs.«181890_j55551107006974_1_alg».proof.Proof.Gen.Kernel.Skeleton
import proofs.«181890_j55551107006974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is not
    fetched its block index has not moved), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is not
    fetched its block index has not moved), for any proof data over these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is not
    fetched its block index has not moved), for any proof data over these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (where it is not
    fetched its block index has not moved), for any proof data over these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x16 := Rect.unit (s := S10000x16) ![0, 0] S10000x16.size inb_S10000x16_S10000x16_0_0
abbrev r0_1 : Rect S10000x16 := Rect.unit (s := S10000x16) ![0, 0] S10000x16.size inb_S10000x16_S10000x16_0_0
abbrev r0_2 : Rect S16x64 := Rect.unit (s := S16x64) ![0, 0] S16x64.size inb_S16x64_S16x64_0_0
abbrev r0_3 : Rect S16x64 := Rect.unit (s := S16x64) ![0, 0] S16x64.size inb_S16x64_S16x64_0_0
abbrev r0_4 : Rect S64 := Rect.unit (s := S64) ![0] S64.size inb_S64_S64_0
abbrev r0_5 : Rect S10000x64 := Rect.unit (s := S10000x64) ![0, 0] S10000x64.size inb_S10000x64_S10000x64_0_0

/-- What the body leaves in the output window's staging buffer: its one store, of the body's arithmetic on the
    input blocks. -/
def out0_5 (x0 : Vec F S10000x16 .bf16) (x1 : Vec F S10000x16 .bf16) (x2 : Vec F S16x64 .bf16) (x3 : Vec F S16x64 .bf16) (x4 : Vec F S64 .f32) : Vec F S10000x64 .f32 :=
  View.canon [⟨r0_5, k0_pay1 (View.ld x0 r0_0) (View.ld x1 r0_1) (View.ld x2 r0_2) (View.ld x3 r0_3) (View.ld x4 r0_4)⟩]

/-- The store covers the buffer. -/
theorem cover0_5 (p0 : Vec F S10000x64 .f32) (y : S10000x64.Idx) :
    ∃ pc ∈ ([⟨r0_5, p0⟩] : List (View.Piece (Elt F) S10000x64 .f32)), y ∈ pc.1.set :=
  View.cover_of_tiled [⟨r0_5, p0⟩] S10000x64.size (by rfl) y

set_option maxHeartbeats 4000000 in
/-- The body on whole staging buffers, the inputs' at contents `xW` and the output's at anything, runs to the
    continuation with the inputs' as they were and the output's at `out0_5` of the inputs'. -/
theorem sound_kernel0 (c : Dev nD) (E : Set ℕ) (i : grid0.Coords) (arg1 : Memref sig .tc .vmem S10000x16 .bf16) (harg1 : arg1.IsWhole) (arg2 : Memref sig .tc .vmem S10000x16 .bf16) (harg2 : arg2.IsWhole) (arg3 : Memref sig .tc .vmem S16x64 .bf16) (harg3 : arg3.IsWhole) (arg4 : Memref sig .tc .vmem S16x64 .bf16) (harg4 : arg4.IsWhole) (arg5 : Memref sig .tc .vmem S64 .f32) (harg5 : arg5.IsWhole) (arg6 : Memref sig .tc .vmem S10000x64 .f32) (harg6 : arg6.IsWhole)
    (x0 : Vec F S10000x16 .bf16) (x1 : Vec F S10000x16 .bf16) (x2 : Vec F S16x64 .bf16) (x3 : Vec F S16x64 .bf16) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_combine_kernel i arg1 harg1 arg2 harg2 arg3 harg3 arg4 harg4 arg5 harg5 arg6 harg6) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRegion1.lean ====
/-
  Region 1 of the program's run, the second node layer's combine step: blocks of 10000 rows of the neighbour mean and of the node features (64 features), both weight matrices and the bias whole;
  the result block is the one store of the body's arithmetic on the blocks it was handed.

  Everything here is stated at a parameter `V`, the contents of the core's buffers when the region is entered: the
  block of each window at a grid point read off its array, what the body leaves in the output window's staging buffer
  (the canonical form of its single whole-buffer store), the body's triple, the proof data of the pipeline (each input
  window's buffer holds its block after the body, the output window's the stored value) and the body obligation at
  every grid point. The body reads the output buffer once before overwriting it whole; that read's value is not used.
-/
import proofs.«181890_j55551107006974_1_alg».proof.Proof.Gen.Kernel.Launch
import proofs.«181890_j55551107006974_1_alg».proof.Proof.Gen.Kernel.Skeleton
import proofs.«181890_j55551107006974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is not
    fetched its block index has not moved), for any proof data over these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x64 := Rect.unit (s := S10000x64) ![0, 0] S10000x64.size inb_S10000x64_S10000x64_0_0
abbrev r1_1 : Rect S10000x64 := Rect.unit (s := S10000x64) ![0, 0] S10000x64.size inb_S10000x64_S10000x64_0_0
abbrev r1_2 : Rect S64x64 := Rect.unit (s := S64x64) ![0, 0] S64x64.size inb_S64x64_S64x64_0_0
abbrev r1_3 : Rect S64x64 := Rect.unit (s := S64x64) ![0, 0] S64x64.size inb_S64x64_S64x64_0_0
abbrev r1_4 : Rect S64 := Rect.unit (s := S64) ![0] S64.size inb_S64_S64_0
abbrev r1_5 : Rect S10000x64 := Rect.unit (s := S10000x64) ![0, 0] S10000x64.size inb_S10000x64_S10000x64_0_0

/-- What the body leaves in the output window's staging buffer: its one store, of the body's arithmetic on the
    input blocks. -/
def out1_5 (x0 : Vec F S10000x64 .bf16) (x1 : Vec F S10000x64 .bf16) (x2 : Vec F S64x64 .bf16) (x3 : Vec F S64x64 .bf16) (x4 : Vec F S64 .f32) : Vec F S10000x64 .f32 :=
  View.canon [⟨r1_5, k1_pay1 (View.ld x0 r1_0) (View.ld x1 r1_1) (View.ld x2 r1_2) (View.ld x3 r1_3) (View.ld x4 r1_4)⟩]

/-- The store covers the buffer. -/
theorem cover1_5 (p0 : Vec F S10000x64 .f32) (y : S10000x64.Idx) :
    ∃ pc ∈ ([⟨r1_5, p0⟩] : List (View.Piece (Elt F) S10000x64 .f32)), y ∈ pc.1.set :=
  View.cover_of_tiled [⟨r1_5, p0⟩] S10000x64.size (by rfl) y

set_option maxHeartbeats 4000000 in
/-- The body on whole staging buffers, the inputs' at contents `xW` and the output's at anything, runs to the
    continuation with the inputs' as they were and the output's at `out1_5` of the inputs'. -/
theorem sound_kernel1 (c : Dev nD) (E : Set ℕ) (i : grid1.Coords) (arg1 : Memref sig .tc .vmem S10000x64 .bf16) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S64 .f32) (harg5 : arg5.IsWhole) (arg6 : Memref sig .tc .vmem S10000x64 .f32) (harg6 : arg6.IsWhole)
    (x0 : Vec F S10000x64 .bf16) (x1 : Vec F S10000x64 .bf16) (x2 : Vec F S64x64 .bf16) (x3 : Vec F S64x64 .bf16) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_combine_kernel i arg1 harg1 arg2 harg2 arg3 harg3 arg4 harg4 arg5 harg5 arg6 harg6) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBRegion2.lean ====
/-
  Region 2 of the program's run, the third node layer's combine step: blocks of 10000 rows of the neighbour mean and of the node features (64 features), both weight matrices and the bias whole;
  the result block is the one store of the body's arithmetic on the blocks it was handed.

  Everything here is stated at a parameter `V`, the contents of the core's buffers when the region is entered: the
  block of each window at a grid point read off its array, what the body leaves in the output window's staging buffer
  (the canonical form of its single whole-buffer store), the body's triple, the proof data of the pipeline (each input
  window's buffer holds its block after the body, the output window's the stored value) and the body obligation at
  every grid point. The body reads the output buffer once before overwriting it whole; that read's value is not used.
-/
import proofs.«181890_j55551107006974_1_alg».proof.Proof.Gen.Kernel.Launch
import proofs.«181890_j55551107006974_1_alg».proof.Proof.Gen.Kernel.Skeleton
import proofs.«181890_j55551107006974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is not
    fetched its block index has not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (where it is not
    fetched its block index has not moved), for any proof data over these arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (where it is not
    fetched its block index has not moved), for any proof data over these arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (where it is not
    fetched its block index has not moved), for any proof data over these arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (where it is not
    fetched its block index has not moved), for any proof data over these arrays whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S10000x64 := Rect.unit (s := S10000x64) ![0, 0] S10000x64.size inb_S10000x64_S10000x64_0_0
abbrev r2_1 : Rect S10000x64 := Rect.unit (s := S10000x64) ![0, 0] S10000x64.size inb_S10000x64_S10000x64_0_0
abbrev r2_2 : Rect S64x64 := Rect.unit (s := S64x64) ![0, 0] S64x64.size inb_S64x64_S64x64_0_0
abbrev r2_3 : Rect S64x64 := Rect.unit (s := S64x64) ![0, 0] S64x64.size inb_S64x64_S64x64_0_0
abbrev r2_4 : Rect S64 := Rect.unit (s := S64) ![0] S64.size inb_S64_S64_0
abbrev r2_5 : Rect S10000x64 := Rect.unit (s := S10000x64) ![0, 0] S10000x64.size inb_S10000x64_S10000x64_0_0

/-- What the body leaves in the output window's staging buffer: its one store, of the body's arithmetic on the
    input blocks. -/
def out2_5 (x0 : Vec F S10000x64 .bf16) (x1 : Vec F S10000x64 .bf16) (x2 : Vec F S64x64 .bf16) (x3 : Vec F S64x64 .bf16) (x4 : Vec F S64 .f32) : Vec F S10000x64 .f32 :=
  View.canon [⟨r2_5, k2_pay1 (View.ld x0 r2_0) (View.ld x1 r2_1) (View.ld x2 r2_2) (View.ld x3 r2_3) (View.ld x4 r2_4)⟩]

/-- The store covers the buffer. -/
theorem cover2_5 (p0 : Vec F S10000x64 .f32) (y : S10000x64.Idx) :
    ∃ pc ∈ ([⟨r2_5, p0⟩] : List (View.Piece (Elt F) S10000x64 .f32)), y ∈ pc.1.set :=
  View.cover_of_tiled [⟨r2_5, p0⟩] S10000x64.size (by rfl) y

set_option maxHeartbeats 4000000 in
/-- The body on whole staging buffers, the inputs' at contents `xW` and the output's at anything, runs to the
    continuation with the inputs' as they were and the output's at `out2_5` of the inputs'. -/
theorem sound_kernel2 (c : Dev nD) (E : Set ℕ) (i : grid2.Coords) (arg1 : Memref sig .tc .vmem S10000x64 .bf16) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S64 .f32) (harg5 : arg5.IsWhole) (arg6 : Memref sig .tc .vmem S10000x64 .f32) (harg6 : arg6.IsWhole)
    (x0 : Vec F S10000x64 .bf16) (x1 : Vec F S10000x64 .bf16) (x2 : Vec F S64x64 .bf16) (x3 : Vec F S64x64 .bf16) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sage_combine_kernel i arg1 harg1 arg2 harg2 arg3 harg3 arg4 harg4 arg5 harg5 arg6 harg6) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t`
    each input's buffer at its block and the output's at `out2_5` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBRegion3.lean ====
/-
  Region 3 of the program's run, the edge network: blocks of 4000 rows of the edge features, the three weight matrices and the three biases whole;
  the result block is the one store of the body's arithmetic on the blocks it was handed.

  Everything here is stated at a parameter `V`, the contents of the core's buffers when the region is entered: the
  block of each window at a grid point read off its array, what the body leaves in the output window's staging buffer
  (the canonical form of its single whole-buffer store), the body's triple, the proof data of the pipeline (each input
  window's buffer holds its block after the body, the output window's the stored value) and the body obligation at
  every grid point. The body reads the output buffer once before overwriting it whole; that read's value is not used.
-/
import proofs.«181890_j55551107006974_1_alg».proof.Proof.Gen.Kernel.Launch
import proofs.«181890_j55551107006974_1_alg».proof.Proof.Gen.Kernel.Skeleton
import proofs.«181890_j55551107006974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (where it is not
    fetched its block index has not moved), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (where it is not
    fetched its block index has not moved), for any proof data over these arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (where it is not
    fetched its block index has not moved), for any proof data over these arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (where it is not
    fetched its block index has not moved), for any proof data over these arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (where it is not
    fetched its block index has not moved), for any proof data over these arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (where it is not
    fetched its block index has not moved), for any proof data over these arrays whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not (where it is not
    fetched its block index has not moved), for any proof data over these arrays whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S4000x136 := Rect.unit (s := S4000x136) ![0, 0] S4000x136.size inb_S4000x136_S4000x136_0_0
abbrev r3_1 : Rect S136x64 := Rect.unit (s := S136x64) ![0, 0] S136x64.size inb_S136x64_S136x64_0_0
abbrev r3_2 : Rect S64 := Rect.unit (s := S64) ![0] S64.size inb_S64_S64_0
abbrev r3_3 : Rect S64x32 := Rect.unit (s := S64x32) ![0, 0] S64x32.size inb_S64x32_S64x32_0_0
abbrev r3_4 : Rect S32 := Rect.unit (s := S32) ![0] S32.size inb_S32_S32_0
abbrev r3_5 : Rect S32x1 := Rect.unit (s := S32x1) ![0, 0] S32x1.size inb_S32x1_S32x1_0_0
abbrev r3_6 : Rect S1 := Rect.unit (s := S1) ![0] S1.size inb_S1_S1_0
abbrev r3_7 : Rect S4000x1 := Rect.unit (s := S4000x1) ![0, 0] S4000x1.size inb_S4000x1_S4000x1_0_0

/-- What the body leaves in the output window's staging buffer: its one store, of the body's arithmetic on the
    input blocks. -/
def out3_7 (x0 : Vec F S4000x136 .bf16) (x1 : Vec F S136x64 .bf16) (x2 : Vec F S64 .f32) (x3 : Vec F S64x32 .bf16) (x4 : Vec F S32 .f32) (x5 : Vec F S32x1 .bf16) (x6 : Vec F S1 .f32) : Vec F S4000x1 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The store covers the buffer. -/
theorem cover3_7 (p0 : Vec F S4000x1 .f32) (y : S4000x1.Idx) :
    ∃ pc ∈ ([⟨r3_7, p0⟩] : List (View.Piece (Elt F) S4000x1 .f32)), y ∈ pc.1.set :=
  View.cover_of_tiled [⟨r3_7, p0⟩] S4000x1.size (by rfl) y

set_option maxHeartbeats 4000000 in
/-- The body on whole staging buffers, the inputs' at contents `xW` and the output's at anything, runs to the
    continuation with the inputs' as they were and the output's at `out3_7` of the inputs'. -/
theorem sound_kernel3 (c : Dev nD) (E : Set ℕ) (i : grid3.Coords) (arg1 : Memref sig .tc .vmem S4000x136 .bf16) (harg1 : arg1.IsWhole) (arg2 : Memref sig .tc .vmem S136x64 .bf16) (harg2 : arg2.IsWhole) (arg3 : Memref sig .tc .vmem S64 .f32) (harg3 : arg3.IsWhole) (arg4 : Memref sig .tc .vmem S64x32 .bf16) (harg4 : arg4.IsWhole) (arg5 : Memref sig .tc .vmem S32 .f32) (harg5 : arg5.IsWhole) (arg6 : Memref sig .tc .vmem S32x1 .bf16) (harg6 : arg6.IsWhole) (arg7 : Memref sig .tc .vmem S1 .f32) (harg7 : arg7.IsWhole) (arg8 : Memref sig .tc .vmem S4000x1 .f32) (harg8 : arg8.IsWhole)
    (x0 : Vec F S4000x136 .bf16) (x1 : Vec F S136x64 .bf16) (x2 : Vec F S64 .f32) (x3 : Vec F S64x32 .bf16) (x4 : Vec F S32 .f32) (x5 : Vec F S32x1 .bf16) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__edge_mlp_kernel i arg1 harg1 arg2 harg2 arg3 harg3 arg4 harg4 arg5 harg5 arg6 harg6 arg7 harg7 arg8 harg8) K := by
  simp only [cc3__edge_mlp_kernel_eq_skeleton]; unfold cc3__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of this pipeline on core `c`: the arrays as the region finds them; after the body at point `t`
    each input's buffer at its block and the output's at `out3_7` of the input blocks; the invariant is the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KBRun.lean ====
/-
  The run of the whole program: host operations, region 0, host operations, region 1, host operations, region 2, host
  operations, region 3, a final reshape.

  The contents of the core's unscoped buffers are followed item by item: a stretch of host operations applies its
  operations in order; a region changes exactly one buffer, its output window's array, which ends at what the
  write-backs of its grid points leave (`Dat.arrAt … N`). Each region is entered with every unscoped buffer held at
  the contents before it and left with them held at the contents after it; beside the buffers ride the generator
  register at some state and the core owing nothing. The run's conclusion: every weakly fair execution ends, without
  a fault, with every unscoped buffer at the last contents. The argument arrays are written by no item, so they end
  as launched; the result buffer ends at the final reshape of region 3's output array.
-/
import proofs.«181890_j55551107006974_1_alg».proof.Proof.KBRegion0
import proofs.«181890_j55551107006974_1_alg».proof.Proof.KBRegion1
import proofs.«181890_j55551107006974_1_alg».proof.Proof.KBRegion2
import proofs.«181890_j55551107006974_1_alg».proof.Proof.KBRegion3
import proofs.«181890_j55551107006974_1_alg».proof.Proof.Gen.Kernel.Regions
import proofs.«181890_j55551107006974_1_alg».proof.Proof.KBRunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents, item by item -/

/-- The contents when region 0 is entered, read at the core's own references. -/
abbrev E1 : (c : Dev nD) → (b : Ref sig .tc) → Buf (Elt F) ((c : Thread nD τ).loc b) := fun c b => V1 m c b
/-- After region 0: its output array at what the write-backs leave. -/
def W2 (c : Dev nD) : Valuation τ sig (Elt F) := Function.update (V1 m c) main_v26 ((dat0 (E1 m) c).arrAt 5 cfg0.N)
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- After region 1. -/
def W4 (c : Dev nD) : Valuation τ sig (Elt F) := Function.update (W3 m c) main_v43 ((dat1 (E3 m) c).arrAt 5 cfg1.N)
abbrev W5 (c : Dev nD) : Valuation τ sig (Elt F) := StableHlo.after hostOps2 (W4 m c)
abbrev E5 : (c : Dev nD) → (b : Ref sig .tc) → Buf (Elt F) ((c : Thread nD τ).loc b) := fun c b => W5 m c b
/-- After region 2. -/
def W6 (c : Dev nD) : Valuation τ sig (Elt F) := Function.update (W5 m c) main_v60 ((dat2 (E5 m) c).arrAt 5 cfg2.N)
abbrev W7 (c : Dev nD) : Valuation τ sig (Elt F) := StableHlo.after hostOps3 (W6 m c)
abbrev E7 : (c : Dev nD) → (b : Ref sig .tc) → Buf (Elt F) ((c : Thread nD τ).loc b) := fun c b => W7 m c b
/-- After region 3. -/
def W8 (c : Dev nD) : Valuation τ sig (Elt F) := Function.update (W7 m c) main_v80 ((dat3 (E7 m) c).arrAt 7 cfg3.N)

/-- What the regions leave, in the form the host side's contents are written over. -/
def outs : Outs (F := F) := fun J r c => match J with
  | 2 => W2 m c r
  | 4 => W4 m c r
  | 6 => W6 m c r
  | _ => W8 m c r

theorem V2_eq (c : Dev nD) : V2 m (outs m) c = W2 m c := by
  show Function.update (V1 m c) main_v26 (W2 m c main_v26) = W2 m c
  unfold W2; rw [Function.update_self]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v43 (W4 m c main_v43) = W4 m c
  rw [V3_eq]; unfold W4; rw [Function.update_self]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) main_v60 (W6 m c main_v60) = W6 m c
  rw [V5_eq]; unfold W6; rw [Function.update_self]
theorem V7_eq (c : Dev nD) : V7 m (outs m) c = W7 m c := by
  show StableHlo.after hostOps3 (V6 m (outs m) c) = _; rw [V6_eq]
theorem V8_eq (c : Dev nD) : V8 m (outs m) c = W8 m c := by
  show Function.update (V7 m (outs m) c) main_v80 (W8 m c main_v80) = W8 m c
  rw [V7_eq]; unfold W8; rw [Function.update_self]

/-- What each region leaves in its output array, by name. -/
theorem outs_2 (c : Dev nD) : outs m 2 main_v26 c = (dat0 (E1 m) c).arrAt 5 cfg0.N := by
  show W2 m c main_v26 = _; unfold W2; rw [Function.update_self]
theorem outs_4 (c : Dev nD) : outs m 4 main_v43 c = (dat1 (E3 m) c).arrAt 5 cfg1.N := by
  show W4 m c main_v43 = _; unfold W4; rw [Function.update_self]
theorem outs_6 (c : Dev nD) : outs m 6 main_v60 c = (dat2 (E5 m) c).arrAt 5 cfg2.N := by
  show W6 m c main_v60 = _; unfold W6; rw [Function.update_self]
theorem outs_8 (c : Dev nD) : outs m 8 main_v80 c = (dat3 (E7 m) c).arrAt 7 cfg3.N := by
  show W8 m c main_v80 = _; unfold W8; rw [Function.update_self]

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c

/-- No core owes another anything: no level is assigned. -/
abbrev L0 : GSem nD τ sig → Finset Unit := fun _ => ∅
abbrev lv0 : GSem nD τ sig → Unit → ℕ := fun _ _ => 0
/-- Beside the buffers: the generator register at some state, and the core owing nothing. -/
abbrev Rst (c : Dev nD) : sProp 𝕄 := iprop((∃ r, prngReg c r) ∗ ∃ W, owes (c : Thread nD τ) (0 : CellTallies nD τ sig Unit) W)

/-! ## The regions as segments -/

set_option maxHeartbeats 4000000 in
/-- At region 0's exit each of its arrays holds what the pipeline leaves: an input window's array what it held at
    entry, the output window's what the write-backs leave. -/
theorem hF0 (c : Dev nD) (w : Fin cfg0.W) :
    (dat0 (E1 m) c).arrAt w cfg0.N = W2 m c (Pipeline.arrRef spec0 w) := by
  match w with
  | ⟨0, _⟩ =>
    refine ((dat0 (E1 m) c).arrAt_in 0 rfl _).trans ((A_eq0 (E1 m) c 0).trans ?_)
    unfold W2
    exact (Function.update_of_ne (StableHlo.devRef_ne_of_ne (by decide) : (Proc.devRef .tc main_v22 : DevRef τ sig) ≠ Proc.devRef .tc main_v26) _ _).symm
  | ⟨1, _⟩ =>
    refine ((dat0 (E1 m) c).arrAt_in 1 rfl _).trans ((A_eq0 (E1 m) c 1).trans ?_)
    unfold W2
    exact (Function.update_of_ne (StableHlo.devRef_ne_of_ne (by decide) : (Proc.devRef .tc main_v23 : DevRef τ sig) ≠ Proc.devRef .tc main_v26) _ _).symm
  | ⟨2, _⟩ =>
    refine ((dat0 (E1 m) c).arrAt_in 2 rfl _).trans ((A_eq0 (E1 m) c 2).trans ?_)
    unfold W2
    exact (Function.update_of_ne (StableHlo.devRef_ne_of_ne (by decide) : (Proc.devRef .tc main_v24 : DevRef τ sig) ≠ Proc.devRef .tc main_v26) _ _).symm
  | ⟨3, _⟩ =>
    refine ((dat0 (E1 m) c).arrAt_in 3 rfl _).trans ((A_eq0 (E1 m) c 3).trans ?_)
    unfold W2
    exact (Function.update_of_ne (StableHlo.devRef_ne_of_ne (by decide) : (Proc.devRef .tc main_v25 : DevRef τ sig) ≠ Proc.devRef .tc main_v26) _ _).symm
  | ⟨4, _⟩ =>
    refine ((dat0 (E1 m) c).arrAt_in 4 rfl _).trans ((A_eq0 (E1 m) c 4).trans ?_)
    unfold W2
    exact (Function.update_of_ne (StableHlo.devRef_ne_of_ne (by decide) : (Proc.devRef .tc main_arg5 : DevRef τ sig) ≠ Proc.devRef .tc main_v26) _ _).symm
  | ⟨5, _⟩ =>
    unfold W2
    exact (Function.update_self (Proc.devRef .tc main_v26 : DevRef τ sig) _ (V1 m c)).symm

/-- Every buffer that is no array of region 0 leaves it as it entered. -/
theorem hrest0 (c : Dev nD) : ∀ b, b ∉ Finset.univ.image (Pipeline.arrRef spec0) → W2 m c b = V1 m c b := by
  intro b hb
  unfold W2
  exact Function.update_of_ne (StableHlo.devRef_ne_of_ne (fun e => hb (Finset.mem_image.mpr ⟨5, Finset.mem_univ _, e.symm⟩))) _ _

set_option backward.isDefEq.respectTransparency.types false in
/-- Region 0 over the thread state: entered with every unscoped buffer at the contents before it, left with them at the
    contents after it; its arrays are split out of the unscoped buffers and put back at the exit contents, the
    generator register goes into the pipeline's invariant and comes back, nothing is owed, the kernel has no
    semaphore of its own. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L0 lv0 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 1's exit each of its arrays holds what the pipeline leaves: an input window's array what it held at
    entry, the output window's what the write-backs leave. -/
theorem hF1 (c : Dev nD) (w : Fin cfg1.W) :
    (dat1 (E3 m) c).arrAt w cfg1.N = W4 m c (Pipeline.arrRef spec1 w) := by
  match w with
  | ⟨0, _⟩ =>
    refine ((dat1 (E3 m) c).arrAt_in 0 rfl _).trans ((A_eq1 (E3 m) c 0).trans ?_)
    unfold W4
    exact (Function.update_of_ne (StableHlo.devRef_ne_of_ne (by decide) : (Proc.devRef .tc main_v39 : DevRef τ sig) ≠ Proc.devRef .tc main_v43) _ _).symm
  | ⟨1, _⟩ =>
    refine ((dat1 (E3 m) c).arrAt_in 1 rfl _).trans ((A_eq1 (E3 m) c 1).trans ?_)
    unfold W4
    exact (Function.update_of_ne (StableHlo.devRef_ne_of_ne (by decide) : (Proc.devRef .tc main_v40 : DevRef τ sig) ≠ Proc.devRef .tc main_v43) _ _).symm
  | ⟨2, _⟩ =>
    refine ((dat1 (E3 m) c).arrAt_in 2 rfl _).trans ((A_eq1 (E3 m) c 2).trans ?_)
    unfold W4
    exact (Function.update_of_ne (StableHlo.devRef_ne_of_ne (by decide) : (Proc.devRef .tc main_v41 : DevRef τ sig) ≠ Proc.devRef .tc main_v43) _ _).symm
  | ⟨3, _⟩ =>
    refine ((dat1 (E3 m) c).arrAt_in 3 rfl _).trans ((A_eq1 (E3 m) c 3).trans ?_)
    unfold W4
    exact (Function.update_of_ne (StableHlo.devRef_ne_of_ne (by decide) : (Proc.devRef .tc main_v42 : DevRef τ sig) ≠ Proc.devRef .tc main_v43) _ _).symm
  | ⟨4, _⟩ =>
    refine ((dat1 (E3 m) c).arrAt_in 4 rfl _).trans ((A_eq1 (E3 m) c 4).trans ?_)
    unfold W4
    exact (Function.update_of_ne (StableHlo.devRef_ne_of_ne (by decide) : (Proc.devRef .tc main_arg8 : DevRef τ sig) ≠ Proc.devRef .tc main_v43) _ _).symm
  | ⟨5, _⟩ =>
    unfold W4
    exact (Function.update_self (Proc.devRef .tc main_v43 : DevRef τ sig) _ (W3 m c)).symm

/-- Every buffer that is no array of region 1 leaves it as it entered. -/
theorem hrest1 (c : Dev nD) : ∀ b, b ∉ Finset.univ.image (Pipeline.arrRef spec1) → W4 m c b = W3 m c b := by
  intro b hb
  unfold W4
  exact Function.update_of_ne (StableHlo.devRef_ne_of_ne (fun e => hb (Finset.mem_image.mpr ⟨5, Finset.mem_univ _, e.symm⟩))) _ _

set_option backward.isDefEq.respectTransparency.types false in
/-- Region 1 over the thread state: entered with every unscoped buffer at the contents before it, left with them at the
    contents after it; its arrays are split out of the unscoped buffers and put back at the exit contents, the
    generator register goes into the pipeline's invariant and comes back, nothing is owed, the kernel has no
    semaphore of its own. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L0 lv0 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 2's exit each of its arrays holds what the pipeline leaves: an input window's array what it held at
    entry, the output window's what the write-backs leave. -/
theorem hF2 (c : Dev nD) (w : Fin cfg2.W) :
    (dat2 (E5 m) c).arrAt w cfg2.N = W6 m c (Pipeline.arrRef spec2 w) := by
  match w with
  | ⟨0, _⟩ =>
    refine ((dat2 (E5 m) c).arrAt_in 0 rfl _).trans ((A_eq2 (E5 m) c 0).trans ?_)
    unfold W6
    exact (Function.update_of_ne (StableHlo.devRef_ne_of_ne (by decide) : (Proc.devRef .tc main_v56 : DevRef τ sig) ≠ Proc.devRef .tc main_v60) _ _).symm
  | ⟨1, _⟩ =>
    refine ((dat2 (E5 m) c).arrAt_in 1 rfl _).trans ((A_eq2 (E5 m) c 1).trans ?_)
    unfold W6
    exact (Function.update_of_ne (StableHlo.devRef_ne_of_ne (by decide) : (Proc.devRef .tc main_v57 : DevRef τ sig) ≠ Proc.devRef .tc main_v60) _ _).symm
  | ⟨2, _⟩ =>
    refine ((dat2 (E5 m) c).arrAt_in 2 rfl _).trans ((A_eq2 (E5 m) c 2).trans ?_)
    unfold W6
    exact (Function.update_of_ne (StableHlo.devRef_ne_of_ne (by decide) : (Proc.devRef .tc main_v58 : DevRef τ sig) ≠ Proc.devRef .tc main_v60) _ _).symm
  | ⟨3, _⟩ =>
    refine ((dat2 (E5 m) c).arrAt_in 3 rfl _).trans ((A_eq2 (E5 m) c 3).trans ?_)
    unfold W6
    exact (Function.update_of_ne (StableHlo.devRef_ne_of_ne (by decide) : (Proc.devRef .tc main_v59 : DevRef τ sig) ≠ Proc.devRef .tc main_v60) _ _).symm
  | ⟨4, _⟩ =>
    refine ((dat2 (E5 m) c).arrAt_in 4 rfl _).trans ((A_eq2 (E5 m) c 4).trans ?_)
    unfold W6
    exact (Function.update_of_ne (StableHlo.devRef_ne_of_ne (by decide) : (Proc.devRef .tc main_arg11 : DevRef τ sig) ≠ Proc.devRef .tc main_v60) _ _).symm
  | ⟨5, _⟩ =>
    unfold W6
    exact (Function.update_self (Proc.devRef .tc main_v60 : DevRef τ sig) _ (W5 m c)).symm

/-- Every buffer that is no array of region 2 leaves it as it entered. -/
theorem hrest2 (c : Dev nD) : ∀ b, b ∉ Finset.univ.image (Pipeline.arrRef spec2) → W6 m c b = W5 m c b := by
  intro b hb
  unfold W6
  exact Function.update_of_ne (StableHlo.devRef_ne_of_ne (fun e => hb (Finset.mem_image.mpr ⟨5, Finset.mem_univ _, e.symm⟩))) _ _

set_option backward.isDefEq.respectTransparency.types false in
/-- Region 2 over the thread state: entered with every unscoped buffer at the contents before it, left with them at the
    contents after it; its arrays are split out of the unscoped buffers and put back at the exit contents, the
    generator register goes into the pipeline's invariant and comes back, nothing is owed, the kernel has no
    semaphore of its own. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L0 lv0 2 fun _ _ => rfl
  pre c := iprop(StableHlo.held (c : Thread nD τ) (Pipeline.ucRefs τ sig) (V5 m (outs m) c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none, V5_eq]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 3's exit each of its arrays holds what the pipeline leaves: an input window's array what it held at
    entry, the output window's what the write-backs leave. -/
theorem hF3 (c : Dev nD) (w : Fin cfg3.W) :
    (dat3 (E7 m) c).arrAt w cfg3.N = W8 m c (Pipeline.arrRef spec3 w) := by
  match w with
  | ⟨0, _⟩ =>
    refine ((dat3 (E7 m) c).arrAt_in 0 rfl _).trans ((A_eq3 (E7 m) c 0).trans ?_)
    unfold W8
    exact (Function.update_of_ne (StableHlo.devRef_ne_of_ne (by decide) : (Proc.devRef .tc main_v76 : DevRef τ sig) ≠ Proc.devRef .tc main_v80) _ _).symm
  | ⟨1, _⟩ =>
    refine ((dat3 (E7 m) c).arrAt_in 1 rfl _).trans ((A_eq3 (E7 m) c 1).trans ?_)
    unfold W8
    exact (Function.update_of_ne (StableHlo.devRef_ne_of_ne (by decide) : (Proc.devRef .tc main_v77 : DevRef τ sig) ≠ Proc.devRef .tc main_v80) _ _).symm
  | ⟨2, _⟩ =>
    refine ((dat3 (E7 m) c).arrAt_in 2 rfl _).trans ((A_eq3 (E7 m) c 2).trans ?_)
    unfold W8
    exact (Function.update_of_ne (StableHlo.devRef_ne_of_ne (by decide) : (Proc.devRef .tc main_arg13 : DevRef τ sig) ≠ Proc.devRef .tc main_v80) _ _).symm
  | ⟨3, _⟩ =>
    refine ((dat3 (E7 m) c).arrAt_in 3 rfl _).trans ((A_eq3 (E7 m) c 3).trans ?_)
    unfold W8
    exact (Function.update_of_ne (StableHlo.devRef_ne_of_ne (by decide) : (Proc.devRef .tc main_v78 : DevRef τ sig) ≠ Proc.devRef .tc main_v80) _ _).symm
  | ⟨4, _⟩ =>
    refine ((dat3 (E7 m) c).arrAt_in 4 rfl _).trans ((A_eq3 (E7 m) c 4).trans ?_)
    unfold W8
    exact (Function.update_of_ne (StableHlo.devRef_ne_of_ne (by decide) : (Proc.devRef .tc main_arg15 : DevRef τ sig) ≠ Proc.devRef .tc main_v80) _ _).symm
  | ⟨5, _⟩ =>
    refine ((dat3 (E7 m) c).arrAt_in 5 rfl _).trans ((A_eq3 (E7 m) c 5).trans ?_)
    unfold W8
    exact (Function.update_of_ne (StableHlo.devRef_ne_of_ne (by decide) : (Proc.devRef .tc main_v79 : DevRef τ sig) ≠ Proc.devRef .tc main_v80) _ _).symm
  | ⟨6, _⟩ =>
    refine ((dat3 (E7 m) c).arrAt_in 6 rfl _).trans ((A_eq3 (E7 m) c 6).trans ?_)
    unfold W8
    exact (Function.update_of_ne (StableHlo.devRef_ne_of_ne (by decide) : (Proc.devRef .tc main_arg17 : DevRef τ sig) ≠ Proc.devRef .tc main_v80) _ _).symm
  | ⟨7, _⟩ =>
    unfold W8
    exact (Function.update_self (Proc.devRef .tc main_v80 : DevRef τ sig) _ (W7 m c)).symm

/-- Every buffer that is no array of region 3 leaves it as it entered. -/
theorem hrest3 (c : Dev nD) : ∀ b, b ∉ Finset.univ.image (Pipeline.arrRef spec3) → W8 m c b = W7 m c b := by
  intro b hb
  unfold W8
  exact Function.update_of_ne (StableHlo.devRef_ne_of_ne (fun e => hb (Finset.mem_image.mpr ⟨7, Finset.mem_univ _, e.symm⟩))) _ _

set_option backward.isDefEq.respectTransparency.types false in
/-- Region 3 over the thread state: entered with every unscoped buffer at the contents before it, left with them at the
    contents after it; its arrays are split out of the unscoped buffers and put back at the exit contents, the
    generator register goes into the pipeline's invariant and comes back, nothing is owed, the kernel has no
    semaphore of its own. -/
def reg3 : RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L0 lv0 3 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none, V7_eq]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    rw [V8_eq]
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run of the program over the four regions' records: it ends with every unscoped buffer at the last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V9 m (outs m) c b) :=
  Cert.Kernel.GenP.run_cond m emb₁ () Variants.none L0 lv0 (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (Pipeline.initEach L0 lv0 fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)
    (reg2 m) (fun _ => .rfl) (fun _ => .rfl) (reg3 m) (fun _ => .rfl) (fun _ => .rfl)

/-- The frame: every weakly fair execution terminates, nothing faulting, with the argument arrays as launched (no
    item writes one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (V9_main_arg0 m (outs m) c),
      (h c _ (mem_uc main_arg1 (by decide))).trans (V9_main_arg1 m (outs m) c),
      (h c _ (mem_uc main_arg2 (by decide))).trans (V9_main_arg2 m (outs m) c),
      (h c _ (mem_uc main_arg3 (by decide))).trans (V9_main_arg3 m (outs m) c),
      (h c _ (mem_uc main_arg4 (by decide))).trans (V9_main_arg4 m (outs m) c),
      (h c _ (mem_uc main_arg5 (by decide))).trans (V9_main_arg5 m (outs m) c),
      (h c _ (mem_uc main_arg6 (by decide))).trans (V9_main_arg6 m (outs m) c),
      (h c _ (mem_uc main_arg7 (by decide))).trans (V9_main_arg7 m (outs m) c),
      (h c _ (mem_uc main_arg8 (by decide))).trans (V9_main_arg8 m (outs m) c),
      (h c _ (mem_uc main_arg9 (by decide))).trans (V9_main_arg9 m (outs m) c),
      (h c _ (mem_uc main_arg10 (by decide))).trans (V9_main_arg10 m (outs m) c),
      (h c _ (mem_uc main_arg11 (by decide))).trans (V9_main_arg11 m (outs m) c),
      (h c _ (mem_uc main_arg12 (by decide))).trans (V9_main_arg12 m (outs m) c),
      (h c _ (mem_uc main_arg13 (by decide))).trans (V9_main_arg13 m (outs m) c),
      (h c _ (mem_uc main_arg14 (by decide))).trans (V9_main_arg14 m (outs m) c),
      (h c _ (mem_uc main_arg15 (by decide))).trans (V9_main_arg15 m (outs m) c),
      (h c _ (mem_uc main_arg16 (by decide))).trans (V9_main_arg16 m (outs m) c),
      (h c _ (mem_uc main_arg17 (by decide))).trans (V9_main_arg17 m (outs m) c)⟩) (run_all m ρ)

/-- The run with its result: the result buffer ends at the last contents' value, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v81) = V9 m (outs m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v81 (by decide)),
      (h c _ (mem_uc main_arg0 (by decide))).trans (V9_main_arg0 m (outs m) c),
      (h c _ (mem_uc main_arg1 (by decide))).trans (V9_main_arg1 m (outs m) c),
      (h c _ (mem_uc main_arg2 (by decide))).trans (V9_main_arg2 m (outs m) c),
      (h c _ (mem_uc main_arg3 (by decide))).trans (V9_main_arg3 m (outs m) c),
      (h c _ (mem_uc main_arg4 (by decide))).trans (V9_main_arg4 m (outs m) c),
      (h c _ (mem_uc main_arg5 (by decide))).trans (V9_main_arg5 m (outs m) c),
      (h c _ (mem_uc main_arg6 (by decide))).trans (V9_main_arg6 m (outs m) c),
      (h c _ (mem_uc main_arg7 (by decide))).trans (V9_main_arg7 m (outs m) c),
      (h c _ (mem_uc main_arg8 (by decide))).trans (V9_main_arg8 m (outs m) c),
      (h c _ (mem_uc main_arg9 (by decide))).trans (V9_main_arg9 m (outs m) c),
      (h c _ (mem_uc main_arg10 (by decide))).trans (V9_main_arg10 m (outs m) c),
      (h c _ (mem_uc main_arg11 (by decide))).trans (V9_main_arg11 m (outs m) c),
      (h c _ (mem_uc main_arg12 (by decide))).trans (V9_main_arg12 m (outs m) c),
      (h c _ (mem_uc main_arg13 (by decide))).trans (V9_main_arg13 m (outs m) c),
      (h c _ (mem_uc main_arg14 (by decide))).trans (V9_main_arg14 m (outs m) c),
      (h c _ (mem_uc main_arg15 (by decide))).trans (V9_main_arg15 m (outs m) c),
      (h c _ (mem_uc main_arg16 (by decide))).trans (V9_main_arg16 m (outs m) c),
      (h c _ (mem_uc main_arg17 (by decide))).trans (V9_main_arg17 m (outs m) c)⟩) (run_all m ρ)

end Cert.Kernel.Hand

end
-- ==== Proof.KIRegion0.lean ====
/-
  Region 0 of the program's run, the first node layer's combine step: blocks of 10000 rows of the neighbour mean and of the node features (16 features), both weight matrices and the bias whole;
  the result block is the one store of the body's arithmetic on the blocks it was handed.

  Everything here is stated at a parameter `V`, the contents of the core's buffers when the region is entered: the
  block of each window at a grid point read off its array, what the body leaves in the output window's staging buffer
  (the canonical form of its single whole-buffer store), the body's triple, the proof data of the pipeline (each input
  window's buffer holds its block after the body, the output window's the stored value) and the body obligation at
  every grid point. The body reads the output buffer once before overwriting it whole; that read's value is not used.
-/
import proofs.«181890_j55551107006974_1_alg».proof.Proof.Gen.KernelIdeal.Launch
import proofs.«181890_j55551107006974_1_alg».proof.Proof.Gen.KernelIdeal.Skeleton
import proofs.«181890_j55551107006974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is not
    fetched its block index has not moved), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is not
    fetched its block index has not moved), for any proof data over these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is not
    fetched its block index has not moved), for any proof data over these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (where it is not
    fetched its block index has not moved), for any proof data over these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x16 := Rect.unit (s := S10000x16) ![0, 0] S10000x16.size inb_S10000x16_S10000x16_0_0
abbrev r0_1 : Rect S10000x16 := Rect.unit (s := S10000x16) ![0, 0] S10000x16.size inb_S10000x16_S10000x16_0_0
abbrev r0_2 : Rect S16x64 := Rect.unit (s := S16x64) ![0, 0] S16x64.size inb_S16x64_S16x64_0_0
abbrev r0_3 : Rect S16x64 := Rect.unit (s := S16x64) ![0, 0] S16x64.size inb_S16x64_S16x64_0_0
abbrev r0_4 : Rect S64 := Rect.unit (s := S64) ![0] S64.size inb_S64_S64_0
abbrev r0_5 : Rect S10000x64 := Rect.unit (s := S10000x64) ![0, 0] S10000x64.size inb_S10000x64_S10000x64_0_0

/-- What the body leaves in the output window's staging buffer: its one store, of the body's arithmetic on the
    input blocks. -/
def out0_5 (x0 : Vec F S10000x16 .bf16) (x1 : Vec F S10000x16 .bf16) (x2 : Vec F S16x64 .bf16) (x3 : Vec F S16x64 .bf16) (x4 : Vec F S64 .f32) : Vec F S10000x64 .f32 :=
  View.canon [⟨r0_5, k0_pay1 (View.ld x0 r0_0) (View.ld x1 r0_1) (View.ld x2 r0_2) (View.ld x3 r0_3) (View.ld x4 r0_4)⟩]

/-- The store covers the buffer. -/
theorem cover0_5 (p0 : Vec F S10000x64 .f32) (y : S10000x64.Idx) :
    ∃ pc ∈ ([⟨r0_5, p0⟩] : List (View.Piece (Elt F) S10000x64 .f32)), y ∈ pc.1.set :=
  View.cover_of_tiled [⟨r0_5, p0⟩] S10000x64.size (by rfl) y

set_option maxHeartbeats 4000000 in
/-- The body on whole staging buffers, the inputs' at contents `xW` and the output's at anything, runs to the
    continuation with the inputs' as they were and the output's at `out0_5` of the inputs'. -/
theorem sound_kernel0 (c : Dev nD) (E : Set ℕ) (i : grid0.Coords) (arg1 : Memref sig .tc .vmem S10000x16 .bf16) (harg1 : arg1.IsWhole) (arg2 : Memref sig .tc .vmem S10000x16 .bf16) (harg2 : arg2.IsWhole) (arg3 : Memref sig .tc .vmem S16x64 .bf16) (harg3 : arg3.IsWhole) (arg4 : Memref sig .tc .vmem S16x64 .bf16) (harg4 : arg4.IsWhole) (arg5 : Memref sig .tc .vmem S64 .f32) (harg5 : arg5.IsWhole) (arg6 : Memref sig .tc .vmem S10000x64 .f32) (harg6 : arg6.IsWhole)
    (x0 : Vec F S10000x16 .bf16) (x1 : Vec F S10000x16 .bf16) (x2 : Vec F S16x64 .bf16) (x3 : Vec F S16x64 .bf16) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_combine_kernel i arg1 harg1 arg2 harg2 arg3 harg3 arg4 harg4 arg5 harg5 arg6 harg6) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  Region 1 of the program's run, the second node layer's combine step: blocks of 10000 rows of the neighbour mean and of the node features (64 features), both weight matrices and the bias whole;
  the result block is the one store of the body's arithmetic on the blocks it was handed.

  Everything here is stated at a parameter `V`, the contents of the core's buffers when the region is entered: the
  block of each window at a grid point read off its array, what the body leaves in the output window's staging buffer
  (the canonical form of its single whole-buffer store), the body's triple, the proof data of the pipeline (each input
  window's buffer holds its block after the body, the output window's the stored value) and the body obligation at
  every grid point. The body reads the output buffer once before overwriting it whole; that read's value is not used.
-/
import proofs.«181890_j55551107006974_1_alg».proof.Proof.Gen.KernelIdeal.Launch
import proofs.«181890_j55551107006974_1_alg».proof.Proof.Gen.KernelIdeal.Skeleton
import proofs.«181890_j55551107006974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is not
    fetched its block index has not moved), for any proof data over these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x64 := Rect.unit (s := S10000x64) ![0, 0] S10000x64.size inb_S10000x64_S10000x64_0_0
abbrev r1_1 : Rect S10000x64 := Rect.unit (s := S10000x64) ![0, 0] S10000x64.size inb_S10000x64_S10000x64_0_0
abbrev r1_2 : Rect S64x64 := Rect.unit (s := S64x64) ![0, 0] S64x64.size inb_S64x64_S64x64_0_0
abbrev r1_3 : Rect S64x64 := Rect.unit (s := S64x64) ![0, 0] S64x64.size inb_S64x64_S64x64_0_0
abbrev r1_4 : Rect S64 := Rect.unit (s := S64) ![0] S64.size inb_S64_S64_0
abbrev r1_5 : Rect S10000x64 := Rect.unit (s := S10000x64) ![0, 0] S10000x64.size inb_S10000x64_S10000x64_0_0

/-- What the body leaves in the output window's staging buffer: its one store, of the body's arithmetic on the
    input blocks. -/
def out1_5 (x0 : Vec F S10000x64 .bf16) (x1 : Vec F S10000x64 .bf16) (x2 : Vec F S64x64 .bf16) (x3 : Vec F S64x64 .bf16) (x4 : Vec F S64 .f32) : Vec F S10000x64 .f32 :=
  View.canon [⟨r1_5, k1_pay1 (View.ld x0 r1_0) (View.ld x1 r1_1) (View.ld x2 r1_2) (View.ld x3 r1_3) (View.ld x4 r1_4)⟩]

/-- The store covers the buffer. -/
theorem cover1_5 (p0 : Vec F S10000x64 .f32) (y : S10000x64.Idx) :
    ∃ pc ∈ ([⟨r1_5, p0⟩] : List (View.Piece (Elt F) S10000x64 .f32)), y ∈ pc.1.set :=
  View.cover_of_tiled [⟨r1_5, p0⟩] S10000x64.size (by rfl) y

set_option maxHeartbeats 4000000 in
/-- The body on whole staging buffers, the inputs' at contents `xW` and the output's at anything, runs to the
    continuation with the inputs' as they were and the output's at `out1_5` of the inputs'. -/
theorem sound_kernel1 (c : Dev nD) (E : Set ℕ) (i : grid1.Coords) (arg1 : Memref sig .tc .vmem S10000x64 .bf16) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S64 .f32) (harg5 : arg5.IsWhole) (arg6 : Memref sig .tc .vmem S10000x64 .f32) (harg6 : arg6.IsWhole)
    (x0 : Vec F S10000x64 .bf16) (x1 : Vec F S10000x64 .bf16) (x2 : Vec F S64x64 .bf16) (x3 : Vec F S64x64 .bf16) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_combine_kernel i arg1 harg1 arg2 harg2 arg3 harg3 arg4 harg4 arg5 harg5 arg6 harg6) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/-
  Region 2 of the program's run, the third node layer's combine step: blocks of 10000 rows of the neighbour mean and of the node features (64 features), both weight matrices and the bias whole;
  the result block is the one store of the body's arithmetic on the blocks it was handed.

  Everything here is stated at a parameter `V`, the contents of the core's buffers when the region is entered: the
  block of each window at a grid point read off its array, what the body leaves in the output window's staging buffer
  (the canonical form of its single whole-buffer store), the body's triple, the proof data of the pipeline (each input
  window's buffer holds its block after the body, the output window's the stored value) and the body obligation at
  every grid point. The body reads the output buffer once before overwriting it whole; that read's value is not used.
-/
import proofs.«181890_j55551107006974_1_alg».proof.Proof.Gen.KernelIdeal.Launch
import proofs.«181890_j55551107006974_1_alg».proof.Proof.Gen.KernelIdeal.Skeleton
import proofs.«181890_j55551107006974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is not
    fetched its block index has not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (where it is not
    fetched its block index has not moved), for any proof data over these arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (where it is not
    fetched its block index has not moved), for any proof data over these arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (where it is not
    fetched its block index has not moved), for any proof data over these arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (where it is not
    fetched its block index has not moved), for any proof data over these arrays whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S10000x64 := Rect.unit (s := S10000x64) ![0, 0] S10000x64.size inb_S10000x64_S10000x64_0_0
abbrev r2_1 : Rect S10000x64 := Rect.unit (s := S10000x64) ![0, 0] S10000x64.size inb_S10000x64_S10000x64_0_0
abbrev r2_2 : Rect S64x64 := Rect.unit (s := S64x64) ![0, 0] S64x64.size inb_S64x64_S64x64_0_0
abbrev r2_3 : Rect S64x64 := Rect.unit (s := S64x64) ![0, 0] S64x64.size inb_S64x64_S64x64_0_0
abbrev r2_4 : Rect S64 := Rect.unit (s := S64) ![0] S64.size inb_S64_S64_0
abbrev r2_5 : Rect S10000x64 := Rect.unit (s := S10000x64) ![0, 0] S10000x64.size inb_S10000x64_S10000x64_0_0

/-- What the body leaves in the output window's staging buffer: its one store, of the body's arithmetic on the
    input blocks. -/
def out2_5 (x0 : Vec F S10000x64 .bf16) (x1 : Vec F S10000x64 .bf16) (x2 : Vec F S64x64 .bf16) (x3 : Vec F S64x64 .bf16) (x4 : Vec F S64 .f32) : Vec F S10000x64 .f32 :=
  View.canon [⟨r2_5, k2_pay1 (View.ld x0 r2_0) (View.ld x1 r2_1) (View.ld x2 r2_2) (View.ld x3 r2_3) (View.ld x4 r2_4)⟩]

/-- The store covers the buffer. -/
theorem cover2_5 (p0 : Vec F S10000x64 .f32) (y : S10000x64.Idx) :
    ∃ pc ∈ ([⟨r2_5, p0⟩] : List (View.Piece (Elt F) S10000x64 .f32)), y ∈ pc.1.set :=
  View.cover_of_tiled [⟨r2_5, p0⟩] S10000x64.size (by rfl) y

set_option maxHeartbeats 4000000 in
/-- The body on whole staging buffers, the inputs' at contents `xW` and the output's at anything, runs to the
    continuation with the inputs' as they were and the output's at `out2_5` of the inputs'. -/
theorem sound_kernel2 (c : Dev nD) (E : Set ℕ) (i : grid2.Coords) (arg1 : Memref sig .tc .vmem S10000x64 .bf16) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S64 .f32) (harg5 : arg5.IsWhole) (arg6 : Memref sig .tc .vmem S10000x64 .f32) (harg6 : arg6.IsWhole)
    (x0 : Vec F S10000x64 .bf16) (x1 : Vec F S10000x64 .bf16) (x2 : Vec F S64x64 .bf16) (x3 : Vec F S64x64 .bf16) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sage_combine_kernel i arg1 harg1 arg2 harg2 arg3 harg3 arg4 harg4 arg5 harg5 arg6 harg6) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t`
    each input's buffer at its block and the output's at `out2_5` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRegion3.lean ====
/-
  Region 3 of the program's run, the edge network: blocks of 4000 rows of the edge features, the three weight matrices and the three biases whole;
  the result block is the one store of the body's arithmetic on the blocks it was handed.

  Everything here is stated at a parameter `V`, the contents of the core's buffers when the region is entered: the
  block of each window at a grid point read off its array, what the body leaves in the output window's staging buffer
  (the canonical form of its single whole-buffer store), the body's triple, the proof data of the pipeline (each input
  window's buffer holds its block after the body, the output window's the stored value) and the body obligation at
  every grid point. The body reads the output buffer once before overwriting it whole; that read's value is not used.
-/
import proofs.«181890_j55551107006974_1_alg».proof.Proof.Gen.KernelIdeal.Launch
import proofs.«181890_j55551107006974_1_alg».proof.Proof.Gen.KernelIdeal.Skeleton
import proofs.«181890_j55551107006974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (where it is not
    fetched its block index has not moved), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (where it is not
    fetched its block index has not moved), for any proof data over these arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (where it is not
    fetched its block index has not moved), for any proof data over these arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (where it is not
    fetched its block index has not moved), for any proof data over these arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (where it is not
    fetched its block index has not moved), for any proof data over these arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (where it is not
    fetched its block index has not moved), for any proof data over these arrays whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not (where it is not
    fetched its block index has not moved), for any proof data over these arrays whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S4000x136 := Rect.unit (s := S4000x136) ![0, 0] S4000x136.size inb_S4000x136_S4000x136_0_0
abbrev r3_1 : Rect S136x64 := Rect.unit (s := S136x64) ![0, 0] S136x64.size inb_S136x64_S136x64_0_0
abbrev r3_2 : Rect S64 := Rect.unit (s := S64) ![0] S64.size inb_S64_S64_0
abbrev r3_3 : Rect S64x32 := Rect.unit (s := S64x32) ![0, 0] S64x32.size inb_S64x32_S64x32_0_0
abbrev r3_4 : Rect S32 := Rect.unit (s := S32) ![0] S32.size inb_S32_S32_0
abbrev r3_5 : Rect S32x1 := Rect.unit (s := S32x1) ![0, 0] S32x1.size inb_S32x1_S32x1_0_0
abbrev r3_6 : Rect S1 := Rect.unit (s := S1) ![0] S1.size inb_S1_S1_0
abbrev r3_7 : Rect S4000x1 := Rect.unit (s := S4000x1) ![0, 0] S4000x1.size inb_S4000x1_S4000x1_0_0

/-- What the body leaves in the output window's staging buffer: its one store, of the body's arithmetic on the
    input blocks. -/
def out3_7 (x0 : Vec F S4000x136 .bf16) (x1 : Vec F S136x64 .bf16) (x2 : Vec F S64 .f32) (x3 : Vec F S64x32 .bf16) (x4 : Vec F S32 .f32) (x5 : Vec F S32x1 .bf16) (x6 : Vec F S1 .f32) : Vec F S4000x1 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The store covers the buffer. -/
theorem cover3_7 (p0 : Vec F S4000x1 .f32) (y : S4000x1.Idx) :
    ∃ pc ∈ ([⟨r3_7, p0⟩] : List (View.Piece (Elt F) S4000x1 .f32)), y ∈ pc.1.set :=
  View.cover_of_tiled [⟨r3_7, p0⟩] S4000x1.size (by rfl) y

set_option maxHeartbeats 4000000 in
/-- The body on whole staging buffers, the inputs' at contents `xW` and the output's at anything, runs to the
    continuation with the inputs' as they were and the output's at `out3_7` of the inputs'. -/
theorem sound_kernel3 (c : Dev nD) (E : Set ℕ) (i : grid3.Coords) (arg1 : Memref sig .tc .vmem S4000x136 .bf16) (harg1 : arg1.IsWhole) (arg2 : Memref sig .tc .vmem S136x64 .bf16) (harg2 : arg2.IsWhole) (arg3 : Memref sig .tc .vmem S64 .f32) (harg3 : arg3.IsWhole) (arg4 : Memref sig .tc .vmem S64x32 .bf16) (harg4 : arg4.IsWhole) (arg5 : Memref sig .tc .vmem S32 .f32) (harg5 : arg5.IsWhole) (arg6 : Memref sig .tc .vmem S32x1 .bf16) (harg6 : arg6.IsWhole) (arg7 : Memref sig .tc .vmem S1 .f32) (harg7 : arg7.IsWhole) (arg8 : Memref sig .tc .vmem S4000x1 .f32) (harg8 : arg8.IsWhole)
    (x0 : Vec F S4000x136 .bf16) (x1 : Vec F S136x64 .bf16) (x2 : Vec F S64 .f32) (x3 : Vec F S64x32 .bf16) (x4 : Vec F S32 .f32) (x5 : Vec F S32x1 .bf16) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__edge_mlp_kernel i arg1 harg1 arg2 harg2 arg3 harg3 arg4 harg4 arg5 harg5 arg6 harg6 arg7 harg7 arg8 harg8) K := by
  simp only [cc3__edge_mlp_kernel_eq_skeleton]; unfold cc3__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of this pipeline on core `c`: the arrays as the region finds them; after the body at point `t`
    each input's buffer at its block and the output's at `out3_7` of the input blocks; the invariant is the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
/-
  The run of the whole program: host operations, region 0, host operations, region 1, host operations, region 2, host
  operations, region 3, a final reshape.

  The contents of the core's unscoped buffers are followed item by item: a stretch of host operations applies its
  operations in order; a region changes exactly one buffer, its output window's array, which ends at what the
  write-backs of its grid points leave (`Dat.arrAt … N`). Each region is entered with every unscoped buffer held at
  the contents before it and left with them held at the contents after it; beside the buffers ride the generator
  register at some state and the core owing nothing. The run's conclusion: every weakly fair execution ends, without
  a fault, with every unscoped buffer at the last contents. The argument arrays are written by no item, so they end
  as launched; the result buffer ends at the final reshape of region 3's output array.
-/
import proofs.«181890_j55551107006974_1_alg».proof.Proof.KIRegion0
import proofs.«181890_j55551107006974_1_alg».proof.Proof.KIRegion1
import proofs.«181890_j55551107006974_1_alg».proof.Proof.KIRegion2
import proofs.«181890_j55551107006974_1_alg».proof.Proof.KIRegion3
import proofs.«181890_j55551107006974_1_alg».proof.Proof.Gen.KernelIdeal.Regions
import proofs.«181890_j55551107006974_1_alg».proof.Proof.KIRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents, item by item -/

/-- The contents when region 0 is entered, read at the core's own references. -/
abbrev E1 : (c : Dev nD) → (b : Ref sig .tc) → Buf (Elt F) ((c : Thread nD τ).loc b) := fun c b => V1 m c b
/-- After region 0: its output array at what the write-backs leave. -/
def W2 (c : Dev nD) : Valuation τ sig (Elt F) := Function.update (V1 m c) main_v26 ((dat0 (E1 m) c).arrAt 5 cfg0.N)
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- After region 1. -/
def W4 (c : Dev nD) : Valuation τ sig (Elt F) := Function.update (W3 m c) main_v43 ((dat1 (E3 m) c).arrAt 5 cfg1.N)
abbrev W5 (c : Dev nD) : Valuation τ sig (Elt F) := StableHlo.after hostOps2 (W4 m c)
abbrev E5 : (c : Dev nD) → (b : Ref sig .tc) → Buf (Elt F) ((c : Thread nD τ).loc b) := fun c b => W5 m c b
/-- After region 2. -/
def W6 (c : Dev nD) : Valuation τ sig (Elt F) := Function.update (W5 m c) main_v60 ((dat2 (E5 m) c).arrAt 5 cfg2.N)
abbrev W7 (c : Dev nD) : Valuation τ sig (Elt F) := StableHlo.after hostOps3 (W6 m c)
abbrev E7 : (c : Dev nD) → (b : Ref sig .tc) → Buf (Elt F) ((c : Thread nD τ).loc b) := fun c b => W7 m c b
/-- After region 3. -/
def W8 (c : Dev nD) : Valuation τ sig (Elt F) := Function.update (W7 m c) main_v80 ((dat3 (E7 m) c).arrAt 7 cfg3.N)

/-- What the regions leave, in the form the host side's contents are written over. -/
def outs : Outs (F := F) := fun J r c => match J with
  | 2 => W2 m c r
  | 4 => W4 m c r
  | 6 => W6 m c r
  | _ => W8 m c r

theorem V2_eq (c : Dev nD) : V2 m (outs m) c = W2 m c := by
  show Function.update (V1 m c) main_v26 (W2 m c main_v26) = W2 m c
  unfold W2; rw [Function.update_self]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v43 (W4 m c main_v43) = W4 m c
  rw [V3_eq]; unfold W4; rw [Function.update_self]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) main_v60 (W6 m c main_v60) = W6 m c
  rw [V5_eq]; unfold W6; rw [Function.update_self]
theorem V7_eq (c : Dev nD) : V7 m (outs m) c = W7 m c := by
  show StableHlo.after hostOps3 (V6 m (outs m) c) = _; rw [V6_eq]
theorem V8_eq (c : Dev nD) : V8 m (outs m) c = W8 m c := by
  show Function.update (V7 m (outs m) c) main_v80 (W8 m c main_v80) = W8 m c
  rw [V7_eq]; unfold W8; rw [Function.update_self]

/-- What each region leaves in its output array, by name. -/
theorem outs_2 (c : Dev nD) : outs m 2 main_v26 c = (dat0 (E1 m) c).arrAt 5 cfg0.N := by
  show W2 m c main_v26 = _; unfold W2; rw [Function.update_self]
theorem outs_4 (c : Dev nD) : outs m 4 main_v43 c = (dat1 (E3 m) c).arrAt 5 cfg1.N := by
  show W4 m c main_v43 = _; unfold W4; rw [Function.update_self]
theorem outs_6 (c : Dev nD) : outs m 6 main_v60 c = (dat2 (E5 m) c).arrAt 5 cfg2.N := by
  show W6 m c main_v60 = _; unfold W6; rw [Function.update_self]
theorem outs_8 (c : Dev nD) : outs m 8 main_v80 c = (dat3 (E7 m) c).arrAt 7 cfg3.N := by
  show W8 m c main_v80 = _; unfold W8; rw [Function.update_self]

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c

/-- No core owes another anything: no level is assigned. -/
abbrev L0 : GSem nD τ sig → Finset Unit := fun _ => ∅
abbrev lv0 : GSem nD τ sig → Unit → ℕ := fun _ _ => 0
/-- Beside the buffers: the generator register at some state, and the core owing nothing. -/
abbrev Rst (c : Dev nD) : sProp 𝕄 := iprop((∃ r, prngReg c r) ∗ ∃ W, owes (c : Thread nD τ) (0 : CellTallies nD τ sig Unit) W)

/-! ## The regions as segments -/

set_option maxHeartbeats 4000000 in
/-- At region 0's exit each of its arrays holds what the pipeline leaves: an input window's array what it held at
    entry, the output window's what the write-backs leave. -/
theorem hF0 (c : Dev nD) (w : Fin cfg0.W) :
    (dat0 (E1 m) c).arrAt w cfg0.N = W2 m c (Pipeline.arrRef spec0 w) := by
  match w with
  | ⟨0, _⟩ =>
    refine ((dat0 (E1 m) c).arrAt_in 0 rfl _).trans ((A_eq0 (E1 m) c 0).trans ?_)
    unfold W2
    exact (Function.update_of_ne (StableHlo.devRef_ne_of_ne (by decide) : (Proc.devRef .tc main_v22 : DevRef τ sig) ≠ Proc.devRef .tc main_v26) _ _).symm
  | ⟨1, _⟩ =>
    refine ((dat0 (E1 m) c).arrAt_in 1 rfl _).trans ((A_eq0 (E1 m) c 1).trans ?_)
    unfold W2
    exact (Function.update_of_ne (StableHlo.devRef_ne_of_ne (by decide) : (Proc.devRef .tc main_v23 : DevRef τ sig) ≠ Proc.devRef .tc main_v26) _ _).symm
  | ⟨2, _⟩ =>
    refine ((dat0 (E1 m) c).arrAt_in 2 rfl _).trans ((A_eq0 (E1 m) c 2).trans ?_)
    unfold W2
    exact (Function.update_of_ne (StableHlo.devRef_ne_of_ne (by decide) : (Proc.devRef .tc main_v24 : DevRef τ sig) ≠ Proc.devRef .tc main_v26) _ _).symm
  | ⟨3, _⟩ =>
    refine ((dat0 (E1 m) c).arrAt_in 3 rfl _).trans ((A_eq0 (E1 m) c 3).trans ?_)
    unfold W2
    exact (Function.update_of_ne (StableHlo.devRef_ne_of_ne (by decide) : (Proc.devRef .tc main_v25 : DevRef τ sig) ≠ Proc.devRef .tc main_v26) _ _).symm
  | ⟨4, _⟩ =>
    refine ((dat0 (E1 m) c).arrAt_in 4 rfl _).trans ((A_eq0 (E1 m) c 4).trans ?_)
    unfold W2
    exact (Function.update_of_ne (StableHlo.devRef_ne_of_ne (by decide) : (Proc.devRef .tc main_arg5 : DevRef τ sig) ≠ Proc.devRef .tc main_v26) _ _).symm
  | ⟨5, _⟩ =>
    unfold W2
    exact (Function.update_self (Proc.devRef .tc main_v26 : DevRef τ sig) _ (V1 m c)).symm

/-- Every buffer that is no array of region 0 leaves it as it entered. -/
theorem hrest0 (c : Dev nD) : ∀ b, b ∉ Finset.univ.image (Pipeline.arrRef spec0) → W2 m c b = V1 m c b := by
  intro b hb
  unfold W2
  exact Function.update_of_ne (StableHlo.devRef_ne_of_ne (fun e => hb (Finset.mem_image.mpr ⟨5, Finset.mem_univ _, e.symm⟩))) _ _

set_option backward.isDefEq.respectTransparency.types false in
/-- Region 0 over the thread state: entered with every unscoped buffer at the contents before it, left with them at the
    contents after it; its arrays are split out of the unscoped buffers and put back at the exit contents, the
    generator register goes into the pipeline's invariant and comes back, nothing is owed, the kernel has no
    semaphore of its own. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L0 lv0 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 1's exit each of its arrays holds what the pipeline leaves: an input window's array what it held at
    entry, the output window's what the write-backs leave. -/
theorem hF1 (c : Dev nD) (w : Fin cfg1.W) :
    (dat1 (E3 m) c).arrAt w cfg1.N = W4 m c (Pipeline.arrRef spec1 w) := by
  match w with
  | ⟨0, _⟩ =>
    refine ((dat1 (E3 m) c).arrAt_in 0 rfl _).trans ((A_eq1 (E3 m) c 0).trans ?_)
    unfold W4
    exact (Function.update_of_ne (StableHlo.devRef_ne_of_ne (by decide) : (Proc.devRef .tc main_v39 : DevRef τ sig) ≠ Proc.devRef .tc main_v43) _ _).symm
  | ⟨1, _⟩ =>
    refine ((dat1 (E3 m) c).arrAt_in 1 rfl _).trans ((A_eq1 (E3 m) c 1).trans ?_)
    unfold W4
    exact (Function.update_of_ne (StableHlo.devRef_ne_of_ne (by decide) : (Proc.devRef .tc main_v40 : DevRef τ sig) ≠ Proc.devRef .tc main_v43) _ _).symm
  | ⟨2, _⟩ =>
    refine ((dat1 (E3 m) c).arrAt_in 2 rfl _).trans ((A_eq1 (E3 m) c 2).trans ?_)
    unfold W4
    exact (Function.update_of_ne (StableHlo.devRef_ne_of_ne (by decide) : (Proc.devRef .tc main_v41 : DevRef τ sig) ≠ Proc.devRef .tc main_v43) _ _).symm
  | ⟨3, _⟩ =>
    refine ((dat1 (E3 m) c).arrAt_in 3 rfl _).trans ((A_eq1 (E3 m) c 3).trans ?_)
    unfold W4
    exact (Function.update_of_ne (StableHlo.devRef_ne_of_ne (by decide) : (Proc.devRef .tc main_v42 : DevRef τ sig) ≠ Proc.devRef .tc main_v43) _ _).symm
  | ⟨4, _⟩ =>
    refine ((dat1 (E3 m) c).arrAt_in 4 rfl _).trans ((A_eq1 (E3 m) c 4).trans ?_)
    unfold W4
    exact (Function.update_of_ne (StableHlo.devRef_ne_of_ne (by decide) : (Proc.devRef .tc main_arg8 : DevRef τ sig) ≠ Proc.devRef .tc main_v43) _ _).symm
  | ⟨5, _⟩ =>
    unfold W4
    exact (Function.update_self (Proc.devRef .tc main_v43 : DevRef τ sig) _ (W3 m c)).symm

/-- Every buffer that is no array of region 1 leaves it as it entered. -/
theorem hrest1 (c : Dev nD) : ∀ b, b ∉ Finset.univ.image (Pipeline.arrRef spec1) → W4 m c b = W3 m c b := by
  intro b hb
  unfold W4
  exact Function.update_of_ne (StableHlo.devRef_ne_of_ne (fun e => hb (Finset.mem_image.mpr ⟨5, Finset.mem_univ _, e.symm⟩))) _ _

set_option backward.isDefEq.respectTransparency.types false in
/-- Region 1 over the thread state: entered with every unscoped buffer at the contents before it, left with them at the
    contents after it; its arrays are split out of the unscoped buffers and put back at the exit contents, the
    generator register goes into the pipeline's invariant and comes back, nothing is owed, the kernel has no
    semaphore of its own. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L0 lv0 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 2's exit each of its arrays holds what the pipeline leaves: an input window's array what it held at
    entry, the output window's what the write-backs leave. -/
theorem hF2 (c : Dev nD) (w : Fin cfg2.W) :
    (dat2 (E5 m) c).arrAt w cfg2.N = W6 m c (Pipeline.arrRef spec2 w) := by
  match w with
  | ⟨0, _⟩ =>
    refine ((dat2 (E5 m) c).arrAt_in 0 rfl _).trans ((A_eq2 (E5 m) c 0).trans ?_)
    unfold W6
    exact (Function.update_of_ne (StableHlo.devRef_ne_of_ne (by decide) : (Proc.devRef .tc main_v56 : DevRef τ sig) ≠ Proc.devRef .tc main_v60) _ _).symm
  | ⟨1, _⟩ =>
    refine ((dat2 (E5 m) c).arrAt_in 1 rfl _).trans ((A_eq2 (E5 m) c 1).trans ?_)
    unfold W6
    exact (Function.update_of_ne (StableHlo.devRef_ne_of_ne (by decide) : (Proc.devRef .tc main_v57 : DevRef τ sig) ≠ Proc.devRef .tc main_v60) _ _).symm
  | ⟨2, _⟩ =>
    refine ((dat2 (E5 m) c).arrAt_in 2 rfl _).trans ((A_eq2 (E5 m) c 2).trans ?_)
    unfold W6
    exact (Function.update_of_ne (StableHlo.devRef_ne_of_ne (by decide) : (Proc.devRef .tc main_v58 : DevRef τ sig) ≠ Proc.devRef .tc main_v60) _ _).symm
  | ⟨3, _⟩ =>
    refine ((dat2 (E5 m) c).arrAt_in 3 rfl _).trans ((A_eq2 (E5 m) c 3).trans ?_)
    unfold W6
    exact (Function.update_of_ne (StableHlo.devRef_ne_of_ne (by decide) : (Proc.devRef .tc main_v59 : DevRef τ sig) ≠ Proc.devRef .tc main_v60) _ _).symm
  | ⟨4, _⟩ =>
    refine ((dat2 (E5 m) c).arrAt_in 4 rfl _).trans ((A_eq2 (E5 m) c 4).trans ?_)
    unfold W6
    exact (Function.update_of_ne (StableHlo.devRef_ne_of_ne (by decide) : (Proc.devRef .tc main_arg11 : DevRef τ sig) ≠ Proc.devRef .tc main_v60) _ _).symm
  | ⟨5, _⟩ =>
    unfold W6
    exact (Function.update_self (Proc.devRef .tc main_v60 : DevRef τ sig) _ (W5 m c)).symm

/-- Every buffer that is no array of region 2 leaves it as it entered. -/
theorem hrest2 (c : Dev nD) : ∀ b, b ∉ Finset.univ.image (Pipeline.arrRef spec2) → W6 m c b = W5 m c b := by
  intro b hb
  unfold W6
  exact Function.update_of_ne (StableHlo.devRef_ne_of_ne (fun e => hb (Finset.mem_image.mpr ⟨5, Finset.mem_univ _, e.symm⟩))) _ _

set_option backward.isDefEq.respectTransparency.types false in
/-- Region 2 over the thread state: entered with every unscoped buffer at the contents before it, left with them at the
    contents after it; its arrays are split out of the unscoped buffers and put back at the exit contents, the
    generator register goes into the pipeline's invariant and comes back, nothing is owed, the kernel has no
    semaphore of its own. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L0 lv0 2 fun _ _ => rfl
  pre c := iprop(StableHlo.held (c : Thread nD τ) (Pipeline.ucRefs τ sig) (V5 m (outs m) c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none, V5_eq]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 3's exit each of its arrays holds what the pipeline leaves: an input window's array what it held at
    entry, the output window's what the write-backs leave. -/
theorem hF3 (c : Dev nD) (w : Fin cfg3.W) :
    (dat3 (E7 m) c).arrAt w cfg3.N = W8 m c (Pipeline.arrRef spec3 w) := by
  match w with
  | ⟨0, _⟩ =>
    refine ((dat3 (E7 m) c).arrAt_in 0 rfl _).trans ((A_eq3 (E7 m) c 0).trans ?_)
    unfold W8
    exact (Function.update_of_ne (StableHlo.devRef_ne_of_ne (by decide) : (Proc.devRef .tc main_v76 : DevRef τ sig) ≠ Proc.devRef .tc main_v80) _ _).symm
  | ⟨1, _⟩ =>
    refine ((dat3 (E7 m) c).arrAt_in 1 rfl _).trans ((A_eq3 (E7 m) c 1).trans ?_)
    unfold W8
    exact (Function.update_of_ne (StableHlo.devRef_ne_of_ne (by decide) : (Proc.devRef .tc main_v77 : DevRef τ sig) ≠ Proc.devRef .tc main_v80) _ _).symm
  | ⟨2, _⟩ =>
    refine ((dat3 (E7 m) c).arrAt_in 2 rfl _).trans ((A_eq3 (E7 m) c 2).trans ?_)
    unfold W8
    exact (Function.update_of_ne (StableHlo.devRef_ne_of_ne (by decide) : (Proc.devRef .tc main_arg13 : DevRef τ sig) ≠ Proc.devRef .tc main_v80) _ _).symm
  | ⟨3, _⟩ =>
    refine ((dat3 (E7 m) c).arrAt_in 3 rfl _).trans ((A_eq3 (E7 m) c 3).trans ?_)
    unfold W8
    exact (Function.update_of_ne (StableHlo.devRef_ne_of_ne (by decide) : (Proc.devRef .tc main_v78 : DevRef τ sig) ≠ Proc.devRef .tc main_v80) _ _).symm
  | ⟨4, _⟩ =>
    refine ((dat3 (E7 m) c).arrAt_in 4 rfl _).trans ((A_eq3 (E7 m) c 4).trans ?_)
    unfold W8
    exact (Function.update_of_ne (StableHlo.devRef_ne_of_ne (by decide) : (Proc.devRef .tc main_arg15 : DevRef τ sig) ≠ Proc.devRef .tc main_v80) _ _).symm
  | ⟨5, _⟩ =>
    refine ((dat3 (E7 m) c).arrAt_in 5 rfl _).trans ((A_eq3 (E7 m) c 5).trans ?_)
    unfold W8
    exact (Function.update_of_ne (StableHlo.devRef_ne_of_ne (by decide) : (Proc.devRef .tc main_v79 : DevRef τ sig) ≠ Proc.devRef .tc main_v80) _ _).symm
  | ⟨6, _⟩ =>
    refine ((dat3 (E7 m) c).arrAt_in 6 rfl _).trans ((A_eq3 (E7 m) c 6).trans ?_)
    unfold W8
    exact (Function.update_of_ne (StableHlo.devRef_ne_of_ne (by decide) : (Proc.devRef .tc main_arg17 : DevRef τ sig) ≠ Proc.devRef .tc main_v80) _ _).symm
  | ⟨7, _⟩ =>
    unfold W8
    exact (Function.update_self (Proc.devRef .tc main_v80 : DevRef τ sig) _ (W7 m c)).symm

/-- Every buffer that is no array of region 3 leaves it as it entered. -/
theorem hrest3 (c : Dev nD) : ∀ b, b ∉ Finset.univ.image (Pipeline.arrRef spec3) → W8 m c b = W7 m c b := by
  intro b hb
  unfold W8
  exact Function.update_of_ne (StableHlo.devRef_ne_of_ne (fun e => hb (Finset.mem_image.mpr ⟨7, Finset.mem_univ _, e.symm⟩))) _ _

set_option backward.isDefEq.respectTransparency.types false in
/-- Region 3 over the thread state: entered with every unscoped buffer at the contents before it, left with them at the
    contents after it; its arrays are split out of the unscoped buffers and put back at the exit contents, the
    generator register goes into the pipeline's invariant and comes back, nothing is owed, the kernel has no
    semaphore of its own. -/
def reg3 : RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L0 lv0 3 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none, V7_eq]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    rw [V8_eq]
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run of the program over the four regions' records: it ends with every unscoped buffer at the last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V9 m (outs m) c b) :=
  Cert.KernelIdeal.GenP.run_cond m emb₁ () Variants.none L0 lv0 (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (Pipeline.initEach L0 lv0 fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)
    (reg2 m) (fun _ => .rfl) (fun _ => .rfl) (reg3 m) (fun _ => .rfl) (fun _ => .rfl)

/-- The frame: every weakly fair execution terminates, nothing faulting, with the argument arrays as launched (no
    item writes one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (V9_main_arg0 m (outs m) c),
      (h c _ (mem_uc main_arg1 (by decide))).trans (V9_main_arg1 m (outs m) c),
      (h c _ (mem_uc main_arg2 (by decide))).trans (V9_main_arg2 m (outs m) c),
      (h c _ (mem_uc main_arg3 (by decide))).trans (V9_main_arg3 m (outs m) c),
      (h c _ (mem_uc main_arg4 (by decide))).trans (V9_main_arg4 m (outs m) c),
      (h c _ (mem_uc main_arg5 (by decide))).trans (V9_main_arg5 m (outs m) c),
      (h c _ (mem_uc main_arg6 (by decide))).trans (V9_main_arg6 m (outs m) c),
      (h c _ (mem_uc main_arg7 (by decide))).trans (V9_main_arg7 m (outs m) c),
      (h c _ (mem_uc main_arg8 (by decide))).trans (V9_main_arg8 m (outs m) c),
      (h c _ (mem_uc main_arg9 (by decide))).trans (V9_main_arg9 m (outs m) c),
      (h c _ (mem_uc main_arg10 (by decide))).trans (V9_main_arg10 m (outs m) c),
      (h c _ (mem_uc main_arg11 (by decide))).trans (V9_main_arg11 m (outs m) c),
      (h c _ (mem_uc main_arg12 (by decide))).trans (V9_main_arg12 m (outs m) c),
      (h c _ (mem_uc main_arg13 (by decide))).trans (V9_main_arg13 m (outs m) c),
      (h c _ (mem_uc main_arg14 (by decide))).trans (V9_main_arg14 m (outs m) c),
      (h c _ (mem_uc main_arg15 (by decide))).trans (V9_main_arg15 m (outs m) c),
      (h c _ (mem_uc main_arg16 (by decide))).trans (V9_main_arg16 m (outs m) c),
      (h c _ (mem_uc main_arg17 (by decide))).trans (V9_main_arg17 m (outs m) c)⟩) (run_all m ρ)

/-- The run with its result: the result buffer ends at the last contents' value, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v81) = V9 m (outs m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v81 (by decide)),
      (h c _ (mem_uc main_arg0 (by decide))).trans (V9_main_arg0 m (outs m) c),
      (h c _ (mem_uc main_arg1 (by decide))).trans (V9_main_arg1 m (outs m) c),
      (h c _ (mem_uc main_arg2 (by decide))).trans (V9_main_arg2 m (outs m) c),
      (h c _ (mem_uc main_arg3 (by decide))).trans (V9_main_arg3 m (outs m) c),
      (h c _ (mem_uc main_arg4 (by decide))).trans (V9_main_arg4 m (outs m) c),
      (h c _ (mem_uc main_arg5 (by decide))).trans (V9_main_arg5 m (outs m) c),
      (h c _ (mem_uc main_arg6 (by decide))).trans (V9_main_arg6 m (outs m) c),
      (h c _ (mem_uc main_arg7 (by decide))).trans (V9_main_arg7 m (outs m) c),
      (h c _ (mem_uc main_arg8 (by decide))).trans (V9_main_arg8 m (outs m) c),
      (h c _ (mem_uc main_arg9 (by decide))).trans (V9_main_arg9 m (outs m) c),
      (h c _ (mem_uc main_arg10 (by decide))).trans (V9_main_arg10 m (outs m) c),
      (h c _ (mem_uc main_arg11 (by decide))).trans (V9_main_arg11 m (outs m) c),
      (h c _ (mem_uc main_arg12 (by decide))).trans (V9_main_arg12 m (outs m) c),
      (h c _ (mem_uc main_arg13 (by decide))).trans (V9_main_arg13 m (outs m) c),
      (h c _ (mem_uc main_arg14 (by decide))).trans (V9_main_arg14 m (outs m) c),
      (h c _ (mem_uc main_arg15 (by decide))).trans (V9_main_arg15 m (outs m) c),
      (h c _ (mem_uc main_arg16 (by decide))).trans (V9_main_arg16 m (outs m) c),
      (h c _ (mem_uc main_arg17 (by decide))).trans (V9_main_arg17 m (outs m) c)⟩) (run_all m ρ)

end Cert.KernelIdeal.Hand

end
-- ==== Proof.RefFrame.lean ====
/-
  The reference program runs to completion from any memory and leaves its eighteen argument arrays as they
  were: it is a straight line of whole-array operations none of which writes an argument.
-/
import proofs.«181890_j55551107006974_1_alg».proof.Proof.Gen.ReferenceIdeal.Read
import proofs.«181890_j55551107006974_1_alg».proof.Proof.Gen.Pre_finite_inputs
import proofs.«181890_j55551107006974_1_alg».proof.Defs

namespace Cert.KernelIdeal.Bridge

open Idealize.ShloMosaic Idealize.SL.Sem

/-- The reference's frame claim: the run's statement with the result's conjunct dropped. -/
theorem frame_ri : Cert.frame_ReferenceIdeal := fun m ρ _ =>
  (θ_run Cert.ReferenceIdeal.defs _ _).mono (fun _ h c => (h c).2) (Cert.ReferenceIdeal.Value.run (F := Ideal) m ρ)

end Cert.KernelIdeal.Bridge
-- ==== Proof.KIValueDot.lean ====
/-
  A contraction of a row-major pair of matrices, read at coordinates.

  For the plain dimension record (contract the left operand's columns with the right operand's rows, no batch axis)
  the element of the product at row `p`, column `q` is the sum over `k` of `lhs (p, k) * rhs (k, q)`. The same holds for
  an in-kernel product into a zero accumulator and for a whole-array product, so a row block of a product is the
  product of the row block.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.RegionValue

open Idealize.ShloMosaic Idealize.ShloMosaic.ValueIdx

/-- The plain contraction's sum over its one-axis contraction index is the sum over `k : Fin K` of the products of
    the left operand's row `p` and the right operand's column `q`. -/
theorem plain_sum {M K N : ℕ} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- An in-kernel product into the zero accumulator, for any record that is the plain one. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  subst hd
  rw [Ideal.matmul_constant_zero_apply]
  exact plain_sum lhs rhs p q

/-- A whole-array product, for any record that is the plain one. -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact plain_sum lhs rhs p q

/-- A row block of a product is the product of the row block: if the in-kernel left operand's row `p` is row `ρ p` of
    the whole left operand and the right operands agree, the in-kernel product at `(p, q)` is the whole product at
    `(ρ p, q)`. -/
theorem matmul_rows {M M' K N : ℕ} {φ₁ φ₂ φ₁' φ₂' : FTy}
    (d : DotDims ⟨2, ![M, K]⟩ ⟨2, ![K, N]⟩ ⟨2, ![M, N]⟩) (hd : d = DotDims.plain M K N)
    (d' : DotDims ⟨2, ![M', K]⟩ ⟨2, ![K, N]⟩ ⟨2, ![M', N]⟩) (hd' : d' = DotDims.plain M' K N)
    (prec prec' : Option ContractPrecision) (sched : HostSchedule)
    (X : FVec Ideal ⟨2, ![M, K]⟩ φ₁) (W : FVec Ideal ⟨2, ![K, N]⟩ φ₂)
    (X' : FVec Ideal ⟨2, ![M', K]⟩ φ₁') (W' : FVec Ideal ⟨2, ![K, N]⟩ φ₂')
    (ρ : Fin M → Fin M') (hX : ∀ p k, X (ix2 p k) = X' (ix2 (ρ p) k)) (hW : ∀ i, W i = W' i) (p : Fin M) (q : Fin N) :
    FloatOps.matmul d prec X W (constant (F := Ideal) ⟨2, ![M, N]⟩ .f32 0x00000000#32) (ix2 p q)
      = FloatOps.dotGeneral d' prec' sched X' W' (ix2 (ρ p) q) := by
  rw [matmul_plain_apply d hd, dotGeneral_plain_apply d' hd']
  exact Finset.sum_congr rfl fun k _ => by rw [hX, hW]

/-! ## A bias spread along the rows, and the zero array -/

/-- In a kernel: a length-`b` vector cast to one row and broadcast over `a` rows reads, at `(p, q)`, the vector at `q`. -/
theorem rowBias_apply {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

/-- On the host: the same spread written with two broadcasts (first to one row, then over the rows). -/
theorem hostRowBias_apply {α : Type} {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (q : Fin b) :
    broadcastInDim ⟨2, ![a, b]⟩ ![0, 1] h2 (broadcastInDim ⟨2, ![1, b]⟩ ![1] h1 x) (ix2 p q) = x (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if b = 1 then 0 else q.val
      split
      · have := q.isLt; omega
      · rfl)]
  exact broadcastInDim_apply ![1] h1 x (ix2 (0 : Fin 1) q) (ix1 q) (fun ax => by
    match ax with
    | ⟨0, _⟩ =>
      show q.val = if b = 1 then 0 else q.val
      split
      · have := q.isLt; omega
      · rfl)

/-- On the host: a rank-0 constant broadcast to any shape reads the constant everywhere. -/
theorem hostSplat_apply {α : Type} {t : Shape} (x : (⟨0, ![]⟩ : Shape).Idx → α)
    (h : (⟨0, ![]⟩ : Shape).BroadcastsInDim t ![]) (i : t.Idx) :
    broadcastInDim t ![] h x i = x ix0 :=
  broadcastInDim_apply ![] h x i ix0 (fun ax => ax.elim0)

/-- The zero word is the extended real zero, in a kernel's scalar spelling. -/
theorem scalar_zero : (Scalar.ofBits (F := Ideal) .f32 0x00000000#32) = (0 : EReal) := Ideal.ofBits_zero_f32

/-! ## A dense layer on a row block -/

/-- `X · W + b` on a row block is the row block of `X' · W' + b'`. -/
theorem dense_rows {M M' K N : ℕ} {φ₁ φ₂ φ₁' φ₂' : FTy}
    (d : DotDims ⟨2, ![M, K]⟩ ⟨2, ![K, N]⟩ ⟨2, ![M, N]⟩) (hd : d = DotDims.plain M K N)
    (d' : DotDims ⟨2, ![M', K]⟩ ⟨2, ![K, N]⟩ ⟨2, ![M', N]⟩) (hd' : d' = DotDims.plain M' K N)
    (prec prec' : Option ContractPrecision)
    (X : FVec Ideal ⟨2, ![M, K]⟩ φ₁) (W : FVec Ideal ⟨2, ![K, N]⟩ φ₂) (b : FVec Ideal ⟨1, ![N]⟩ .f32)
    (X' : FVec Ideal ⟨2, ![M', K]⟩ φ₁') (W' : FVec Ideal ⟨2, ![K, N]⟩ φ₂') (b' : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (g1 : (⟨1, ![N]⟩ : Shape).BroadcastsInDim ⟨2, ![1, N]⟩ ![1])
    (g2 : (⟨2, ![1, N]⟩ : Shape).BroadcastsInDim ⟨2, ![M', N]⟩ ![0, 1])
    (ρ : Fin M → Fin M') (hX : ∀ p k, X (ix2 p k) = X' (ix2 (ρ p) k)) (hW : ∀ i, W i = W' i) (hb : ∀ i, b i = b' i)
    (p : Fin M) (q : Fin N) :
    addf (matmul d prec X W (constant (F := Ideal) ⟨2, ![M, N]⟩ .f32 0x00000000#32))
        (broadcastTo ⟨2, ![M, N]⟩ (shapeCast ⟨2, ![1, N]⟩ b h1) h2) (ix2 p q)
      = addf (Host.dotGeneral d' prec' X' W')
        (broadcastInDim ⟨2, ![M', N]⟩ ![0, 1] g2 (broadcastInDim ⟨2, ![1, N]⟩ ![1] g1 b')) (ix2 (ρ p) q) := by
  rw [addf_apply, addf_apply, rowBias_apply, hostRowBias_apply, hb]
  exact congrArg (· + b' (ix1 q)) (matmul_rows d hd d' hd' prec prec' .single X W X' W' ρ hX hW p q)

/-- The maximum against the zero array, on a row block. -/
theorem relu_rows {M M' N : ℕ} (Y : FVec Ideal ⟨2, ![M, N]⟩ .f32) (Y' : FVec Ideal ⟨2, ![M', N]⟩ .f32)
    (g : (⟨0, ![]⟩ : Shape).BroadcastsInDim ⟨2, ![M', N]⟩ ![])
    (p : Fin M) (p' : Fin M') (q : Fin N) (hY : Y (ix2 p q) = Y' (ix2 p' q)) :
    maximumf Y (broadcast ⟨2, ![M, N]⟩ (Scalar.ofBits (F := Ideal) .f32 0x00000000#32)) (ix2 p q)
      = maximumf Y' (broadcastInDim ⟨2, ![M', N]⟩ ![] g (constant (F := Ideal) ⟨0, ![]⟩ .f32 0x00000000#32)) (ix2 p' q) := by
  rw [maximumf_apply, maximumf_apply, broadcast_apply, hostSplat_apply, hY]
  rfl

end Cert.KernelIdeal.RegionValue

end
-- ==== Proof.KIValuePay.lean ====
/-
  The node layers' in-kernel arithmetic, read at an element.

  On a block of rows each layer's kernel computes `max (m · Wl + x · Wr + b, 0)`: at row `p`, column `q` this is the
  maximum of zero and the two sums over the input features plus the bias at `q`.
-/
import proofs.«181890_j55551107006974_1_alg».proof.Proof.Gen.KernelIdeal.Skeleton
import proofs.«181890_j55551107006974_1_alg».proof.Proof.KIValueDot

noncomputable section

open scoped BigOperators

namespace Cert.KernelIdeal.RegionValue

open Idealize.ShloMosaic Idealize.ShloMosaic.ValueIdx Cert.KernelIdeal Cert.KernelIdeal.Gen

theorem pay0_apply (x0 x1 : Vec Ideal S10000x16 .bf16) (x2 x3 : Vec Ideal S16x64 .bf16) (x4 : Vec Ideal S64 .f32)
    (p : Fin 10000) (q : Fin 64) :
    k0_pay1 (F := Ideal) x0 x1 x2 x3 x4 (ix2 p q)
      = max ((∑ k : Fin 16, x0 (ix2 p k) * x2 (ix2 k q)) + (∑ k : Fin 16, x1 (ix2 p k) * x3 (ix2 k q)) + x4 (ix1 q)) 0 := by
  unfold k0_pay1
  simp only [shapeCast_self]
  rw [maximumf_apply, addf_apply, addf_apply, broadcast_apply]
  simp only [matmul]
  rw [matmul_plain_apply (M := 10000) (K := 16) (N := 64) dot_S10000x16_S16x64_S10000x64_1_0_0_1_n_n rfl,
    matmul_plain_apply (M := 10000) (K := 16) (N := 64) dot_S10000x16_S16x64_S10000x64_1_0_0_1_n_n rfl, rowBias_apply]
  show max _ (Ideal.ofBits .f32 0x00000000#32) = _
  rw [Ideal.ofBits_zero_f32]

theorem pay1_apply (x0 x1 : Vec Ideal S10000x64 .bf16) (x2 x3 : Vec Ideal S64x64 .bf16) (x4 : Vec Ideal S64 .f32)
    (p : Fin 10000) (q : Fin 64) :
    k1_pay1 (F := Ideal) x0 x1 x2 x3 x4 (ix2 p q)
      = max ((∑ k : Fin 64, x0 (ix2 p k) * x2 (ix2 k q)) + (∑ k : Fin 64, x1 (ix2 p k) * x3 (ix2 k q)) + x4 (ix1 q)) 0 := by
  unfold k1_pay1
  simp only [shapeCast_self]
  rw [maximumf_apply, addf_apply, addf_apply, broadcast_apply]
  simp only [matmul]
  rw [matmul_plain_apply (M := 10000) (K := 64) (N := 64) dot_S10000x64_S64x64_S10000x64_1_0_0_1_n_n rfl,
    matmul_plain_apply (M := 10000) (K := 64) (N := 64) dot_S10000x64_S64x64_S10000x64_1_0_0_1_n_n rfl, rowBias_apply]
  show max _ (Ideal.ofBits .f32 0x00000000#32) = _
  rw [Ideal.ofBits_zero_f32]

theorem pay2_apply (x0 x1 : Vec Ideal S10000x64 .bf16) (x2 x3 : Vec Ideal S64x64 .bf16) (x4 : Vec Ideal S64 .f32)
    (p : Fin 10000) (q : Fin 64) :
    k2_pay1 (F := Ideal) x0 x1 x2 x3 x4 (ix2 p q)
      = max ((∑ k : Fin 64, x0 (ix2 p k) * x2 (ix2 k q)) + (∑ k : Fin 64, x1 (ix2 p k) * x3 (ix2 k q)) + x4 (ix1 q)) 0 := by
  unfold k2_pay1
  simp only [shapeCast_self]
  rw [maximumf_apply, addf_apply, addf_apply, broadcast_apply]
  simp only [matmul]
  rw [matmul_plain_apply (M := 10000) (K := 64) (N := 64) dot_S10000x64_S64x64_S10000x64_1_0_0_1_n_n rfl,
    matmul_plain_apply (M := 10000) (K := 64) (N := 64) dot_S10000x64_S64x64_S10000x64_1_0_0_1_n_n rfl, rowBias_apply]
  show max _ (Ideal.ofBits .f32 0x00000000#32) = _
  rw [Ideal.ofBits_zero_f32]

end Cert.KernelIdeal.RegionValue

end
-- ==== Proof.LayerSpec.lean ====
/-
  The node layers and the edge network as whole-array functions on the extended reals.

  One node layer takes the neighbour mean `a` and the node features `x` (both N × F), two weight matrices and
  a bias, and returns `max (a · Wl + x · Wr + b, 0)`, an N × 64 array. The edge network takes the E × 136 edge
  features and returns `max (max (e · W₁ + b₁, 0) · W₂ + b₂, 0) · W₃ + b₃`, an E × 1 array. Each is written
  with the whole-array operations (a contraction over the shared axis, a bias spread along the rows, a
  maximum against a zero array), so a row of the result depends only on the same row of the row-wise operands.
-/
import proofs.«181890_j55551107006974_1_alg».proof.Proof.Gen.KernelIdeal
import proofs.«181890_j55551107006974_1_alg».proof.Proof.Gen.ReferenceIdeal
import Idealize.ShloMosaic.PureOps.Ideal

noncomputable section

namespace Cert.KernelIdeal.Spec

open Idealize.ShloMosaic Cert.KernelIdeal

/-- A node layer on 16 input features: `max (a · Wl + x · Wr + b, 0)`, rows 0 … 49999. -/
def sage16 {φa φx φl φr : FTy} (a : FVec Ideal S50000x16 φa) (x : FVec Ideal S50000x16 φx) (wl : FVec Ideal S16x64 φl) (wr : FVec Ideal S16x64 φr)
    (b : FVec Ideal S64 .f32) : FVec Ideal S50000x64 .f32 :=
  maximumf
    (addf
      (addf (Host.dotGeneral Cert.ReferenceIdeal.dot_S50000x16_S16x64_S50000x64_1_0_0_1_n_n none a wl)
        (Host.dotGeneral Cert.ReferenceIdeal.dot_S50000x16_S16x64_S50000x64_1_0_0_1_n_n none x wr))
      (broadcastInDim S50000x64 ![0, 1] Cert.ReferenceIdeal.Facts₀.bcast_S1x64_S50000x64_0_1
        (broadcastInDim S1x64 ![1] Cert.ReferenceIdeal.Facts₀.bcast_S64_S1x64_1 b)))
    (broadcastInDim S50000x64 ![] Cert.ReferenceIdeal.Facts₀.bcast_S_S50000x64 (constant (F := Ideal) S_ .f32 0x00000000#32))

/-- A node layer on 64 input features: `max (a · Wl + x · Wr + b, 0)`, rows 0 … 49999. -/
def sage64 {φa φx φl φr : FTy} (a : FVec Ideal S50000x64 φa) (x : FVec Ideal S50000x64 φx) (wl : FVec Ideal S64x64 φl) (wr : FVec Ideal S64x64 φr)
    (b : FVec Ideal S64 .f32) : FVec Ideal S50000x64 .f32 :=
  maximumf
    (addf
      (addf (Host.dotGeneral Cert.ReferenceIdeal.dot_S50000x64_S64x64_S50000x64_1_0_0_1_n_n none a wl)
        (Host.dotGeneral Cert.ReferenceIdeal.dot_S50000x64_S64x64_S50000x64_1_0_0_1_n_n none x wr))
      (broadcastInDim S50000x64 ![0, 1] Cert.ReferenceIdeal.Facts₀.bcast_S1x64_S50000x64_0_1
        (broadcastInDim S1x64 ![1] Cert.ReferenceIdeal.Facts₀.bcast_S64_S1x64_1 b)))
    (broadcastInDim S50000x64 ![] Cert.ReferenceIdeal.Facts₀.bcast_S_S50000x64 (constant (F := Ideal) S_ .f32 0x00000000#32))

/-- The edge network: `max (max (e · W₁ + b₁, 0) · W₂ + b₂, 0) · W₃ + b₃`, rows 0 … 799999. -/
def edgeMlp {φe φ1 φ2 φ3 : FTy} (e : FVec Ideal S800000x136 φe) (w1 : FVec Ideal S136x64 φ1) (b1 : FVec Ideal S64 .f32)
    (w2 : FVec Ideal S64x32 φ2) (b2 : FVec Ideal S32 .f32) (w3 : FVec Ideal S32x1 φ3) (b3 : FVec Ideal S1 .f32) :
    FVec Ideal S800000x1 .f32 :=
  addf
    (Host.dotGeneral Cert.ReferenceIdeal.dot_S800000x32_S32x1_S800000x1_1_0_0_1_n_n none
      (maximumf
        (addf
          (Host.dotGeneral Cert.ReferenceIdeal.dot_S800000x64_S64x32_S800000x32_1_0_0_1_n_n none
            (maximumf
              (addf (Host.dotGeneral Cert.ReferenceIdeal.dot_S800000x136_S136x64_S800000x64_1_0_0_1_n_n none e w1)
                (broadcastInDim Cert.ReferenceIdeal.S800000x64 ![0, 1] Cert.ReferenceIdeal.Facts₀.bcast_S1x64_S800000x64_0_1
                  (broadcastInDim S1x64 ![1] Cert.ReferenceIdeal.Facts₀.bcast_S64_S1x64_1 b1)))
              (broadcastInDim Cert.ReferenceIdeal.S800000x64 ![] Cert.ReferenceIdeal.Facts₀.bcast_S_S800000x64
                (constant (F := Ideal) S_ .f32 0x00000000#32)))
            w2)
          (broadcastInDim Cert.ReferenceIdeal.S800000x32 ![0, 1] Cert.ReferenceIdeal.Facts₀.bcast_S1x32_S800000x32_0_1
            (broadcastInDim S1x32 ![1] Cert.ReferenceIdeal.Facts₀.bcast_S32_S1x32_1 b2)))
        (broadcastInDim Cert.ReferenceIdeal.S800000x32 ![] Cert.ReferenceIdeal.Facts₀.bcast_S_S800000x32
          (constant (F := Ideal) S_ .f32 0x00000000#32)))
      w3)
    (broadcastInDim S800000x1 ![0, 1] Cert.ReferenceIdeal.Facts₀.bcast_S1x1_S800000x1_0_1
      (broadcastInDim S1x1 ![1] Cert.ReferenceIdeal.Facts₀.bcast_S1_S1x1_1 b3))

end Cert.KernelIdeal.Spec

end
-- ==== Proof.KIValueSpec.lean ====
/-
  The node layers and the edge network as whole-array functions, read at an element.

  Row `r`, column `q` of a node layer is the maximum of zero and the two sums over the input features plus the
  bias at `q`; row `r` of the edge network is the three chained layers on that row.
-/
import proofs.«181890_j55551107006974_1_alg».proof.Proof.LayerSpec
import proofs.«181890_j55551107006974_1_alg».proof.Proof.KIValueDot

noncomputable section

open scoped BigOperators

namespace Cert.KernelIdeal.RegionValue

open Idealize.ShloMosaic Idealize.ShloMosaic.ValueIdx Cert.KernelIdeal

theorem sage16_apply {φa φx φl φr : FTy} (a : FVec Ideal S50000x16 φa) (x : FVec Ideal S50000x16 φx)
    (wl : FVec Ideal S16x64 φl) (wr : FVec Ideal S16x64 φr) (b : FVec Ideal S64 .f32) (r : Fin 50000) (q : Fin 64) :
    Spec.sage16 a x wl wr b (ix2 r q)
      = max ((∑ k : Fin 16, a (ix2 r k) * wl (ix2 k q)) + (∑ k : Fin 16, x (ix2 r k) * wr (ix2 k q)) + b (ix1 q)) 0 := by
  unfold Spec.sage16
  rw [maximumf_apply, addf_apply, addf_apply]
  simp only [Host.dotGeneral]
  rw [dotGeneral_plain_apply (M := 50000) (K := 16) (N := 64) Cert.ReferenceIdeal.dot_S50000x16_S16x64_S50000x64_1_0_0_1_n_n rfl,
    dotGeneral_plain_apply (M := 50000) (K := 16) (N := 64) Cert.ReferenceIdeal.dot_S50000x16_S16x64_S50000x64_1_0_0_1_n_n rfl,
    hostRowBias_apply, hostSplat_apply]
  show max _ (Ideal.ofBits .f32 0x00000000#32) = _
  rw [Ideal.ofBits_zero_f32]

theorem sage64_apply {φa φx φl φr : FTy} (a : FVec Ideal S50000x64 φa) (x : FVec Ideal S50000x64 φx)
    (wl : FVec Ideal S64x64 φl) (wr : FVec Ideal S64x64 φr) (b : FVec Ideal S64 .f32) (r : Fin 50000) (q : Fin 64) :
    Spec.sage64 a x wl wr b (ix2 r q)
      = max ((∑ k : Fin 64, a (ix2 r k) * wl (ix2 k q)) + (∑ k : Fin 64, x (ix2 r k) * wr (ix2 k q)) + b (ix1 q)) 0 := by
  unfold Spec.sage64
  rw [maximumf_apply, addf_apply, addf_apply]
  simp only [Host.dotGeneral]
  rw [dotGeneral_plain_apply (M := 50000) (K := 64) (N := 64) Cert.ReferenceIdeal.dot_S50000x64_S64x64_S50000x64_1_0_0_1_n_n rfl,
    dotGeneral_plain_apply (M := 50000) (K := 64) (N := 64) Cert.ReferenceIdeal.dot_S50000x64_S64x64_S50000x64_1_0_0_1_n_n rfl,
    hostRowBias_apply, hostSplat_apply]
  show max _ (Ideal.ofBits .f32 0x00000000#32) = _
  rw [Ideal.ofBits_zero_f32]

end Cert.KernelIdeal.RegionValue

end
-- ==== Proof.KIValueRows.lean ====
/-
  A node layer on a block of rows is the block of rows of the layer: row `p` of the block's result depends only on row
  `p` of the two row-wise operands.
-/
import proofs.«181890_j55551107006974_1_alg».proof.Proof.KIValuePay
import proofs.«181890_j55551107006974_1_alg».proof.Proof.KIValueSpec

noncomputable section

open scoped BigOperators

namespace Cert.KernelIdeal.RegionValue

open Idealize.ShloMosaic Idealize.ShloMosaic.ValueIdx Cert.KernelIdeal Cert.KernelIdeal.Gen

/-- Region 0: if the two row blocks are rows `ρ p` of the whole operands, the block's result at `(p, q)` is the layer
    at `(ρ p, q)`. -/
theorem pay0_rows {φa φx φl φr : FTy} (x0 x1 : Vec Ideal S10000x16 .bf16) (x2 x3 : Vec Ideal S16x64 .bf16) (x4 : Vec Ideal S64 .f32)
    (a : FVec Ideal S50000x16 φa) (x : FVec Ideal S50000x16 φx) (wl : FVec Ideal S16x64 φl) (wr : FVec Ideal S16x64 φr)
    (b : FVec Ideal S64 .f32) (ρ : Fin 10000 → Fin 50000)
    (h0 : ∀ p k, x0 (ix2 p k) = a (ix2 (ρ p) k)) (h1 : ∀ p k, x1 (ix2 p k) = x (ix2 (ρ p) k))
    (h2 : ∀ i, x2 i = wl i) (h3 : ∀ i, x3 i = wr i) (h4 : ∀ i, x4 i = b i) (p : Fin 10000) (q : Fin 64) :
    k0_pay1 (F := Ideal) x0 x1 x2 x3 x4 (ix2 p q) = Spec.sage16 a x wl wr b (ix2 (ρ p) q) := by
  rw [pay0_apply, sage16_apply]
  simp only [h0, h1, h2, h3, h4]

/-- Region 1: if the two row blocks are rows `ρ p` of the whole operands, the block's result at `(p, q)` is the layer
    at `(ρ p, q)`. -/
theorem pay1_rows {φa φx φl φr : FTy} (x0 x1 : Vec Ideal S10000x64 .bf16) (x2 x3 : Vec Ideal S64x64 .bf16) (x4 : Vec Ideal S64 .f32)
    (a : FVec Ideal S50000x64 φa) (x : FVec Ideal S50000x64 φx) (wl : FVec Ideal S64x64 φl) (wr : FVec Ideal S64x64 φr)
    (b : FVec Ideal S64 .f32) (ρ : Fin 10000 → Fin 50000)
    (h0 : ∀ p k, x0 (ix2 p k) = a (ix2 (ρ p) k)) (h1 : ∀ p k, x1 (ix2 p k) = x (ix2 (ρ p) k))
    (h2 : ∀ i, x2 i = wl i) (h3 : ∀ i, x3 i = wr i) (h4 : ∀ i, x4 i = b i) (p : Fin 10000) (q : Fin 64) :
    k1_pay1 (F := Ideal) x0 x1 x2 x3 x4 (ix2 p q) = Spec.sage64 a x wl wr b (ix2 (ρ p) q) := by
  rw [pay1_apply, sage64_apply]
  simp only [h0, h1, h2, h3, h4]

/-- Region 2: if the two row blocks are rows `ρ p` of the whole operands, the block's result at `(p, q)` is the layer
    at `(ρ p, q)`. -/
theorem pay2_rows {φa φx φl φr : FTy} (x0 x1 : Vec Ideal S10000x64 .bf16) (x2 x3 : Vec Ideal S64x64 .bf16) (x4 : Vec Ideal S64 .f32)
    (a : FVec Ideal S50000x64 φa) (x : FVec Ideal S50000x64 φx) (wl : FVec Ideal S64x64 φl) (wr : FVec Ideal S64x64 φr)
    (b : FVec Ideal S64 .f32) (ρ : Fin 10000 → Fin 50000)
    (h0 : ∀ p k, x0 (ix2 p k) = a (ix2 (ρ p) k)) (h1 : ∀ p k, x1 (ix2 p k) = x (ix2 (ρ p) k))
    (h2 : ∀ i, x2 i = wl i) (h3 : ∀ i, x3 i = wr i) (h4 : ∀ i, x4 i = b i) (p : Fin 10000) (q : Fin 64) :
    k2_pay1 (F := Ideal) x0 x1 x2 x3 x4 (ix2 p q) = Spec.sage64 a x wl wr b (ix2 (ρ p) q) := by
  rw [pay2_apply, sage64_apply]
  simp only [h0, h1, h2, h3, h4]

/-- The same at any index of the block. -/
theorem pay0_rows_at {φa φx φl φr : FTy} (x0 x1 : Vec Ideal S10000x16 .bf16) (x2 x3 : Vec Ideal S16x64 .bf16) (x4 : Vec Ideal S64 .f32)
    (a : FVec Ideal S50000x16 φa) (x : FVec Ideal S50000x16 φx) (wl : FVec Ideal S16x64 φl) (wr : FVec Ideal S16x64 φr)
    (b : FVec Ideal S64 .f32) (ρ : Fin 10000 → Fin 50000)
    (h0 : ∀ p k, x0 (ix2 p k) = a (ix2 (ρ p) k)) (h1 : ∀ p k, x1 (ix2 p k) = x (ix2 (ρ p) k))
    (h2 : ∀ i, x2 i = wl i) (h3 : ∀ i, x3 i = wr i) (h4 : ∀ i, x4 i = b i) (j : S10000x64.Idx) :
    k0_pay1 (F := Ideal) x0 x1 x2 x3 x4 j = Spec.sage16 a x wl wr b (ix2 (ρ (j 0)) (j 1)) := by
  obtain ⟨p, q, rfl⟩ : ∃ (p : Fin 10000) (q : Fin 64), j = ix2 p q := ⟨j 0, j 1, eq_ix2 j⟩
  exact pay0_rows x0 x1 x2 x3 x4 a x wl wr b ρ h0 h1 h2 h3 h4 p q

/-- The same at any index of the block. -/
theorem pay1_rows_at {φa φx φl φr : FTy} (x0 x1 : Vec Ideal S10000x64 .bf16) (x2 x3 : Vec Ideal S64x64 .bf16) (x4 : Vec Ideal S64 .f32)
    (a : FVec Ideal S50000x64 φa) (x : FVec Ideal S50000x64 φx) (wl : FVec Ideal S64x64 φl) (wr : FVec Ideal S64x64 φr)
    (b : FVec Ideal S64 .f32) (ρ : Fin 10000 → Fin 50000)
    (h0 : ∀ p k, x0 (ix2 p k) = a (ix2 (ρ p) k)) (h1 : ∀ p k, x1 (ix2 p k) = x (ix2 (ρ p) k))
    (h2 : ∀ i, x2 i = wl i) (h3 : ∀ i, x3 i = wr i) (h4 : ∀ i, x4 i = b i) (j : S10000x64.Idx) :
    k1_pay1 (F := Ideal) x0 x1 x2 x3 x4 j = Spec.sage64 a x wl wr b (ix2 (ρ (j 0)) (j 1)) := by
  obtain ⟨p, q, rfl⟩ : ∃ (p : Fin 10000) (q : Fin 64), j = ix2 p q := ⟨j 0, j 1, eq_ix2 j⟩
  exact pay1_rows x0 x1 x2 x3 x4 a x wl wr b ρ h0 h1 h2 h3 h4 p q

/-- The same at any index of the block. -/
theorem pay2_rows_at {φa φx φl φr : FTy} (x0 x1 : Vec Ideal S10000x64 .bf16) (x2 x3 : Vec Ideal S64x64 .bf16) (x4 : Vec Ideal S64 .f32)
    (a : FVec Ideal S50000x64 φa) (x : FVec Ideal S50000x64 φx) (wl : FVec Ideal S64x64 φl) (wr : FVec Ideal S64x64 φr)
    (b : FVec Ideal S64 .f32) (ρ : Fin 10000 → Fin 50000)
    (h0 : ∀ p k, x0 (ix2 p k) = a (ix2 (ρ p) k)) (h1 : ∀ p k, x1 (ix2 p k) = x (ix2 (ρ p) k))
    (h2 : ∀ i, x2 i = wl i) (h3 : ∀ i, x3 i = wr i) (h4 : ∀ i, x4 i = b i) (j : S10000x64.Idx) :
    k2_pay1 (F := Ideal) x0 x1 x2 x3 x4 j = Spec.sage64 a x wl wr b (ix2 (ρ (j 0)) (j 1)) := by
  obtain ⟨p, q, rfl⟩ : ∃ (p : Fin 10000) (q : Fin 64), j = ix2 p q := ⟨j 0, j 1, eq_ix2 j⟩
  exact pay2_rows x0 x1 x2 x3 x4 a x wl wr b ρ h0 h1 h2 h3 h4 p q

end Cert.KernelIdeal.RegionValue

end
-- ==== Proof.KIValue0.lean ====
/-
  What region 0 leaves in its result array: the first node layer of the arrays it finds.

  Grid point `t` writes back rows `10000·t … 10000·t + 9999`; its block of the two row-wise operands is the same rows of
  their arrays and its block of each weight matrix and of the bias is the whole array, so what it writes back is that
  block of rows of the layer. The five blocks cover the 50000 rows.
-/
import proofs.«181890_j55551107006974_1_alg».proof.Proof.KIRegion0
import proofs.«181890_j55551107006974_1_alg».proof.Proof.KIValueRows
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_0 : (![0, 0] : Fin 2 → Nat) = fun _ => 0 := funext fun a => by fin_cases a <;> rfl
theorem zero1_0 : (![0] : Fin 1 → Nat) = fun _ => 0 := funext fun a => by fin_cases a; rfl

/-- The block index of each window at each grid point: the row windows move with the point, the others stay. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the layer of the arrays the region finds. -/
theorem flushed0_eq (c : Dev nD) (t : Fin cfg0.N) :
    (Hand.dat0 V c).flushed 5 t = ((cfg0.win 5).blk t).view.read (Elt Ideal)
      (Spec.sage16 (φa := .bf16) (φx := .bf16) (φl := .bf16) (φr := .bf16)
        (V c main_v22) (V c main_v23) (V c main_v24) (V c main_v25) (V c main_arg5)) := by
  show (cfg0.win 5).cut (grid0.coords t) ((Hand.dat0 V c).after 5 t) = _
  rw [Hand.after0_5]
  unfold Hand.out0_5
  rw [View.canon_unit_zero zero2_0]
  simp only [View.ld_unit_zero (S := S10000x16) zero2_0, View.ld_unit_zero (S := S16x64) zero2_0, View.ld_unit_zero (S := S64) zero1_0]
  obtain ⟨e00, e01, e10, e11, e20, e21, e30, e31, e40, e50, e51⟩ := index0 t
  have ht : t.val < 5 := lt_of_lt_of_eq t.isLt N_0
  funext j
  refine (pay0_rows_at (φa := .bf16) (φx := .bf16) (φl := .bf16) (φr := .bf16) _ _ _ _ _
    (V c main_v22) (V c main_v23) (V c main_v24) (V c main_v25) (V c main_arg5)
    (fun p => ⟨t.val * 10000 + p.val, by have := p.isLt; omega⟩) ?_ ?_ ?_ ?_ ?_ j).trans ?_
  · intro p k
    show V c main_v22 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 16 + 1 * k.val = k.val; omega
  · intro p k
    show V c main_v23 (((cfg0.win 1).blk t).view.emb (ix2 p k)) = _
    refine congrArg _ (funext fun a => Fin.ext ?_)
    match a with
    | ⟨0, _⟩ => show win0_1.index t (0 : Fin 2) * 10000 + 1 * p.val = t.val * 10000 + p.val; omega
    | ⟨1, _⟩ => show win0_1.index t (1 : Fin 2) * 16 + 1 * k.val = k.val; omega
  · intro i
    show V c main_v24 (((cfg0.win 2).blk t).view.emb i) = _
    refine congrArg _ (funext fun a => Fin.ext ?_)
    match a with
    | ⟨0, _⟩ => show win0_2.index t (0 : Fin 2) * 16 + 1 * (i 0).val = (i 0).val; omega
    | ⟨1, _⟩ => show win0_2.index t (1 : Fin 2) * 64 + 1 * (i 1).val = (i 1).val; omega
  · intro i
    show V c main_v25 (((cfg0.win 3).blk t).view.emb i) = _
    refine congrArg _ (funext fun a => Fin.ext ?_)
    match a with
    | ⟨0, _⟩ => show win0_3.index t (0 : Fin 2) * 16 + 1 * (i 0).val = (i 0).val; omega
    | ⟨1, _⟩ => show win0_3.index t (1 : Fin 2) * 64 + 1 * (i 1).val = (i 1).val; omega
  · intro i
    show V c main_arg5 (((cfg0.win 4).blk t).view.emb i) = _
    refine congrArg _ (funext fun a => Fin.ext ?_)
    match a with
    | ⟨0, _⟩ => show win0_4.index t (0 : Fin 1) * 64 + 1 * (i 0).val = (i 0).val; omega
  · rw [View.read_apply]
    refine congrArg _ (funext fun a => Fin.ext ?_)
    match a with
    | ⟨0, _⟩ => show t.val * 10000 + (j 0).val = win0_5.index t (0 : Fin 2) * 10000 + 1 * (j 0).val; omega
    | ⟨1, _⟩ => show (j 1).val = win0_5.index t (1 : Fin 2) * 64 + 1 * (j 1).val; omega

/-- An index of the result array is in point `t`'s block iff each coordinate is in the block's range on its axis. -/
theorem mem_blk0 (t : Fin cfg0.N) (i : S50000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v26).slice (win0_5.rect t)).set ↔ _
  rw [View.set_slice_whole, Rect.mem_set_unit]
  exact Iff.rfl

/-- Every row is in the block of the point `row / 10000`. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 10000 :=
    ⟨⟨(i 0).val / 10000, lt_of_lt_of_eq (by omega : (i 0).val / 10000 < 5) N_0.symm⟩, rfl⟩
  obtain ⟨-, -, -, -, -, -, -, -, -, e50, e51⟩ := index0 t
  refine ⟨t, flush0_5 t, ?_⟩
  rw [mem_blk0]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

/-- After the region the result array holds the first node layer of the arrays the region found. -/
theorem arr0 (c : Dev nD) :
    (Hand.dat0 V c).arrAt 5 cfg0.N
      = Spec.sage16 (φa := .bf16) (φx := .bf16) (φl := .bf16) (φr := .bf16)
        (V c main_v22) (V c main_v23) (V c main_v24) (V c main_v25) (V c main_arg5) :=
  (Hand.dat0 V c).arrAt_eq_of_cover 5 _ (fun t _ => flushed0_eq V c t) cover0

end Cert.KernelIdeal.RegionValue

end
-- ==== Proof.KIValue1.lean ====
/-
  What region 1 leaves in its result array: the second node layer of the arrays it finds.

  Grid point `t` writes back rows `10000·t … 10000·t + 9999`; its block of the two row-wise operands is the same rows of
  their arrays and its block of each weight matrix and of the bias is the whole array, so what it writes back is that
  block of rows of the layer. The five blocks cover the 50000 rows.
-/
import proofs.«181890_j55551107006974_1_alg».proof.Proof.KIRegion1
import proofs.«181890_j55551107006974_1_alg».proof.Proof.KIValueRows
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a; rfl

/-- The block index of each window at each grid point: the row windows move with the point, the others stay. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the layer of the arrays the region finds. -/
theorem flushed1_eq (c : Dev nD) (t : Fin cfg1.N) :
    (Hand.dat1 V c).flushed 5 t = ((cfg1.win 5).blk t).view.read (Elt Ideal)
      (Spec.sage64 (φa := .bf16) (φx := .bf16) (φl := .bf16) (φr := .bf16)
        (V c main_v39) (V c main_v40) (V c main_v41) (V c main_v42) (V c main_arg8)) := by
  show (cfg1.win 5).cut (grid1.coords t) ((Hand.dat1 V c).after 5 t) = _
  rw [Hand.after1_5]
  unfold Hand.out1_5
  rw [View.canon_unit_zero zero2_1]
  simp only [View.ld_unit_zero (S := S10000x64) zero2_1, View.ld_unit_zero (S := S64x64) zero2_1, View.ld_unit_zero (S := S64) zero1_1]
  obtain ⟨e00, e01, e10, e11, e20, e21, e30, e31, e40, e50, e51⟩ := index1 t
  have ht : t.val < 5 := lt_of_lt_of_eq t.isLt N_1
  funext j
  refine (pay1_rows_at (φa := .bf16) (φx := .bf16) (φl := .bf16) (φr := .bf16) _ _ _ _ _
    (V c main_v39) (V c main_v40) (V c main_v41) (V c main_v42) (V c main_arg8)
    (fun p => ⟨t.val * 10000 + p.val, by have := p.isLt; omega⟩) ?_ ?_ ?_ ?_ ?_ j).trans ?_
  · intro p k
    show V c main_v39 (((cfg1.win 0).blk t).view.emb (ix2 p k)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · intro p k
    show V c main_v40 (((cfg1.win 1).blk t).view.emb (ix2 p k)) = _
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * k.val = k.val; omega
  · intro i
    show V c main_v41 (((cfg1.win 2).blk t).view.emb i) = _
    refine congrArg _ (funext fun a => Fin.ext ?_)
    match a with
    | ⟨0, _⟩ => show win1_2.index t (0 : Fin 2) * 64 + 1 * (i 0).val = (i 0).val; omega
    | ⟨1, _⟩ => show win1_2.index t (1 : Fin 2) * 64 + 1 * (i 1).val = (i 1).val; omega
  · intro i
    show V c main_v42 (((cfg1.win 3).blk t).view.emb i) = _
    refine congrArg _ (funext fun a => Fin.ext ?_)
    match a with
    | ⟨0, _⟩ => show win1_3.index t (0 : Fin 2) * 64 + 1 * (i 0).val = (i 0).val; omega
    | ⟨1, _⟩ => show win1_3.index t (1 : Fin 2) * 64 + 1 * (i 1).val = (i 1).val; omega
  · intro i
    show V c main_arg8 (((cfg1.win 4).blk t).view.emb i) = _
    refine congrArg _ (funext fun a => Fin.ext ?_)
    match a with
    | ⟨0, _⟩ => show win1_4.index t (0 : Fin 1) * 64 + 1 * (i 0).val = (i 0).val; omega
  · rw [View.read_apply]
    refine congrArg _ (funext fun a => Fin.ext ?_)
    match a with
    | ⟨0, _⟩ => show t.val * 10000 + (j 0).val = win1_5.index t (0 : Fin 2) * 10000 + 1 * (j 0).val; omega
    | ⟨1, _⟩ => show (j 1).val = win1_5.index t (1 : Fin 2) * 64 + 1 * (j 1).val; omega

/-- An index of the result array is in point `t`'s block iff each coordinate is in the block's range on its axis. -/
theorem mem_blk1 (t : Fin cfg1.N) (i : S50000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v43).slice (win1_5.rect t)).set ↔ _
  rw [View.set_slice_whole, Rect.mem_set_unit]
  exact Iff.rfl

/-- Every row is in the block of the point `row / 10000`. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 10000 :=
    ⟨⟨(i 0).val / 10000, lt_of_lt_of_eq (by omega : (i 0).val / 10000 < 5) N_1.symm⟩, rfl⟩
  obtain ⟨-, -, -, -, -, -, -, -, -, e50, e51⟩ := index1 t
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- After the region the result array holds the second node layer of the arrays the region found. -/
theorem arr1 (c : Dev nD) :
    (Hand.dat1 V c).arrAt 5 cfg1.N
      = Spec.sage64 (φa := .bf16) (φx := .bf16) (φl := .bf16) (φr := .bf16)
        (V c main_v39) (V c main_v40) (V c main_v41) (V c main_v42) (V c main_arg8) :=
  (Hand.dat1 V c).arrAt_eq_of_cover 5 _ (fun t _ => flushed1_eq V c t) cover1

end Cert.KernelIdeal.RegionValue

end
-- ==== Proof.KIValue2.lean ====
/-
  What region 2 leaves in its result array: the third node layer of the arrays it finds.

  Grid point `t` writes back rows `10000·t … 10000·t + 9999`; its block of the two row-wise operands is the same rows of
  their arrays and its block of each weight matrix and of the bias is the whole array, so what it writes back is that
  block of rows of the layer. The five blocks cover the 50000 rows.
-/
import proofs.«181890_j55551107006974_1_alg».proof.Proof.KIRegion2
import proofs.«181890_j55551107006974_1_alg».proof.Proof.KIValueRows
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_2 : (![0, 0] : Fin 2 → Nat) = fun _ => 0 := funext fun a => by fin_cases a <;> rfl
theorem zero1_2 : (![0] : Fin 1 → Nat) = fun _ => 0 := funext fun a => by fin_cases a; rfl

/-- The block index of each window at each grid point: the row windows move with the point, the others stay. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- What point `t` writes back is block `t` of the layer of the arrays the region finds. -/
theorem flushed2_eq (c : Dev nD) (t : Fin cfg2.N) :
    (Hand.dat2 V c).flushed 5 t = ((cfg2.win 5).blk t).view.read (Elt Ideal)
      (Spec.sage64 (φa := .bf16) (φx := .bf16) (φl := .bf16) (φr := .bf16)
        (V c main_v56) (V c main_v57) (V c main_v58) (V c main_v59) (V c main_arg11)) := by
  show (cfg2.win 5).cut (grid2.coords t) ((Hand.dat2 V c).after 5 t) = _
  rw [Hand.after2_5]
  unfold Hand.out2_5
  rw [View.canon_unit_zero zero2_2]
  simp only [View.ld_unit_zero (S := S10000x64) zero2_2, View.ld_unit_zero (S := S64x64) zero2_2, View.ld_unit_zero (S := S64) zero1_2]
  obtain ⟨e00, e01, e10, e11, e20, e21, e30, e31, e40, e50, e51⟩ := index2 t
  have ht : t.val < 5 := lt_of_lt_of_eq t.isLt N_2
  funext j
  refine (pay2_rows_at (φa := .bf16) (φx := .bf16) (φl := .bf16) (φr := .bf16) _ _ _ _ _
    (V c main_v56) (V c main_v57) (V c main_v58) (V c main_v59) (V c main_arg11)
    (fun p => ⟨t.val * 10000 + p.val, by have := p.isLt; omega⟩) ?_ ?_ ?_ ?_ ?_ j).trans ?_
  · intro p k
    show V c main_v56 (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · intro p k
    show V c main_v57 (((cfg2.win 1).blk t).view.emb (ix2 p k)) = _
    refine congrArg _ (funext fun a => Fin.ext ?_)
    match a with
    | ⟨0, _⟩ => show win2_1.index t (0 : Fin 2) * 10000 + 1 * p.val = t.val * 10000 + p.val; omega
    | ⟨1, _⟩ => show win2_1.index t (1 : Fin 2) * 64 + 1 * k.val = k.val; omega
  · intro i
    show V c main_v58 (((cfg2.win 2).blk t).view.emb i) = _
    refine congrArg _ (funext fun a => Fin.ext ?_)
    match a with
    | ⟨0, _⟩ => show win2_2.index t (0 : Fin 2) * 64 + 1 * (i 0).val = (i 0).val; omega
    | ⟨1, _⟩ => show win2_2.index t (1 : Fin 2) * 64 + 1 * (i 1).val = (i 1).val; omega
  · intro i
    show V c main_v59 (((cfg2.win 3).blk t).view.emb i) = _
    refine congrArg _ (funext fun a => Fin.ext ?_)
    match a with
    | ⟨0, _⟩ => show win2_3.index t (0 : Fin 2) * 64 + 1 * (i 0).val = (i 0).val; omega
    | ⟨1, _⟩ => show win2_3.index t (1 : Fin 2) * 64 + 1 * (i 1).val = (i 1).val; omega
  · intro i
    show V c main_arg11 (((cfg2.win 4).blk t).view.emb i) = _
    refine congrArg _ (funext fun a => Fin.ext ?_)
    match a with
    | ⟨0, _⟩ => show win2_4.index t (0 : Fin 1) * 64 + 1 * (i 0).val = (i 0).val; omega
  · rw [View.read_apply]
    refine congrArg _ (funext fun a => Fin.ext ?_)
    match a with
    | ⟨0, _⟩ => show t.val * 10000 + (j 0).val = win2_5.index t (0 : Fin 2) * 10000 + 1 * (j 0).val; omega
    | ⟨1, _⟩ => show (j 1).val = win2_5.index t (1 : Fin 2) * 64 + 1 * (j 1).val; omega

/-- An index of the result array is in point `t`'s block iff each coordinate is in the block's range on its axis. -/
theorem mem_blk2 (t : Fin cfg2.N) (i : S50000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v60).slice (win2_5.rect t)).set ↔ _
  rw [View.set_slice_whole, Rect.mem_set_unit]
  exact Iff.rfl

/-- Every row is in the block of the point `row / 10000`. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ : ∃ t : Fin cfg2.N, t.val = (i 0).val / 10000 :=
    ⟨⟨(i 0).val / 10000, lt_of_lt_of_eq (by omega : (i 0).val / 10000 < 5) N_2.symm⟩, rfl⟩
  obtain ⟨-, -, -, -, -, -, -, -, -, e50, e51⟩ := index2 t
  refine ⟨t, flush2_5 t, ?_⟩
  rw [mem_blk2]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 64 ≤ (i 1).val ∧ (i 1).val < win2_5.index t (1 : Fin 2) * 64 + 64
    omega

/-- After the region the result array holds the third node layer of the arrays the region found. -/
theorem arr2 (c : Dev nD) :
    (Hand.dat2 V c).arrAt 5 cfg2.N
      = Spec.sage64 (φa := .bf16) (φx := .bf16) (φl := .bf16) (φr := .bf16)
        (V c main_v56) (V c main_v57) (V c main_v58) (V c main_v59) (V c main_arg11) :=
  (Hand.dat2 V c).arrAt_eq_of_cover 5 _ (fun t _ => flushed2_eq V c t) cover2

end Cert.KernelIdeal.RegionValue

end
-- ==== Proof.KIValueRows3.lean ====
/-
  The edge network on a block of rows is the block of rows of the edge network: each of its three layers acts row by
  row, and the narrowing of the intermediate results to a shorter format between the layers is the identity on the
  extended reals.
-/
import proofs.«181890_j55551107006974_1_alg».proof.Proof.Gen.KernelIdeal.Skeleton
import proofs.«181890_j55551107006974_1_alg».proof.Proof.LayerSpec
import proofs.«181890_j55551107006974_1_alg».proof.Proof.KIValueDot

noncomputable section

open scoped BigOperators

namespace Cert.KernelIdeal.RegionValue

open Idealize.ShloMosaic Idealize.ShloMosaic.ValueIdx Cert.KernelIdeal Cert.KernelIdeal.Gen

/-- Region 3: if the block of edge features is rows `ρ p` of the whole array, the block's result at `(p, q)` is the
    edge network at `(ρ p, q)`. -/
theorem pay3_rows {φe φ1 φ2 φ3 : FTy} (x0 : Vec Ideal S4000x136 .bf16) (x1 : Vec Ideal S136x64 .bf16) (x2 : Vec Ideal S64 .f32)
    (x3 : Vec Ideal S64x32 .bf16) (x4 : Vec Ideal S32 .f32) (x5 : Vec Ideal S32x1 .bf16) (x6 : Vec Ideal S1 .f32)
    (e : FVec Ideal S800000x136 φe) (w1 : FVec Ideal S136x64 φ1) (b1 : FVec Ideal S64 .f32)
    (w2 : FVec Ideal S64x32 φ2) (b2 : FVec Ideal S32 .f32) (w3 : FVec Ideal S32x1 φ3) (b3 : FVec Ideal S1 .f32)
    (ρ : Fin 4000 → Fin 800000)
    (h0 : ∀ p k, x0 (ix2 p k) = e (ix2 (ρ p) k)) (h1 : ∀ i, x1 i = w1 i) (h2 : ∀ i, x2 i = b1 i)
    (h3 : ∀ i, x3 i = w2 i) (h4 : ∀ i, x4 i = b2 i) (h5 : ∀ i, x5 i = w3 i) (h6 : ∀ i, x6 i = b3 i)
    (p : Fin 4000) (q : Fin 1) :
    k3_pay1 (F := Ideal) x0 x1 x2 x3 x4 x5 x6 (ix2 p q) = Spec.edgeMlp e w1 b1 w2 b2 w3 b3 (ix2 (ρ p) q) := by
  unfold k3_pay1 Spec.edgeMlp
  simp only [shapeCast_self]
  refine dense_rows (M := 4000) (M' := 800000) (K := 32) (N := 1) dot_S4000x32_S32x1_S4000x1_1_0_0_1_n_n rfl
    Cert.ReferenceIdeal.dot_S800000x32_S32x1_S800000x1_1_0_0_1_n_n rfl none none _ _ _ _ _ _ _ _ _ _ ρ (fun p k => ?_) h5 h6 p q
  rw [truncf_apply]
  refine relu_rows (M := 4000) (M' := 800000) (N := 32) _ _ _ p (ρ p) k ?_
  refine dense_rows (M := 4000) (M' := 800000) (K := 64) (N := 32) dot_S4000x64_S64x32_S4000x32_1_0_0_1_n_n rfl
    Cert.ReferenceIdeal.dot_S800000x64_S64x32_S800000x32_1_0_0_1_n_n rfl none none _ _ _ _ _ _ _ _ _ _ ρ (fun p k => ?_) h3 h4 p k
  rw [truncf_apply]
  refine relu_rows (M := 4000) (M' := 800000) (N := 64) _ _ _ p (ρ p) k ?_
  exact dense_rows (M := 4000) (M' := 800000) (K := 136) (N := 64) dot_S4000x136_S136x64_S4000x64_1_0_0_1_n_n rfl
    Cert.ReferenceIdeal.dot_S800000x136_S136x64_S800000x64_1_0_0_1_n_n rfl none none _ _ _ _ _ _ _ _ _ _ ρ h0 h1 h2 p k

/-- The same at any index of the block. -/
theorem pay3_rows_at {φe φ1 φ2 φ3 : FTy} (x0 : Vec Ideal S4000x136 .bf16) (x1 : Vec Ideal S136x64 .bf16) (x2 : Vec Ideal S64 .f32)
    (x3 : Vec Ideal S64x32 .bf16) (x4 : Vec Ideal S32 .f32) (x5 : Vec Ideal S32x1 .bf16) (x6 : Vec Ideal S1 .f32)
    (e : FVec Ideal S800000x136 φe) (w1 : FVec Ideal S136x64 φ1) (b1 : FVec Ideal S64 .f32)
    (w2 : FVec Ideal S64x32 φ2) (b2 : FVec Ideal S32 .f32) (w3 : FVec Ideal S32x1 φ3) (b3 : FVec Ideal S1 .f32)
    (ρ : Fin 4000 → Fin 800000)
    (h0 : ∀ p k, x0 (ix2 p k) = e (ix2 (ρ p) k)) (h1 : ∀ i, x1 i = w1 i) (h2 : ∀ i, x2 i = b1 i)
    (h3 : ∀ i, x3 i = w2 i) (h4 : ∀ i, x4 i = b2 i) (h5 : ∀ i, x5 i = w3 i) (h6 : ∀ i, x6 i = b3 i)
    (j : S4000x1.Idx) :
    k3_pay1 (F := Ideal) x0 x1 x2 x3 x4 x5 x6 j = Spec.edgeMlp e w1 b1 w2 b2 w3 b3 (ix2 (ρ (j 0)) (j 1)) := by
  obtain ⟨p, q, rfl⟩ : ∃ (p : Fin 4000) (q : Fin 1), j = ix2 p q := ⟨j 0, j 1, eq_ix2 j⟩
  exact pay3_rows x0 x1 x2 x3 x4 x5 x6 e w1 b1 w2 b2 w3 b3 ρ h0 h1 h2 h3 h4 h5 h6 p q

end Cert.KernelIdeal.RegionValue

end
-- ==== Proof.KIValue3.lean ====
/-
  What region 3 leaves in its result array: the edge network of the arrays it finds.

  Grid point `t` writes back rows `4000·t … 4000·t + 3999`; its block of the edge features is the same rows of their
  array and its block of each weight matrix and bias is the whole array, so what it writes back is that block of rows
  of the edge network. The 200 blocks cover the 800000 rows.
-/
import proofs.«181890_j55551107006974_1_alg».proof.Proof.KIRegion3
import proofs.«181890_j55551107006974_1_alg».proof.Proof.KIValueRows3
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_3 : (![0, 0] : Fin 2 → Nat) = fun _ => 0 := funext fun a => by fin_cases a <;> rfl
theorem zero1_3 : (![0] : Fin 1 → Nat) = fun _ => 0 := funext fun a => by fin_cases a; rfl

/-- The block index of each window at each grid point: the row windows move with the point, the others stay. -/
theorem index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

set_option maxHeartbeats 800000 in
/-- What point `t` writes back is block `t` of the edge network of the arrays the region finds. -/
theorem flushed3_eq (c : Dev nD) (t : Fin cfg3.N) :
    (Hand.dat3 V c).flushed 7 t = ((cfg3.win 7).blk t).view.read (Elt Ideal)
      (Spec.edgeMlp (φe := .bf16) (φ1 := .bf16) (φ2 := .bf16) (φ3 := .bf16)
        (V c main_v76) (V c main_v77) (V c main_arg13) (V c main_v78) (V c main_arg15) (V c main_v79) (V c main_arg17)) := by
  show (cfg3.win 7).cut (grid3.coords t) ((Hand.dat3 V c).after 7 t) = _
  rw [Hand.after3_7]
  unfold Hand.out3_7
  rw [View.canon_unit_zero zero2_3]
  simp only [View.ld_unit_zero (S := S4000x136) zero2_3, View.ld_unit_zero (S := S136x64) zero2_3,
    View.ld_unit_zero (S := S64x32) zero2_3, View.ld_unit_zero (S := S32x1) zero2_3,
    View.ld_unit_zero (S := S64) zero1_3, View.ld_unit_zero (S := S32) zero1_3, View.ld_unit_zero (S := S1) zero1_3]
  obtain ⟨e00, e01, e10, e11, e20, e30, e31, e40, e50, e51, e60, e70, e71⟩ := index3 t
  have ht : t.val < 200 := lt_of_lt_of_eq t.isLt N_3
  funext j
  refine (pay3_rows_at (φe := .bf16) (φ1 := .bf16) (φ2 := .bf16) (φ3 := .bf16) _ _ _ _ _ _ _
    (V c main_v76) (V c main_v77) (V c main_arg13) (V c main_v78) (V c main_arg15) (V c main_v79) (V c main_arg17)
    (fun p => ⟨t.val * 4000 + p.val, by have := p.isLt; omega⟩) ?_ ?_ ?_ ?_ ?_ ?_ ?_ j).trans ?_
  · intro p k
    show V c main_v76 (((cfg3.win 0).blk t).view.emb (ix2 p k)) = _
    refine congrArg _ (funext fun a => Fin.ext ?_)
    match a with
    | ⟨0, _⟩ => show win3_0.index t (0 : Fin 2) * 4000 + 1 * p.val = t.val * 4000 + p.val; omega
    | ⟨1, _⟩ => show win3_0.index t (1 : Fin 2) * 136 + 1 * k.val = k.val; omega
  · intro i
    show V c main_v77 (((cfg3.win 1).blk t).view.emb i) = _
    refine congrArg _ (funext fun a => Fin.ext ?_)
    match a with
    | ⟨0, _⟩ => show win3_1.index t (0 : Fin 2) * 136 + 1 * (i 0).val = (i 0).val; omega
    | ⟨1, _⟩ => show win3_1.index t (1 : Fin 2) * 64 + 1 * (i 1).val = (i 1).val; omega
  · intro i
    show V c main_arg13 (((cfg3.win 2).blk t).view.emb i) = _
    refine congrArg _ (funext fun a => Fin.ext ?_)
    match a with
    | ⟨0, _⟩ => show win3_2.index t (0 : Fin 1) * 64 + 1 * (i 0).val = (i 0).val; omega
  · intro i
    show V c main_v78 (((cfg3.win 3).blk t).view.emb i) = _
    refine congrArg _ (funext fun a => Fin.ext ?_)
    match a with
    | ⟨0, _⟩ => show win3_3.index t (0 : Fin 2) * 64 + 1 * (i 0).val = (i 0).val; omega
    | ⟨1, _⟩ => show win3_3.index t (1 : Fin 2) * 32 + 1 * (i 1).val = (i 1).val; omega
  · intro i
    show V c main_arg15 (((cfg3.win 4).blk t).view.emb i) = _
    refine congrArg _ (funext fun a => Fin.ext ?_)
    match a with
    | ⟨0, _⟩ => show win3_4.index t (0 : Fin 1) * 32 + 1 * (i 0).val = (i 0).val; omega
  · intro i
    show V c main_v79 (((cfg3.win 5).blk t).view.emb i) = _
    refine congrArg _ (funext fun a => Fin.ext ?_)
    match a with
    | ⟨0, _⟩ => show win3_5.index t (0 : Fin 2) * 32 + 1 * (i 0).val = (i 0).val; omega
    | ⟨1, _⟩ => show win3_5.index t (1 : Fin 2) * 1 + 1 * (i 1).val = (i 1).val; omega
  · intro i
    show V c main_arg17 (((cfg3.win 6).blk t).view.emb i) = _
    refine congrArg _ (funext fun a => Fin.ext ?_)
    match a with
    | ⟨0, _⟩ => show win3_6.index t (0 : Fin 1) * 1 + 1 * (i 0).val = (i 0).val; omega
  · rw [View.read_apply]
    refine congrArg _ (funext fun a => Fin.ext ?_)
    match a with
    | ⟨0, _⟩ => show t.val * 4000 + (j 0).val = win3_7.index t (0 : Fin 2) * 4000 + 1 * (j 0).val; omega
    | ⟨1, _⟩ => show (j 1).val = win3_7.index t (1 : Fin 2) * 1 + 1 * (j 1).val; omega

/-- An index of the result array is in point `t`'s block iff each coordinate is in the block's range on its axis. -/
theorem mem_blk3 (t : Fin cfg3.N) (i : S800000x1.Idx) :
    i ∈ ((cfg3.win 7).blk t).view.set ↔ ∀ a : Fin 2, win3_7.index t a * S4000x1.size a ≤ (i a).val
      ∧ (i a).val < win3_7.index t a * S4000x1.size a + S4000x1.size a := by
  show i ∈ ((View.whole main_v80).slice (win3_7.rect t)).set ↔ _
  rw [View.set_slice_whole, Rect.mem_set_unit]
  exact Iff.rfl

/-- Every row is in the block of the point `row / 4000`. -/
theorem cover3 (i : S800000x1.Idx) :
    ∃ t : Fin cfg3.N, (cfg3.win 7).flush t = true ∧ i ∈ ((cfg3.win 7).blk t).view.set := by
  have hi0 : (i 0).val < 800000 := (i 0).isLt
  have hi1 : (i 1).val < 1 := (i 1).isLt
  obtain ⟨t, ht⟩ : ∃ t : Fin cfg3.N, t.val = (i 0).val / 4000 :=
    ⟨⟨(i 0).val / 4000, lt_of_lt_of_eq (by omega : (i 0).val / 4000 < 200) N_3.symm⟩, rfl⟩
  obtain ⟨-, -, -, -, -, -, -, -, -, -, -, e70, e71⟩ := index3 t
  refine ⟨t, flush3_7 t, ?_⟩
  rw [mem_blk3]
  intro a
  match a with
  | ⟨0, _⟩ =>
    show win3_7.index t (0 : Fin 2) * 4000 ≤ (i 0).val ∧ (i 0).val < win3_7.index t (0 : Fin 2) * 4000 + 4000
    omega
  | ⟨1, _⟩ =>
    show win3_7.index t (1 : Fin 2) * 1 ≤ (i 1).val ∧ (i 1).val < win3_7.index t (1 : Fin 2) * 1 + 1
    omega

/-- After the region the result array holds the edge network of the arrays the region found. -/
theorem arr3 (c : Dev nD) :
    (Hand.dat3 V c).arrAt 7 cfg3.N
      = Spec.edgeMlp (φe := .bf16) (φ1 := .bf16) (φ2 := .bf16) (φ3 := .bf16)
        (V c main_v76) (V c main_v77) (V c main_arg13) (V c main_v78) (V c main_arg15) (V c main_v79) (V c main_arg17) :=
  (Hand.dat3 V c).arrAt_eq_of_cover 7 _ (fun t _ => flushed3_eq V c t) cover3

end Cert.KernelIdeal.RegionValue

end
-- ==== Proof.KIBridgeHost.lean ====
/-
  The host side of the network as whole-array functions on the extended reals.

  The edge list `e` is a 2 × E array of node numbers: row 0 the sources, row 1 the targets. A node layer first
  forms, for every node, the mean of its in-neighbours' features: the features of the sources are gathered along
  the edges, summed into the targets, and divided by the number of incoming edges (at least one). The edge
  network reads, for every edge, the features of its two end points next to the edge's own attributes. Composed
  with the node layers and the edge network of the layer specification this is the whole network `net`, a
  function of the eighteen argument arrays; both programs are shown to compute it.
-/
import proofs.«181890_j55551107006974_1_alg».proof.Proof.LayerSpec

noncomputable section

namespace Cert.KernelIdeal.Bridge

open Idealize.ShloMosaic Cert.ReferenceIdeal

/-- The sources of the edges: row 0 of the edge list as a vector of E node numbers. -/
def srcRow (e : IVec S2x800000 32) : IVec S800000 32 :=
  shapeCast _ (extractStridedSlice S1x800000 ![0, 0] e Facts₀.slices_S2x800000_S1x800000_0_0) Facts₀.shapeCasts_S1x800000_S800000

/-- The targets of the edges: row 1 of the edge list. -/
def dstRow (e : IVec S2x800000 32) : IVec S800000 32 :=
  shapeCast _ (extractStridedSlice S1x800000 ![1, 0] e Facts₀.slices_S2x800000_S1x800000_1_0) Facts₀.shapeCasts_S1x800000_S800000

/-- Node numbers as an E × 1 column of row indices. -/
def col (v : IVec S800000 32) : IVec S800000x1 32 :=
  broadcastInDim S800000x1 ![0] Facts₀.bcast_S800000_S800000x1_0 v

/-- Node numbers as a column of row indices for a gather: a negative number counts from the end (N is added). -/
def wrapCol (v : IVec S800000 32) : IVec S800000x1 32 :=
  col (select (cmpi .slt v (broadcastInDim S800000 ![] Facts₀.bcast_S_S800000 (constantI S_ 32 0#32)))
    (addi v (broadcastInDim S800000 ![] Facts₀.bcast_S_S800000 (constantI S_ 32 50000#32))) v)

/-- The number of incoming edges of every node, at least one: ones summed into the targets, then `max (·, 1)`. -/
def cnt (e : IVec S2x800000 32) : FVec Ideal S50000x1 .f32 :=
  maximumf
    (Host.scatterAdd scatter_S50000x1_S800000x1_S800000x1_1_0_0_1
      (broadcastInDim S50000x1 ![] Facts₀.bcast_S_S50000x1 (constant (F := Ideal) S_ .f32 0x00000000#32))
      (col (dstRow e))
      (broadcastInDim S800000x1 ![] Facts₀.bcast_S_S800000x1 (constant (F := Ideal) S_ .f32 0x3F800000#32)))
    (broadcastInDim S50000x1 ![] Facts₀.bcast_S_S50000x1 (constant (F := Ideal) S_ .f32 0x3F800000#32))

/-- The mean of the in-neighbours' features, 16 features a node: the sources' rows summed into the targets,
    divided by the number of incoming edges. -/
def mean16 (e : IVec S2x800000 32) (x : FVec Ideal S50000x16 .f32) : FVec Ideal S50000x16 .f32 :=
  Host.divf
    (Host.scatterAdd scatter_S50000x16_S800000x1_S800000x16_1_0_0_1
      (broadcastInDim S50000x16 ![] Facts₀.bcast_S_S50000x16 (constant (F := Ideal) S_ .f32 0x00000000#32))
      (col (dstRow e))
      (Host.gather gather_S50000x16_S800000x1_S800000x16_1_0_n_n_0_1_116 x (wrapCol (srcRow e))))
    (broadcastInDim S50000x16 ![0, 1] Facts₀.bcast_S50000x1_S50000x16_0_1 (cnt e))

/-- The mean of the in-neighbours' features, 64 features a node. -/
def mean64 (e : IVec S2x800000 32) (h : FVec Ideal S50000x64 .f32) : FVec Ideal S50000x64 .f32 :=
  Host.divf
    (Host.scatterAdd scatter_S50000x64_S800000x1_S800000x64_1_0_0_1
      (broadcastInDim S50000x64 ![] Facts₀.bcast_S_S50000x64 (constant (F := Ideal) S_ .f32 0x00000000#32))
      (col (dstRow e))
      (Host.gather gather_S50000x64_S800000x1_S800000x64_1_0_n_n_0_1_164 h (wrapCol (srcRow e))))
    (broadcastInDim S50000x64 ![0, 1] Facts₀.bcast_S50000x1_S50000x64_0_1 (cnt e))

/-- The edge network's input: for every edge the 64 features of its source, the 64 of its target and its own 8
    attributes, side by side. -/
def feat (e : IVec S2x800000 32) (h : FVec Ideal S50000x64 .f32) (ea : FVec Ideal S800000x8 .f32) :
    FVec Ideal S800000x136 .f32 :=
  concatenate S800000x136 1
    [⟨S800000x64, Host.gather gather_S50000x64_S800000x1_S800000x64_1_0_n_n_0_1_164 h (wrapCol (srcRow e))⟩,
     ⟨S800000x64, Host.gather gather_S50000x64_S800000x1_S800000x64_1_0_n_n_0_1_164 h (wrapCol (dstRow e))⟩,
     ⟨S800000x8, ea⟩]
    Facts₀.concatenates_S800000x64_S800000x64_S800000x8_S800000x136_d1

/-- The first node layer: `max (mean x · W₁l + x · W₁r + b₁, 0)`. -/
def layer1 (e : IVec S2x800000 32) (x : FVec Ideal S50000x16 .f32) (wl wr : FVec Ideal S16x64 .f32) (b : FVec Ideal S64 .f32) :
    FVec Ideal S50000x64 .f32 :=
  Cert.KernelIdeal.Spec.sage16 (mean16 e x) x wl wr b

/-- A later node layer: `max (mean h · Wl + h · Wr + b, 0)`. -/
def layer64 (e : IVec S2x800000 32) (h : FVec Ideal S50000x64 .f32) (wl wr : FVec Ideal S64x64 .f32) (b : FVec Ideal S64 .f32) :
    FVec Ideal S50000x64 .f32 :=
  Cert.KernelIdeal.Spec.sage64 (mean64 e h) h wl wr b

/-- The whole network: three node layers, then the edge network on the end points' features, as a vector of E logits. -/
def net (x : FVec Ideal S50000x16 .f32) (e : IVec S2x800000 32) (ea : FVec Ideal S800000x8 .f32)
    (w1l w1r : FVec Ideal S16x64 .f32) (b1 : FVec Ideal S64 .f32)
    (w2l w2r : FVec Ideal S64x64 .f32) (b2 : FVec Ideal S64 .f32)
    (w3l w3r : FVec Ideal S64x64 .f32) (b3 : FVec Ideal S64 .f32)
    (wm1 : FVec Ideal S136x64 .f32) (bm1 : FVec Ideal S64 .f32)
    (wm2 : FVec Ideal S64x32 .f32) (bm2 : FVec Ideal S32 .f32)
    (wm3 : FVec Ideal S32x1 .f32) (bm3 : FVec Ideal S1 .f32) : FVec Ideal S800000 .f32 :=
  shapeCast _
    (Cert.KernelIdeal.Spec.edgeMlp
      (feat e (layer64 e (layer64 e (layer1 e x w1l w1r b1) w2l w2r b2) w3l w3r b3) ea)
      wm1 bm1 wm2 bm2 wm3 bm3)
    Facts₀.shapeCasts_S800000x1_S800000

end Cert.KernelIdeal.Bridge

end
-- ==== Proof.KIBridgeRead0.lean ====
/-
  What the host leaves in the buffers before the first node layer's region, as functions of the launch contents:
  the two rows of the edge list, the in-degree column, the neighbour mean of the input features, and the
  narrowed copies of the features and of the first layer's weights.
-/
import proofs.«181890_j55551107006974_1_alg».proof.Proof.Gen.KernelIdeal.Regions
import proofs.«181890_j55551107006974_1_alg».proof.Proof.KIBridgeHost
import Idealize.ShloMosaic.Lib.StableHlo.Run

set_option maxRecDepth 1124

noncomputable section

namespace Cert.KernelIdeal.Bridge

open Idealize.ShloMosaic Idealize.ShloMosaic.TcCoe Cert.KernelIdeal Cert.KernelIdeal.Gen Idealize.ShloMosaic.StableHlo

variable (m : (ℓ : Loc nD τ sig) → Buf (Elt Ideal) ℓ) (c : Dev nD)

/-- The sources' row of the edge list. -/
theorem V1_src : V1 m c main_v1 = srcRow (m ((c : Thread nD τ).loc main_arg1)) := by
  show StableHlo.after hostOps0 (V0 m c) (Proc.devRef .tc main_v1) = _
  after_results_simp <;> rfl

/-- The targets' row of the edge list. -/
theorem V1_dst : V1 m c main_v3 = dstRow (m ((c : Thread nD τ).loc main_arg1)) := by
  show StableHlo.after hostOps0 (V0 m c) (Proc.devRef .tc main_v3) = _
  after_results_simp <;> rfl

/-- The in-degree column (at least one). -/
theorem V1_cnt : V1 m c main_v9 = cnt (m ((c : Thread nD τ).loc main_arg1)) := by
  show StableHlo.after hostOps0 (V0 m c) (Proc.devRef .tc main_v9) = _
  after_results_simp <;> rfl

/-- The first region's first operand: the neighbour mean of the input features, narrowed. -/
theorem V1_mean : V1 m c main_v22 = truncf .bf16 (mean16 (m ((c : Thread nD τ).loc main_arg1)) (m ((c : Thread nD τ).loc main_arg0))) bitsLt_bf16_f32 := by
  show StableHlo.after hostOps0 (V0 m c) (Proc.devRef .tc main_v22) = _
  after_results_simp <;> rfl

/-- Its second operand: the input features, narrowed. -/
theorem V1_x : V1 m c main_v23 = (truncf .bf16 ((m ((c : Thread nD τ).loc main_arg0)) : FVec Ideal S50000x16 .f32) bitsLt_bf16_f32 : FVec Ideal S50000x16 .bf16) := by
  show StableHlo.after hostOps0 (V0 m c) (Proc.devRef .tc main_v23) = _
  after_results_simp <;> rfl

/-- The first layer's left weights, narrowed. -/
theorem V1_wl : V1 m c main_v24 = (truncf .bf16 ((m ((c : Thread nD τ).loc main_arg3)) : FVec Ideal S16x64 .f32) bitsLt_bf16_f32 : FVec Ideal S16x64 .bf16) := by
  show StableHlo.after hostOps0 (V0 m c) (Proc.devRef .tc main_v24) = _
  after_results_simp <;> rfl

/-- The first layer's right weights, narrowed. -/
theorem V1_wr : V1 m c main_v25 = (truncf .bf16 ((m ((c : Thread nD τ).loc main_arg4)) : FVec Ideal S16x64 .f32) bitsLt_bf16_f32 : FVec Ideal S16x64 .bf16) := by
  show StableHlo.after hostOps0 (V0 m c) (Proc.devRef .tc main_v25) = _
  after_results_simp <;> rfl

/-- An argument array is as launched. -/
theorem V1_arg (r : Ref sig .tc) (h : r ∉ hostOps0_W) : V1 m c r = m ((c : Thread nD τ).loc r) :=
  (V1_of m c r h).trans rfl

end Cert.KernelIdeal.Bridge

end
-- ==== Proof.KIBridgeRead1.lean ====
/-
  What the host leaves in the buffers before the second node layer's region, from any contents `W` of the buffers
  before it: the neighbour mean of the previous layer's output, and the narrowed copies of that output and of the
  layer's weights.
-/
import proofs.«181890_j55551107006974_1_alg».proof.Proof.Gen.KernelIdeal.Regions
import proofs.«181890_j55551107006974_1_alg».proof.Proof.KIBridgeHost
import Idealize.ShloMosaic.Lib.StableHlo.Run

set_option maxRecDepth 1124

noncomputable section

namespace Cert.KernelIdeal.Bridge

open Idealize.ShloMosaic Idealize.ShloMosaic.TcCoe Cert.KernelIdeal Cert.KernelIdeal.Gen Idealize.ShloMosaic.StableHlo

variable (W : Valuation τ sig (Elt Ideal))

/-- The region's first operand: the neighbour mean of the previous layer's output `h`, narrowed — given that `W`
    holds the edge list's two rows, the in-degree column and `h` where the host reads them. -/
theorem after1_mean (e : IVec Cert.ReferenceIdeal.S2x800000 32) (h : FVec Ideal Cert.ReferenceIdeal.S50000x64 .f32)
    (hs : W (Proc.devRef .tc main_v1) = srcRow e) (hd : W (Proc.devRef .tc main_v3) = dstRow e)
    (hc : W (Proc.devRef .tc main_v9) = cnt e) (hh : W (Proc.devRef .tc main_v26) = h) :
    StableHlo.after hostOps1 W (Proc.devRef .tc main_v39) = truncf .bf16 (mean64 e h) bitsLt_bf16_f32 := by
  after_results_simp
  rw [hs, hd, hc, hh]
  rfl

/-- Its second operand: the previous layer's output, narrowed. -/
theorem after1_x : StableHlo.after hostOps1 W (Proc.devRef .tc main_v40)
    = (truncf .bf16 (W (Proc.devRef .tc main_v26) : FVec Ideal Cert.ReferenceIdeal.S50000x64 .f32) bitsLt_bf16_f32 : FVec Ideal Cert.ReferenceIdeal.S50000x64 .bf16) := by
  after_results_simp <;> rfl

/-- The layer's left weights, narrowed. -/
theorem after1_wl : StableHlo.after hostOps1 W (Proc.devRef .tc main_v41)
    = (truncf .bf16 (W (Proc.devRef .tc main_arg6) : FVec Ideal Cert.ReferenceIdeal.S64x64 .f32) bitsLt_bf16_f32 : FVec Ideal Cert.ReferenceIdeal.S64x64 .bf16) := by
  after_results_simp <;> rfl

/-- The layer's right weights, narrowed. -/
theorem after1_wr : StableHlo.after hostOps1 W (Proc.devRef .tc main_v42)
    = (truncf .bf16 (W (Proc.devRef .tc main_arg7) : FVec Ideal Cert.ReferenceIdeal.S64x64 .f32) bitsLt_bf16_f32 : FVec Ideal Cert.ReferenceIdeal.S64x64 .bf16) := by
  after_results_simp <;> rfl

end Cert.KernelIdeal.Bridge

end
-- ==== Proof.KIBridgeRead2.lean ====
/-
  What the host leaves in the buffers before the third node layer's region, from any contents `W` of the buffers
  before it: the neighbour mean of the previous layer's output, and the narrowed copies of that output and of the
  layer's weights.
-/
import proofs.«181890_j55551107006974_1_alg».proof.Proof.Gen.KernelIdeal.Regions
import proofs.«181890_j55551107006974_1_alg».proof.Proof.KIBridgeHost
import Idealize.ShloMosaic.Lib.StableHlo.Run

set_option maxRecDepth 1124

noncomputable section

namespace Cert.KernelIdeal.Bridge

open Idealize.ShloMosaic Idealize.ShloMosaic.TcCoe Cert.KernelIdeal Cert.KernelIdeal.Gen Idealize.ShloMosaic.StableHlo

variable (W : Valuation τ sig (Elt Ideal))

/-- The region's first operand: the neighbour mean of the previous layer's output `h`, narrowed — given that `W`
    holds the edge list's two rows, the in-degree column and `h` where the host reads them. -/
theorem after2_mean (e : IVec Cert.ReferenceIdeal.S2x800000 32) (h : FVec Ideal Cert.ReferenceIdeal.S50000x64 .f32)
    (hs : W (Proc.devRef .tc main_v1) = srcRow e) (hd : W (Proc.devRef .tc main_v3) = dstRow e)
    (hc : W (Proc.devRef .tc main_v9) = cnt e) (hh : W (Proc.devRef .tc main_v43) = h) :
    StableHlo.after hostOps2 W (Proc.devRef .tc main_v56) = truncf .bf16 (mean64 e h) bitsLt_bf16_f32 := by
  after_results_simp
  rw [hs, hd, hc, hh]
  rfl

/-- Its second operand: the previous layer's output, narrowed. -/
theorem after2_x : StableHlo.after hostOps2 W (Proc.devRef .tc main_v57)
    = (truncf .bf16 (W (Proc.devRef .tc main_v43) : FVec Ideal Cert.ReferenceIdeal.S50000x64 .f32) bitsLt_bf16_f32 : FVec Ideal Cert.ReferenceIdeal.S50000x64 .bf16) := by
  after_results_simp <;> rfl

/-- The layer's left weights, narrowed. -/
theorem after2_wl : StableHlo.after hostOps2 W (Proc.devRef .tc main_v58)
    = (truncf .bf16 (W (Proc.devRef .tc main_arg9) : FVec Ideal Cert.ReferenceIdeal.S64x64 .f32) bitsLt_bf16_f32 : FVec Ideal Cert.ReferenceIdeal.S64x64 .bf16) := by
  after_results_simp <;> rfl

/-- The layer's right weights, narrowed. -/
theorem after2_wr : StableHlo.after hostOps2 W (Proc.devRef .tc main_v59)
    = (truncf .bf16 (W (Proc.devRef .tc main_arg10) : FVec Ideal Cert.ReferenceIdeal.S64x64 .f32) bitsLt_bf16_f32 : FVec Ideal Cert.ReferenceIdeal.S64x64 .bf16) := by
  after_results_simp <;> rfl

end Cert.KernelIdeal.Bridge

end
-- ==== Proof.KIBridgeRead3.lean ====
/-
  What the host leaves in the buffers before the edge network's region, from any contents `W` of the buffers
  before it — the end points' features next to the edge attributes, and the narrowed weights —, and the final
  reshape of the region's E × 1 output to a vector of E logits.
-/
import proofs.«181890_j55551107006974_1_alg».proof.Proof.Gen.KernelIdeal.Regions
import proofs.«181890_j55551107006974_1_alg».proof.Proof.KIBridgeHost
import Idealize.ShloMosaic.Lib.StableHlo.Run

set_option maxRecDepth 1124

noncomputable section

namespace Cert.KernelIdeal.Bridge

open Idealize.ShloMosaic Idealize.ShloMosaic.TcCoe Cert.KernelIdeal Cert.KernelIdeal.Gen Idealize.ShloMosaic.StableHlo

variable (W : Valuation τ sig (Elt Ideal))

/-- A function of three operands' contents, each taken at its own reference's type, for an operation that takes them
    as one family indexed by the operand's number. -/
def tri3 {Val : EltTy → Type} {x a b y : Ref sig .tc}
    (f : ((k : Fin 3) → ((![x, a, b] : Fin 3 → Ref sig .tc) k).ty.Contents Val) → y.ty.Contents Val)
    (p : x.ty.Contents Val) (q : a.ty.Contents Val) (r : b.ty.Contents Val) : y.ty.Contents Val :=
  f (Fin.cons p (Fin.cons q (Fin.cons r (fun i => i.elim0))))

/-- A three-operand operation's result with each operand's contents at its own reference, so that the operands'
    contents can be read in turn. -/
theorem nary3_result' {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = tri3 f (F (Proc.devRef .tc x)) (F (Proc.devRef .tc a)) (F (Proc.devRef .tc b)) := by
  rw [nary_result]; unfold tri3; congr 1; funext k; fin_cases k <;> rfl

/-- The region's first operand: the edge features built from the last node layer's output `h`, narrowed. -/
theorem after3_feat (e : IVec Cert.ReferenceIdeal.S2x800000 32) (h : FVec Ideal Cert.ReferenceIdeal.S50000x64 .f32)
    (ea : FVec Ideal Cert.ReferenceIdeal.S800000x8 .f32)
    (hs : W (Proc.devRef .tc main_v1) = srcRow e) (hd : W (Proc.devRef .tc main_v3) = dstRow e)
    (hh : W (Proc.devRef .tc main_v60) = h) (ha : W (Proc.devRef .tc main_arg2) = ea) :
    StableHlo.after hostOps3 W (Proc.devRef .tc main_v76) = truncf .bf16 (feat e h ea) bitsLt_bf16_f32 := by
  simp (disch := decide) only [after_cons, after_nil, nary3_result',
    nullary_result', unary_result', binary_result', ternary_result',
    nullary_result_ne', unary_result_ne', binary_result_ne', ternary_result_ne', nary_result_ne']
  rw [hs, hd, hh, ha]
  rfl

/-- The edge network's first weights, narrowed. -/
theorem after3_w1 : StableHlo.after hostOps3 W (Proc.devRef .tc main_v77)
    = (truncf .bf16 (W (Proc.devRef .tc main_arg12) : FVec Ideal Cert.ReferenceIdeal.S136x64 .f32) bitsLt_bf16_f32 : FVec Ideal Cert.ReferenceIdeal.S136x64 .bf16) := by
  after_results_simp <;> rfl

/-- Its second weights, narrowed. -/
theorem after3_w2 : StableHlo.after hostOps3 W (Proc.devRef .tc main_v78)
    = (truncf .bf16 (W (Proc.devRef .tc main_arg14) : FVec Ideal Cert.ReferenceIdeal.S64x32 .f32) bitsLt_bf16_f32 : FVec Ideal Cert.ReferenceIdeal.S64x32 .bf16) := by
  after_results_simp <;> rfl

/-- Its third weights, narrowed. -/
theorem after3_w3 : StableHlo.after hostOps3 W (Proc.devRef .tc main_v79)
    = (truncf .bf16 (W (Proc.devRef .tc main_arg16) : FVec Ideal Cert.ReferenceIdeal.S32x1 .f32) bitsLt_bf16_f32 : FVec Ideal Cert.ReferenceIdeal.S32x1 .bf16) := by
  after_results_simp <;> rfl

/-- The result: the region's E × 1 output read as a vector of E logits. -/
theorem after4_out : StableHlo.after hostOps4 W (Proc.devRef .tc main_v81)
    = (shapeCast Cert.ReferenceIdeal.S800000 (W (Proc.devRef .tc main_v80) : FVec Ideal Cert.ReferenceIdeal.S800000x1 .f32)
        Cert.ReferenceIdeal.Facts₀.shapeCasts_S800000x1_S800000 : FVec Ideal Cert.ReferenceIdeal.S800000 .f32) := by
  after_results_simp <;> rfl

end Cert.KernelIdeal.Bridge

end
-- ==== Proof.KIBridgeKernel.lean ====
/-
  The kernel program's result, read through its host operations, is the whole network `net` of the launch
  contents of its eighteen arguments — provided each region leaves in its output array the layer it computes,
  applied to what its operand arrays hold when it starts. Between two regions the host forms the next layer's
  operands from the previous region's output; narrowing an operand to the shorter float format changes nothing
  on the extended reals, so each region's layer is the specification's layer on the un-narrowed arrays.
-/
import proofs.«181890_j55551107006974_1_alg».proof.Proof.Gen.KernelIdeal.Regions
import proofs.«181890_j55551107006974_1_alg».proof.Proof.KIBridgeHost
import proofs.«181890_j55551107006974_1_alg».proof.Proof.KIBridgeRead0
import proofs.«181890_j55551107006974_1_alg».proof.Proof.KIBridgeRead1
import proofs.«181890_j55551107006974_1_alg».proof.Proof.KIBridgeRead2
import proofs.«181890_j55551107006974_1_alg».proof.Proof.KIBridgeRead3
import Idealize.ShloMosaic.Lib.StableHlo.Run

set_option maxRecDepth 1124

noncomputable section

namespace Cert.KernelIdeal.Bridge

open Idealize.ShloMosaic Idealize.ShloMosaic.TcCoe Cert.KernelIdeal Cert.KernelIdeal.Gen Idealize.ShloMosaic.StableHlo

/-! ## Narrowing the operands changes no layer -/

theorem sage16_trunc (hb : FTy.bits .bf16 < FTy.bits .f32) (a x : FVec Ideal S50000x16 .f32) (wl wr : FVec Ideal S16x64 .f32)
    (b : FVec Ideal S64 .f32) :
    Spec.sage16 (φa := .bf16) (φx := .bf16) (φl := .bf16) (φr := .bf16) (truncf .bf16 a hb) (truncf .bf16 x hb) (truncf .bf16 wl hb) (truncf .bf16 wr hb) b
      = Spec.sage16 a x wl wr b := rfl

theorem sage64_trunc (hb : FTy.bits .bf16 < FTy.bits .f32) (a x : FVec Ideal S50000x64 .f32) (wl wr : FVec Ideal S64x64 .f32)
    (b : FVec Ideal S64 .f32) :
    Spec.sage64 (φa := .bf16) (φx := .bf16) (φl := .bf16) (φr := .bf16) (truncf .bf16 a hb) (truncf .bf16 x hb) (truncf .bf16 wl hb) (truncf .bf16 wr hb) b
      = Spec.sage64 a x wl wr b := rfl

theorem edgeMlp_trunc (hb : FTy.bits .bf16 < FTy.bits .f32) (e : FVec Ideal S800000x136 .f32) (w1 : FVec Ideal S136x64 .f32)
    (b1 : FVec Ideal S64 .f32) (w2 : FVec Ideal S64x32 .f32) (b2 : FVec Ideal S32 .f32) (w3 : FVec Ideal S32x1 .f32)
    (b3 : FVec Ideal S1 .f32) :
    Spec.edgeMlp (φe := .bf16) (φ1 := .bf16) (φ2 := .bf16) (φ3 := .bf16) (truncf .bf16 e hb) (truncf .bf16 w1 hb) b1
        (truncf .bf16 w2 hb) b2 (truncf .bf16 w3 hb) b3
      = Spec.edgeMlp e w1 b1 w2 b2 w3 b3 := rfl

variable (m : (ℓ : Loc nD τ sig) → Buf (Elt Ideal) ℓ) (outs : Outs (F := Ideal)) (c : Dev nD)

/-! ## A buffer nothing has written since the first host stretch still holds what that stretch left -/

theorem V2_keep (r : Ref sig .tc) (h2 : r ∉ ([main_v26] : List (Ref sig .tc))) : V2 m outs c r = V1 m c r :=
  V2_of m outs c r h2
theorem V3_keep (r : Ref sig .tc) (h2 : r ∉ ([main_v26] : List (Ref sig .tc))) (h3 : r ∉ hostOps1_W) :
    V3 m outs c r = V1 m c r :=
  (V3_of m outs c r h3).trans (V2_keep m outs c r h2)
theorem V4_keep (r : Ref sig .tc) (h2 : r ∉ ([main_v26] : List (Ref sig .tc))) (h3 : r ∉ hostOps1_W)
    (h4 : r ∉ ([main_v43] : List (Ref sig .tc))) : V4 m outs c r = V1 m c r :=
  (V4_of m outs c r h4).trans (V3_keep m outs c r h2 h3)
theorem V5_keep (r : Ref sig .tc) (h2 : r ∉ ([main_v26] : List (Ref sig .tc))) (h3 : r ∉ hostOps1_W)
    (h4 : r ∉ ([main_v43] : List (Ref sig .tc))) (h5 : r ∉ hostOps2_W) : V5 m outs c r = V1 m c r :=
  (V5_of m outs c r h5).trans (V4_keep m outs c r h2 h3 h4)
theorem V6_keep (r : Ref sig .tc) (h2 : r ∉ ([main_v26] : List (Ref sig .tc))) (h3 : r ∉ hostOps1_W)
    (h4 : r ∉ ([main_v43] : List (Ref sig .tc))) (h5 : r ∉ hostOps2_W) (h6 : r ∉ ([main_v60] : List (Ref sig .tc))) :
    V6 m outs c r = V1 m c r :=
  (V6_of m outs c r h6).trans (V5_keep m outs c r h2 h3 h4 h5)
theorem V7_keep (r : Ref sig .tc) (h2 : r ∉ ([main_v26] : List (Ref sig .tc))) (h3 : r ∉ hostOps1_W)
    (h4 : r ∉ ([main_v43] : List (Ref sig .tc))) (h5 : r ∉ hostOps2_W) (h6 : r ∉ ([main_v60] : List (Ref sig .tc)))
    (h7 : r ∉ hostOps3_W) : V7 m outs c r = V1 m c r :=
  (V7_of m outs c r h7).trans (V6_keep m outs c r h2 h3 h4 h5 h6)

/-! ## What each region leaves is where the next host stretch reads it -/

theorem V2_out : V2 m outs c main_v26 = outs 2 main_v26 c := Function.update_self _ _ _
theorem V4_out : V4 m outs c main_v43 = outs 4 main_v43 c := Function.update_self _ _ _
theorem V6_out : V6 m outs c main_v60 = outs 6 main_v60 c := Function.update_self _ _ _
theorem V8_out : V8 m outs c main_v80 = outs 8 main_v80 c := Function.update_self _ _ _

/-! ## The layers -/

/-- The first region leaves the first node layer of the launch contents. -/
theorem layer1_eq
    (h0 : outs 2 main_v26 c = Spec.sage16 (φa := .bf16) (φx := .bf16) (φl := .bf16) (φr := .bf16) (V1 m c main_v22) (V1 m c main_v23) (V1 m c main_v24) (V1 m c main_v25) (V1 m c main_arg5)) :
    outs 2 main_v26 c = layer1 (m ((c : Thread nD τ).loc main_arg1)) (m ((c : Thread nD τ).loc main_arg0)) (m ((c : Thread nD τ).loc main_arg3)) (m ((c : Thread nD τ).loc main_arg4)) (m ((c : Thread nD τ).loc main_arg5)) := by
  rw [h0, V1_mean, V1_x, V1_wl, V1_wr, V1_arg m c main_arg5 (by decide)]
  exact sage16_trunc _ _ _ _ _ _

/-- The second region leaves the second node layer of the first region's output. -/
theorem layer2_eq (h : FVec Ideal S50000x64 .f32) (hh : outs 2 main_v26 c = h)
    (h1 : outs 4 main_v43 c = Spec.sage64 (φa := .bf16) (φx := .bf16) (φl := .bf16) (φr := .bf16) (V3 m outs c main_v39) (V3 m outs c main_v40) (V3 m outs c main_v41) (V3 m outs c main_v42) (V3 m outs c main_arg8)) :
    outs 4 main_v43 c = layer64 (m ((c : Thread nD τ).loc main_arg1)) h (m ((c : Thread nD τ).loc main_arg6)) (m ((c : Thread nD τ).loc main_arg7)) (m ((c : Thread nD τ).loc main_arg8)) := by
  have e39 : V3 m outs c main_v39 = truncf .bf16 (mean64 (m ((c : Thread nD τ).loc main_arg1)) h) bitsLt_bf16_f32 :=
    after1_mean (V2 m outs c) _ h ((V2_keep m outs c main_v1 (by decide)).trans (V1_src m c))
      ((V2_keep m outs c main_v3 (by decide)).trans (V1_dst m c)) ((V2_keep m outs c main_v9 (by decide)).trans (V1_cnt m c))
      ((V2_out m outs c).trans hh)
  have e40 : V3 m outs c main_v40 = truncf .bf16 h bitsLt_bf16_f32 := by
    rw [← hh, ← V2_out m outs c]; exact after1_x (V2 m outs c)
  have e41 : V3 m outs c main_v41 = (truncf .bf16 ((m ((c : Thread nD τ).loc main_arg6)) : FVec Ideal S64x64 .f32) bitsLt_bf16_f32 : FVec Ideal S64x64 .bf16) := by
    rw [← V1_arg m c main_arg6 (by decide), ← V2_keep m outs c main_arg6 (by decide)]; exact after1_wl (V2 m outs c)
  have e42 : V3 m outs c main_v42 = (truncf .bf16 ((m ((c : Thread nD τ).loc main_arg7)) : FVec Ideal S64x64 .f32) bitsLt_bf16_f32 : FVec Ideal S64x64 .bf16) := by
    rw [← V1_arg m c main_arg7 (by decide), ← V2_keep m outs c main_arg7 (by decide)]; exact after1_wr (V2 m outs c)
  have e8 : V3 m outs c main_arg8 = (m ((c : Thread nD τ).loc main_arg8)) :=
    (V3_keep m outs c main_arg8 (by decide) (by decide)).trans (V1_arg m c main_arg8 (by decide))
  rw [h1, e39, e40, e41, e42, e8]
  exact sage64_trunc _ _ _ _ _ _

/-- The third region leaves the third node layer of the second region's output. -/
theorem layer3_eq (h : FVec Ideal S50000x64 .f32) (hh : outs 4 main_v43 c = h)
    (h2 : outs 6 main_v60 c = Spec.sage64 (φa := .bf16) (φx := .bf16) (φl := .bf16) (φr := .bf16) (V5 m outs c main_v56) (V5 m outs c main_v57) (V5 m outs c main_v58) (V5 m outs c main_v59) (V5 m outs c main_arg11)) :
    outs 6 main_v60 c = layer64 (m ((c : Thread nD τ).loc main_arg1)) h (m ((c : Thread nD τ).loc main_arg9)) (m ((c : Thread nD τ).loc main_arg10)) (m ((c : Thread nD τ).loc main_arg11)) := by
  have e56 : V5 m outs c main_v56 = truncf .bf16 (mean64 (m ((c : Thread nD τ).loc main_arg1)) h) bitsLt_bf16_f32 :=
    after2_mean (V4 m outs c) _ h ((V4_keep m outs c main_v1 (by decide) (by decide) (by decide)).trans (V1_src m c))
      ((V4_keep m outs c main_v3 (by decide) (by decide) (by decide)).trans (V1_dst m c)) ((V4_keep m outs c main_v9 (by decide) (by decide) (by decide)).trans (V1_cnt m c))
      ((V4_out m outs c).trans hh)
  have e57 : V5 m outs c main_v57 = truncf .bf16 h bitsLt_bf16_f32 := by
    rw [← hh, ← V4_out m outs c]; exact after2_x (V4 m outs c)
  have e58 : V5 m outs c main_v58 = (truncf .bf16 ((m ((c : Thread nD τ).loc main_arg9)) : FVec Ideal S64x64 .f32) bitsLt_bf16_f32 : FVec Ideal S64x64 .bf16) := by
    rw [← V1_arg m c main_arg9 (by decide), ← V4_keep m outs c main_arg9 (by decide) (by decide) (by decide)]; exact after2_wl (V4 m outs c)
  have e59 : V5 m outs c main_v59 = (truncf .bf16 ((m ((c : Thread nD τ).loc main_arg10)) : FVec Ideal S64x64 .f32) bitsLt_bf16_f32 : FVec Ideal S64x64 .bf16) := by
    rw [← V1_arg m c main_arg10 (by decide), ← V4_keep m outs c main_arg10 (by decide) (by decide) (by decide)]; exact after2_wr (V4 m outs c)
  have e11 : V5 m outs c main_arg11 = (m ((c : Thread nD τ).loc main_arg11)) :=
    (V5_keep m outs c main_arg11 (by decide) (by decide) (by decide) (by decide)).trans (V1_arg m c main_arg11 (by decide))
  rw [h2, e56, e57, e58, e59, e11]
  exact sage64_trunc _ _ _ _ _ _

/-- The fourth region leaves the edge network of the end points' features under the third region's output. -/
theorem edge_eq (h : FVec Ideal S50000x64 .f32) (hh : outs 6 main_v60 c = h)
    (h3 : outs 8 main_v80 c = Spec.edgeMlp (φe := .bf16) (φ1 := .bf16) (φ2 := .bf16) (φ3 := .bf16) (V7 m outs c main_v76) (V7 m outs c main_v77) (V7 m outs c main_arg13) (V7 m outs c main_v78) (V7 m outs c main_arg15) (V7 m outs c main_v79) (V7 m outs c main_arg17)) :
    outs 8 main_v80 c = Spec.edgeMlp (φe := .f32) (φ1 := .f32) (φ2 := .f32) (φ3 := .f32) (feat (m ((c : Thread nD τ).loc main_arg1)) h (m ((c : Thread nD τ).loc main_arg2))) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have e76 : V7 m outs c main_v76 = truncf .bf16 (feat (m ((c : Thread nD τ).loc main_arg1)) h (m ((c : Thread nD τ).loc main_arg2))) bitsLt_bf16_f32 :=
    after3_feat (V6 m outs c) _ h _ ((V6_keep m outs c main_v1 (by decide) (by decide) (by decide) (by decide) (by decide)).trans (V1_src m c))
      ((V6_keep m outs c main_v3 (by decide) (by decide) (by decide) (by decide) (by decide)).trans (V1_dst m c))
      ((V6_out m outs c).trans hh)
      ((V6_keep m outs c main_arg2 (by decide) (by decide) (by decide) (by decide) (by decide)).trans (V1_arg m c main_arg2 (by decide)))
  have e77 : V7 m outs c main_v77 = (truncf .bf16 ((m ((c : Thread nD τ).loc main_arg12)) : FVec Ideal S136x64 .f32) bitsLt_bf16_f32 : FVec Ideal S136x64 .bf16) := by
    rw [← V1_arg m c main_arg12 (by decide), ← V6_keep m outs c main_arg12 (by decide) (by decide) (by decide) (by decide) (by decide)]; exact after3_w1 (V6 m outs c)
  have e78 : V7 m outs c main_v78 = (truncf .bf16 ((m ((c : Thread nD τ).loc main_arg14)) : FVec Ideal S64x32 .f32) bitsLt_bf16_f32 : FVec Ideal S64x32 .bf16) := by
    rw [← V1_arg m c main_arg14 (by decide), ← V6_keep m outs c main_arg14 (by decide) (by decide) (by decide) (by decide) (by decide)]; exact after3_w2 (V6 m outs c)
  have e79 : V7 m outs c main_v79 = (truncf .bf16 ((m ((c : Thread nD τ).loc main_arg16)) : FVec Ideal S32x1 .f32) bitsLt_bf16_f32 : FVec Ideal S32x1 .bf16) := by
    rw [← V1_arg m c main_arg16 (by decide), ← V6_keep m outs c main_arg16 (by decide) (by decide) (by decide) (by decide) (by decide)]; exact after3_w3 (V6 m outs c)
  have e13 : V7 m outs c main_arg13 = (m ((c : Thread nD τ).loc main_arg13)) :=
    (V7_keep m outs c main_arg13 (by decide) (by decide) (by decide) (by decide) (by decide) (by decide)).trans (V1_arg m c main_arg13 (by decide))
  have e15 : V7 m outs c main_arg15 = (m ((c : Thread nD τ).loc main_arg15)) :=
    (V7_keep m outs c main_arg15 (by decide) (by decide) (by decide) (by decide) (by decide) (by decide)).trans (V1_arg m c main_arg15 (by decide))
  have e17 : V7 m outs c main_arg17 = (m ((c : Thread nD τ).loc main_arg17)) :=
    (V7_keep m outs c main_arg17 (by decide) (by decide) (by decide) (by decide) (by decide) (by decide)).trans (V1_arg m c main_arg17 (by decide))
  rw [h3, e76, e77, e13, e78, e15, e79, e17]
  exact edgeMlp_trunc _ _ _ _ _ _ _ _

/-! ## The whole program -/

/-- The kernel program's result array is the network of the launch contents of its arguments. -/
theorem kernel_eq
    (h0 : outs 2 main_v26 c = Spec.sage16 (φa := .bf16) (φx := .bf16) (φl := .bf16) (φr := .bf16) (V1 m c main_v22) (V1 m c main_v23) (V1 m c main_v24) (V1 m c main_v25) (V1 m c main_arg5))
    (h1 : outs 4 main_v43 c = Spec.sage64 (φa := .bf16) (φx := .bf16) (φl := .bf16) (φr := .bf16) (V3 m outs c main_v39) (V3 m outs c main_v40) (V3 m outs c main_v41) (V3 m outs c main_v42) (V3 m outs c main_arg8))
    (h2 : outs 6 main_v60 c = Spec.sage64 (φa := .bf16) (φx := .bf16) (φl := .bf16) (φr := .bf16) (V5 m outs c main_v56) (V5 m outs c main_v57) (V5 m outs c main_v58) (V5 m outs c main_v59) (V5 m outs c main_arg11))
    (h3 : outs 8 main_v80 c = Spec.edgeMlp (φe := .bf16) (φ1 := .bf16) (φ2 := .bf16) (φ3 := .bf16) (V7 m outs c main_v76) (V7 m outs c main_v77) (V7 m outs c main_arg13) (V7 m outs c main_v78) (V7 m outs c main_arg15) (V7 m outs c main_v79) (V7 m outs c main_arg17)) :
    V9 m outs c main_v81
      = net (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17)) := by
  have L1 := layer1_eq m outs c h0
  have L2 := layer2_eq m outs c _ L1 h1
  have L3 := layer3_eq m outs c _ L2 h2
  have L4 := edge_eq m outs c _ L3 h3
  have e81 := after4_out (V8 m outs c)
  rw [V8_out m outs c, L4] at e81
  exact e81

end Cert.KernelIdeal.Bridge

end
-- ==== Proof.KIBridgeRef.lean ====
/-
  The reference program's result is the whole network `net` of its eighteen argument arrays: its composed term
  spells the three node layers and the edge network exactly as the specification does (each layer recomputing
  the in-degree column, which is the same term every time).
-/
import proofs.«181890_j55551107006974_1_alg».proof.Proof.Gen.ReferenceIdeal.Run
import proofs.«181890_j55551107006974_1_alg».proof.Proof.KIBridgeHost

set_option maxRecDepth 8192

noncomputable section

namespace Cert.KernelIdeal.Bridge

open Idealize.ShloMosaic Idealize.ShloMosaic.TcCoe

/-- The reference's result as the network of its arguments. -/
theorem ref_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 m' c
      = net (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg17)) := by
  unfold Cert.ReferenceIdeal.Value.res_out0 Cert.ReferenceIdeal.Value.res_main_v108
  rfl

end Cert.KernelIdeal.Bridge

end
-- ==== Proof.KIBridge.lean ====
/-
  The two programs end with the same result array: from memories that agree on the eighteen arguments, the kernel
  program's result (read through its host operations, each region leaving its layer) and the reference's result
  are the same network of the same arrays.
-/
import proofs.«181890_j55551107006974_1_alg».proof.Proof.Gen.KernelIdeal.Regions
import proofs.«181890_j55551107006974_1_alg».proof.Proof.Gen.ReferenceIdeal.Run
import proofs.«181890_j55551107006974_1_alg».proof.Proof.KIBridgeHost
import proofs.«181890_j55551107006974_1_alg».proof.Proof.KIBridgeKernel
import proofs.«181890_j55551107006974_1_alg».proof.Proof.KIBridgeRef
import Idealize.ShloMosaic.Lib.StableHlo.Run

set_option maxRecDepth 1124

noncomputable section

namespace Cert.KernelIdeal.Bridge

open Idealize.ShloMosaic Idealize.ShloMosaic.TcCoe Cert.KernelIdeal Cert.KernelIdeal.Gen Idealize.ShloMosaic.StableHlo

/-- The kernel program's result array is the reference's. -/
theorem result_eq (m : (ℓ : Loc nD τ sig) → Buf (Elt Ideal) ℓ) (outs : Outs (F := Ideal)) (c : Dev nD)
    (m' : (ℓ : Loc Cert.ReferenceIdeal.nD Cert.ReferenceIdeal.τ Cert.ReferenceIdeal.sig) → Buf (Elt Ideal) ℓ)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h0 : outs 2 main_v26 c = Spec.sage16 (φa := .bf16) (φx := .bf16) (φl := .bf16) (φr := .bf16) (V1 m c main_v22) (V1 m c main_v23) (V1 m c main_v24) (V1 m c main_v25) (V1 m c main_arg5))
    (h1 : outs 4 main_v43 c = Spec.sage64 (φa := .bf16) (φx := .bf16) (φl := .bf16) (φr := .bf16) (V3 m outs c main_v39) (V3 m outs c main_v40) (V3 m outs c main_v41) (V3 m outs c main_v42) (V3 m outs c main_arg8))
    (h2 : outs 6 main_v60 c = Spec.sage64 (φa := .bf16) (φx := .bf16) (φl := .bf16) (φr := .bf16) (V5 m outs c main_v56) (V5 m outs c main_v57) (V5 m outs c main_v58) (V5 m outs c main_v59) (V5 m outs c main_arg11))
    (h3 : outs 8 main_v80 c = Spec.edgeMlp (φe := .bf16) (φ1 := .bf16) (φ2 := .bf16) (φ3 := .bf16) (V7 m outs c main_v76) (V7 m outs c main_v77) (V7 m outs c main_arg13) (V7 m outs c main_v78) (V7 m outs c main_arg15) (V7 m outs c main_v79) (V7 m outs c main_arg17)) :
    V9 m outs c main_v81 = Cert.ReferenceIdeal.Value.res_out0 m' c := by
  obtain ⟨e0, e1, e2, e3, e4, e5, e6, e7, e8, e9, e10, e11, e12, e13, e14, e15, e16, e17⟩ := hag
  rw [kernel_eq m outs c h0 h1 h2 h3, ref_eq m' c, e0, e1, e2, e3, e4, e5, e6, e7, e8, e9, e10, e11, e12, e13, e14, e15, e16, e17]

end Cert.KernelIdeal.Bridge

end
-- ==== Proof.lean ====
/-
  The three-layer neighbour-mean graph network with an edge read-out, as a program of four gridded kernel regions
  among host operations, against its plain array reference.

  Both programs gather the source rows of every edge, add them into their target nodes, divide by the (clamped)
  in-degree, and apply `max (mean · Wl + h · Wr + b, 0)` three times; then they join the end-point rows of every edge
  with the edge's own features and apply `max (max (e · W₁ + b₁, 0) · W₂ + b₂, 0) · W₃ + b₃`. The kernel program runs
  each of these four dense steps as a region over row blocks (10000 node rows, 4000 edge rows at a time), the weights
  whole at every block; the reference runs them as whole-array contractions. Over the extended reals a row of a matrix
  product depends only on the same row of the left factor, so every row block of a region's output is the matching
  row block of the whole-array step, and the blocks tile the rows: the regions' output arrays are the whole-array
  steps' results (no sum is reordered, so no finiteness is needed), the host operations around them are the same on
  both sides, and the two results agree index by index.

  Frames: the run of the kernel program over its four regions (every grid point's body loads its blocks, computes, and
  stores the output block whole) ends with every buffer at the contents followed item by item, and no item writes an
  argument array; the same text serves the word-level and the idealized program. The reference's frame is its run with
  the result dropped. The idealization rewrote nothing, so `preserves` is trivial.
-/
import proofs.«181890_j55551107006974_1_alg».proof.Defs
import proofs.«181890_j55551107006974_1_alg».proof.Proof.Gen.Kernel
import proofs.«181890_j55551107006974_1_alg».proof.Proof.Gen.KernelIdeal
import proofs.«181890_j55551107006974_1_alg».proof.Proof.Gen.ReferenceIdeal
import proofs.«181890_j55551107006974_1_alg».proof.Proof.Gen.Pre_finite_inputs
import proofs.«181890_j55551107006974_1_alg».proof.Proof.KBRun
import proofs.«181890_j55551107006974_1_alg».proof.Proof.KIRun
import proofs.«181890_j55551107006974_1_alg».proof.Proof.RefFrame
import proofs.«181890_j55551107006974_1_alg».proof.Proof.KIValue0
import proofs.«181890_j55551107006974_1_alg».proof.Proof.KIValue1
import proofs.«181890_j55551107006974_1_alg».proof.Proof.KIValue2
import proofs.«181890_j55551107006974_1_alg».proof.Proof.KIValue3
import proofs.«181890_j55551107006974_1_alg».proof.Proof.KIBridge
import Idealize.ShloMosaic.Adequacy
import Idealize.ShloMosaic.Init

noncomputable section

namespace Cert.Proof

open Idealize.ShloMosaic Idealize.SL.Sem

/-- The word-level program runs to the end, faults nowhere and leaves its arguments unchanged. -/
theorem frame_kernel : Cert.frame_Kernel := fun m ρ _ => Cert.Kernel.Hand.frame m ρ

/-- So does the idealized program. -/
theorem frame_kernelIdeal : Cert.frame_KernelIdeal := fun m ρ _ => Cert.KernelIdeal.Hand.frame m ρ

/-- The idealization rewrote nothing. -/
theorem preserves : Cert.preserves_Kernel_KernelIdeal := trivial

/-- From memories agreeing on the arguments the two idealized programs end with one result. The kernel program's run
    ends with the result buffer at the last contents' value; each region's output array there is the whole-array
    layer of the region's input arrays (the row blocks tile the rows), so that value is the network of the arguments,
    which is what the reference's run computes. -/
theorem algebraic : Cert.algebraic_KernelIdeal_ReferenceIdeal := by
  intro m ρ m' ρ' _ hagree
  refine ⟨fun c => Cert.ReferenceIdeal.Value.res_out0 m' c, ?_, Cert.ReferenceIdeal.Value.run (F := Ideal) m' ρ'⟩
  refine (θ_run Cert.KernelIdeal.defs _ _).mono (fun r h c => ⟨(h c).1.trans ?_, (h c).2⟩)
    (Cert.KernelIdeal.Hand.run_result (F := Ideal) m ρ)
  refine Cert.KernelIdeal.Bridge.result_eq m (Cert.KernelIdeal.Hand.outs m) c m' (hagree c) ?_ ?_ ?_ ?_
  · exact (Cert.KernelIdeal.Hand.outs_2 m c).trans (Cert.KernelIdeal.RegionValue.arr0 (Cert.KernelIdeal.Hand.E1 m) c)
  · rw [Cert.KernelIdeal.Hand.V3_eq]
    exact (Cert.KernelIdeal.Hand.outs_4 m c).trans (Cert.KernelIdeal.RegionValue.arr1 (Cert.KernelIdeal.Hand.E3 m) c)
  · rw [Cert.KernelIdeal.Hand.V5_eq]
    exact (Cert.KernelIdeal.Hand.outs_6 m c).trans (Cert.KernelIdeal.RegionValue.arr2 (Cert.KernelIdeal.Hand.E5 m) c)
  · rw [Cert.KernelIdeal.Hand.V7_eq]
    exact (Cert.KernelIdeal.Hand.outs_8 m c).trans (Cert.KernelIdeal.RegionValue.arr3 (Cert.KernelIdeal.Hand.E7 m) c)

theorem claim : Cert.Claim := ⟨Cert.Kernel.Gen.facts, Cert.KernelIdeal.Gen.facts, Cert.ReferenceIdeal.Gen.facts, Cert.Pre_finite_inputs.Gen.facts,
  frame_kernel, frame_kernelIdeal, Cert.KernelIdeal.Bridge.frame_ri, preserves, algebraic⟩

end Cert.Proof

end
